-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x150000 : Shape := ⟨2, ![2, 150000]⟩
abbrev S50000 : Shape := ⟨1, ![50000]⟩
abbrev S128 : Shape := ⟨1, ![128]⟩
abbrev S128x320 : Shape := ⟨2, ![128, 320]⟩
abbrev S320 : Shape := ⟨1, ![320]⟩
abbrev S320x512 : Shape := ⟨2, ![320, 512]⟩
abbrev S512 : Shape := ⟨1, ![512]⟩
abbrev S4x512 : Shape := ⟨2, ![4, 512]⟩
abbrev S4x512x512 : Shape := ⟨3, ![4, 512, 512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x320 : S_.BroadcastsInDim S128x320 (![] : Fin 0 → Fin S128x320.rank)
  reducesTo_S128x320_S_d0_1 : S128x320.ReducesTo [0, 1] S_
  bcast_S_S320 : S_.BroadcastsInDim S320 (![] : Fin 0 → Fin S320.rank)
  reducesTo_S320_S_d0 : S320.ReducesTo [0] S_
  bcast_S_S320x512 : S_.BroadcastsInDim S320x512 (![] : Fin 0 → Fin S320x512.rank)
  reducesTo_S320x512_S_d0_1 : S320x512.ReducesTo [0, 1] S_
  bcast_S_S512 : S_.BroadcastsInDim S512 (![] : Fin 0 → Fin S512.rank)
  reducesTo_S512_S_d0 : S512.ReducesTo [0] S_
  bcast_S_S4x512 : S_.BroadcastsInDim S4x512 (![] : Fin 0 → Fin S4x512.rank)
  reducesTo_S4x512_S_d0_1 : S4x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S1 .f32) (main_v133 : IVec S_ 1) (main_v136 : IVec S512x1 1) : IVec S_ 1 :=
  let main_c_53 : IVec S_ 1 := constantI S_ 1 1#1
  let main_v137 : IVec S_ 1 := (fun x v => Host.reduce IntOp.andi x v reducesTo_S512x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg27 : FVec F S3x512x512 .f32) (main_arg28 : FVec F S3x512 .f32) (main_arg29 : FVec F S512x1 .f32) (main_arg30 : FVec F S1 .f32) (main_v118 : IVec S_ 1) (main_v119 : FVec F S4x512 .f32) : IVec S_ 1 :=
  let main_cst_46 : FVec F S_ .f32 := constant S_ .f32 0x7F800000#32
  let main_v120 : FVec F S4x512 .f32 := broadcastInDim S4x512 ![] bcast_S_S4x512 main_cst_46
  let main_v121 : IVec S4x512 1 := cmpf .olt main_v119 main_v120
  let main_c_47 : IVec S_ 1 := constantI S_ 1 1#1
  let main_v122 : IVec S_ 1 := (fun x v => Host.reduce IntOp.andi x v reducesTo_S4x512_S_d0_1 h_S_) main_v121 main_c_47
  let main_v123 : IVec S_ 1 := andi main_v118 main_v122
  let main_v124 : FVec F S3x512x512 .f32 := Host.absf main_arg27
  let main_cst_48 : FVec F S_ .f32 := constant S_ .f32 0x7F800000#32
  let main_v125 : FVec F S3x512x512 .f32 := broadcastInDim S3x512x512 ![] bcast_S_S3x512x512 main_cst_48
  let main_v126 : IVec S3x512x512 1 := cmpf .olt main_v124 main_v125
  let main_c_49 : IVec S_ 1 := constantI S_ 1 1#1
  let main_v127 : IVec S_ 1 := (fun x v => Host.reduce IntOp.andi x v reducesTo_S3x512x512_S_d0_1_2 h_S_) main_v126 main_c_49
  let main_v128 : IVec S_ 1 := andi main_v123 main_v127
  let main_v129 : FVec F S3x512 .f32 := Host.absf main_arg28
  let main_cst_50 : FVec F S_ .f32 := constant S_ .f32 0x7F800000#32
  let main_v130 : FVec F S3x512 .f32 := broadcastInDim S3x512 ![] bcast_S_S3x512 main_cst_50
  let main_v131 : IVec S3x512 1 := cmpf .olt main_v129 main_v130
  let main_c_51 : IVec S_ 1 := constantI S_ 1 1#1
  let main_v132 : IVec S_ 1 := (fun x v => Host.reduce IntOp.andi x v reducesTo_S3x512_S_d0_1 h_S_) main_v131 main_c_51
  let main_v133 : IVec S_ 1 := andi main_v128 main_v132
  let main_v134 : FVec F S512x1 .f32 := Host.absf main_arg29
  let main_cst_52 : FVec F S_ .f32 := constant S_ .f32 0x7F800000#32
  let main_v135 : FVec F S512x1 .f32 := broadcastInDim S512x1 ![] bcast_S_S512x1 main_cst_52
  let main_v136 : IVec S512x1 1 := cmpf .olt main_v134 main_v135
  fn_part8 (F := F) main_arg30 main_v133 main_v136

def fn_part6 {F : FTy → Type} [FloatOps F] (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v98 : IVec S_ 1) (main_v101 : IVec S4x512 1) (main_c_39 : IVec S_ 1) : IVec S_ 1 :=
  let main_v102 : IVec S_ 1 := (fun x v => Host.reduce IntOp.andi x v reducesTo_S4x512_S_d0_1 h_S_) main_v101 main_c_39
  let main_v103 : IVec S_ 1 := andi main_v98 main_v102
  let main_v104 : FVec F S4x512 .f32 := Host.absf main_arg23
  let main_cst_40 : FVec F S_ .f32 := constant S_ .f32 0x7F800000#32
  let main_v105 : FVec F S4x512 .f32 := broadcastInDim S4x512 ![] bcast_S_S4x512 main_cst_40
  let main_v106 : IVec S4x512 1 := cmpf .olt main_v104 main_v105
  let main_c_41 : IVec S_ 1 := constantI S_ 1 1#1
  let main_v107 : IVec S_ 1 := (fun x v => Host.reduce IntOp.andi x v reducesTo_S4x512_S_d0_1 h_S_) main_v106 main_c_41
  let main_v108 : IVec S_ 1 := andi main_v103 main_v107
  let main_v109 : FVec F S4x512 .f32 := Host.absf main_arg24
  let main_cst_42 : FVec F S_ .f32 := constant S_ .f32 0x7F800000#32
  let main_v110 : FVec F S4x512 .f32 := broadcastInDim S4x512 ![] bcast_S_S4x512 main_cst_42
  let main_v111 : IVec S4x512 1 := cmpf .olt main_v109 main_v110
  let main_c_43 : IVec S_ 1 := constantI S_ 1 1#1
  let main_v112 : IVec S_ 1 := (fun x v => Host.reduce IntOp.andi x v reducesTo_S4x512_S_d0_1 h_S_) main_v111 main_c_43
  let main_v113 : IVec S_ 1 := andi main_v108 main_v112
  let main_v114 : FVec F S4x512 .f32 := Host.absf main_arg25
  let main_cst_44 : FVec F S_ .f32 := constant S_ .f32 0x7F800000#32
  let main_v115 : FVec F S4x512 .f32 := broadcastInDim S4x512 ![] bcast_S_S4x512 main_cst_44
  let main_v116 : IVec S4x512 1 := cmpf .olt main_v114 main_v115
  let main_c_45 : IVec S_ 1 := constantI S_ 1 1#1
  let main_v117 : IVec S_ 1 := (fun x v => Host.reduce IntOp.andi x v reducesTo_S4x512_S_d0_1 h_S_) main_v116 main_c_45
  let main_v118 : IVec S_ 1 := andi main_v113 main_v117
  let main_v119 : FVec F S4x512 .f32 := Host.absf main_arg26
  fn_part7 (F := F) main_arg27 main_arg28 main_arg29 main_arg30 main_v118 main_v119

def fn_part5 {F : FTy → Type} [FloatOps F] (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v83 : IVec S_ 1) (main_v84 : FVec F S4x512x512 .f32) (main_cst_32 : FVec F S_ .f32) : IVec S_ 1 :=
  let main_v85 : FVec F S4x512x512 .f32 := broadcastInDim S4x512x512 ![] bcast_S_S4x512x512 main_cst_32
  let main_v86 : IVec S4x512x512 1 := cmpf .olt main_v84 main_v85
  let main_c_33 : IVec S_ 1 := constantI S_ 1 1#1
  let main_v87 : IVec S_ 1 := (fun x v => Host.reduce IntOp.andi x v reducesTo_S4x512x512_S_d0_1_2 h_S_) main_v86 main_c_33
  let main_v88 : IVec S_ 1 := andi main_v83 main_v87
  let main_v89 : FVec F S4x512 .f32 := Host.absf main_arg20
  let main_cst_34 : FVec F S_ .f32 := constant S_ .f32 0x7F800000#32
  let main_v90 : FVec F S4x512 .f32 := broadcastInDim S4x512 ![] bcast_S_S4x512 main_cst_34
  let main_v91 : IVec S4x512 1 := cmpf .olt main_v89 main_v90
  let main_c_35 : IVec S_ 1 := constantI S_ 1 1#1
  let main_v92 : IVec S_ 1 := (fun x v => Host.reduce IntOp.andi x v reducesTo_S4x512_S_d0_1 h_S_) main_v91 main_c_35
  let main_v93 : IVec S_ 1 := andi main_v88 main_v92
  let main_v94 : FVec F S4x512x512 .f32 := Host.absf main_arg21
  let main_cst_36 : FVec F S_ .f32 := constant S_ .f32 0x7F800000#32
  let main_v95 : FVec F S4x512x512 .f32 := broadcastInDim S4x512x512 ![] bcast_S_S4x512x512 main_cst_36
  let main_v96 : IVec S4x512x512 1 := cmpf .olt main_v94 main_v95
  let main_c_37 : IVec S_ 1 := constantI S_ 1 1#1
  let main_v97 : IVec S_ 1 := (fun x v => Host.reduce IntOp.andi x v reducesTo_S4x512x512_S_d0_1_2 h_S_) main_v96 main_c_37
  let main_v98 : IVec S_ 1 := andi main_v93 main_v97
  let main_v99 : FVec F S4x512 .f32 := Host.absf main_arg22
  let main_cst_38 : FVec F S_ .f32 := constant S_ .f32 0x7F800000#32
  let main_v100 : FVec F S4x512 .f32 := broadcastInDim S4x512 ![] bcast_S_S4x512 main_cst_38
  let main_v101 : IVec S4x512 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S4x512 .f32) (main_arg17 : FVec F S4x512 .f32) (main_arg18 : FVec F S4x512 .f32) (main_arg19 : FVec F S4x512x512 .f32) (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v63 : IVec S_ 1) (main_v67 : IVec S_ 1) : IVec S_ 1 :=
  let main_v68 : IVec S_ 1 := andi main_v63 main_v67
  let main_v69 : FVec F S4x512 .f32 := Host.absf main_arg16
  let main_cst_26 : FVec F S_ .f32 := constant S_ .f32 0x7F800000#32
  let main_v70 : FVec F S4x512 .f32 := broadcastInDim S4x512 ![] bcast_S_S4x512 main_cst_26
  let main_v71 : IVec S4x512 1 := cmpf .olt main_v69 main_v70
  let main_c_27 : IVec S_ 1 := constantI S_ 1 1#1
  let main_v72 : IVec S_ 1 := (fun x v => Host.reduce IntOp.andi x v reducesTo_S4x512_S_d0_1 h_S_) main_v71 main_c_27
  let main_v73 : IVec S_ 1 := andi main_v68 main_v72
  let main_v74 : FVec F S4x512 .f32 := Host.absf main_arg17
  let main_cst_28 : FVec F S_ .f32 := constant S_ .f32 0x7F800000#32
  let main_v75 : FVec F S4x512 .f32 := broadcastInDim S4x512 ![] bcast_S_S4x512 main_cst_28
  let main_v76 : IVec S4x512 1 := cmpf .olt main_v74 main_v75
  let main_c_29 : IVec S_ 1 := constantI S_ 1 1#1
  let main_v77 : IVec S_ 1 := (fun x v => Host.reduce IntOp.andi x v reducesTo_S4x512_S_d0_1 h_S_) main_v76 main_c_29
  let main_v78 : IVec S_ 1 := andi main_v73 main_v77
  let main_v79 : FVec F S4x512 .f32 := Host.absf main_arg18
  let main_cst_30 : FVec F S_ .f32 := constant S_ .f32 0x7F800000#32
  let main_v80 : FVec F S4x512 .f32 := broadcastInDim S4x512 ![] bcast_S_S4x512 main_cst_30
  let main_v81 : IVec S4x512 1 := cmpf .olt main_v79 main_v80
  let main_c_31 : IVec S_ 1 := constantI S_ 1 1#1
  let main_v82 : IVec S_ 1 := (fun x v => Host.reduce IntOp.andi x v reducesTo_S4x512_S_d0_1 h_S_) main_v81 main_c_31
  let main_v83 : IVec S_ 1 := andi main_v78 main_v82
  let main_v84 : FVec F S4x512x512 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S512 .f32) (main_arg14 : FVec F S512 .f32) (main_arg15 : FVec F S4x512 .f32) (main_arg16 : FVec F S4x512 .f32) (main_arg17 : FVec F S4x512 .f32) (main_arg18 : FVec F S4x512 .f32) (main_arg19 : FVec F S4x512x512 .f32) (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S4x512 .f32 := Host.absf main_arg15
  let main_cst_24 : FVec F S_ .f32 := constant S_ .f32 0x7F800000#32
  let main_v65 : FVec F S4x512 .f32 := broadcastInDim S4x512 ![] bcast_S_S4x512 main_cst_24
  let main_v66 : IVec S4x512 1 := cmpf .olt main_v64 main_v65
  let main_c_25 : IVec S_ 1 := constantI S_ 1 1#1
  let main_v67 : IVec S_ 1 := (fun x v => Host.reduce IntOp.andi x v reducesTo_S4x512_S_d0_1 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S320x512 .f32) (main_arg10 : FVec F S512 .f32) (main_arg11 : FVec F S512 .f32) (main_arg12 : FVec F S512 .f32) (main_arg13 : FVec F S512 .f32) (main_arg14 : FVec F S512 .f32) (main_arg15 : FVec F S4x512 .f32) (main_arg16 : FVec F S4x512 .f32) (main_arg17 : FVec F S4x512 .f32) (main_arg18 : FVec F S4x512 .f32) (main_arg19 : FVec F S4x512x512 .f32) (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v33 : IVec S_ 1) : IVec S_ 1 :=
  let main_v34 : FVec F S320x512 .f32 := Host.absf main_arg9
  let main_cst_12 : FVec F S_ .f32 := constant S_ .f32 0x7F800000#32
  let main_v35 : FVec F S320x512 .f32 := broadcastInDim S320x512 ![] bcast_S_S320x512 main_cst_12
  let main_v36 : IVec S320x512 1 := cmpf .olt main_v34 main_v35
  let main_c_13 : IVec S_ 1 := constantI S_ 1 1#1
  let main_v37 : IVec S_ 1 := (fun x v => Host.reduce IntOp.andi x v reducesTo_S320x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S128 .f32) (main_arg7 : FVec F S128x320 .f32) (main_arg8 : FVec F S320 .f32) (main_arg9 : FVec F S320x512 .f32) (main_arg10 : FVec F S512 .f32) (main_arg11 : FVec F S512 .f32) (main_arg12 : FVec F S512 .f32) (main_arg13 : FVec F S512 .f32) (main_arg14 : FVec F S512 .f32) (main_arg15 : FVec F S4x512 .f32) (main_arg16 : FVec F S4x512 .f32) (main_arg17 : FVec F S4x512 .f32) (main_arg18 : FVec F S4x512 .f32) (main_arg19 : FVec F S4x512x512 .f32) (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x320 .f32 := Host.absf main_arg7
  let main_cst_8 : FVec F S_ .f32 := constant S_ .f32 0x7F800000#32
  let main_v25 : FVec F S128x320 .f32 := broadcastInDim S128x320 ![] bcast_S_S128x320 main_cst_8
  let main_v26 : IVec S128x320 1 := cmpf .olt main_v24 main_v25
  let main_c_9 : IVec S_ 1 := constantI S_ 1 1#1
  let main_v27 : IVec S_ 1 := (fun x v => Host.reduce IntOp.andi x v reducesTo_S128x320_S_d0_1 h_S_) main_v26 main_c_9
  let main_v28 : IVec S_ 1 := andi main_v23 main_v27
  let main_v29 : FVec F S320 .f32 := Host.absf main_arg8
  let main_cst_10 : FVec F S_ .f32 := constant S_ .f32 0x7F800000#32
  let main_v30 : FVec F S320 .f32 := broadcastInDim S320 ![] bcast_S_S320 main_cst_10
  let main_v31 : IVec S320 1 := cmpf .olt main_v29 main_v30
  let main_c_11 : IVec S_ 1 := constantI S_ 1 1#1
  let main_v32 : IVec S_ 1 := (fun x v => Host.reduce IntOp.andi x v reducesTo_S320_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : IVec S2x150000 32) (main_arg2 : IVec S50000 32) (main_arg3 : FVec F S128 .f32) (main_arg4 : FVec F S128 .f32) (main_arg5 : FVec F S128 .f32) (main_arg6 : FVec F S128 .f32) (main_arg7 : FVec F S128x320 .f32) (main_arg8 : FVec F S320 .f32) (main_arg9 : FVec F S320x512 .f32) (main_arg10 : FVec F S512 .f32) (main_arg11 : FVec F S512 .f32) (main_arg12 : FVec F S512 .f32) (main_arg13 : FVec F S512 .f32) (main_arg14 : FVec F S512 .f32) (main_arg15 : FVec F S4x512 .f32) (main_arg16 : FVec F S4x512 .f32) (main_arg17 : FVec F S4x512 .f32) (main_arg18 : FVec F S4x512 .f32) (main_arg19 : FVec F S4x512x512 .f32) (main_arg20 : FVec F S4x512 .f32) (main_arg21 : FVec F S4x512x512 .f32) (main_arg22 : FVec F S4x512 .f32) (main_arg23 : FVec F S4x512 .f32) (main_arg24 : FVec F S4x512 .f32) (main_arg25 : FVec F S4x512 .f32) (main_arg26 : FVec F S4x512 .f32) (main_arg27 : FVec F S3x512x512 .f32) (main_arg28 : FVec F S3x512 .f32) (main_arg29 : FVec F S512x1 .f32) (main_arg30 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S2x150000 : Shape := ⟨2, ![2, 150000]⟩
abbrev S50000 : Shape := ⟨1, ![50000]⟩
abbrev S128 : Shape := ⟨1, ![128]⟩
abbrev S128x320 : Shape := ⟨2, ![128, 320]⟩
abbrev S320 : Shape := ⟨1, ![320]⟩
abbrev S320x512 : Shape := ⟨2, ![320, 512]⟩
abbrev S512 : Shape := ⟨1, ![512]⟩
abbrev S4x512 : Shape := ⟨2, ![4, 512]⟩
abbrev S4x512x512 : Shape := ⟨3, ![4, 512, 512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S1x128 : Shape := ⟨2, ![1, 128]⟩
abbrev S_ : Shape := ⟨0, ![]⟩
abbrev S150000x1 : Shape := ⟨2, ![150000, 1]⟩
abbrev S150000x128 : Shape := ⟨2, ![150000, 128]⟩
abbrev S50000x512 : Shape := ⟨2, ![50000, 512]⟩
abbrev S1000x128 : Shape := ⟨2, ![1000, 128]⟩
abbrev S1000x512 : Shape := ⟨2, ![1000, 512]⟩
abbrev S1000x320 : Shape := ⟨2, ![1000, 320]⟩
abbrev S1x320 : Shape := ⟨2, ![1, 320]⟩
abbrev S1x512 : Shape := ⟨2, ![1, 512]⟩
abbrev S150000x512 : Shape := ⟨2, ![150000, 512]⟩
abbrev S1x512x512 : Shape := ⟨3, ![1, 512, 512]⟩
abbrev S512x512 : Shape := ⟨2, ![512, 512]⟩
abbrev S2048x512 : Shape := ⟨2, ![2048, 512]⟩
abbrev S50000x1 : Shape := ⟨2, ![50000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 293
  | .vmem => 66
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128, .f32⟩
  | 4 => ⟨S128, .f32⟩
  | 5 => ⟨S128, .f32⟩
  | 6 => ⟨S128, .f32⟩
  | 7 => ⟨S128x320, .f32⟩
  | 8 => ⟨S320, .f32⟩
  | 9 => ⟨S320x512, .f32⟩
  | 10 => ⟨S512, .f32⟩
  | 11 => ⟨S512, .f32⟩
  | 12 => ⟨S512, .f32⟩
  | 13 => ⟨S512, .f32⟩
  | 14 => ⟨S512, .f32⟩
  | 15 => ⟨S4x512, .f32⟩
  | 16 => ⟨S4x512, .f32⟩
  | 17 => ⟨S4x512, .f32⟩
  | 18 => ⟨S4x512, .f32⟩
  | 19 => ⟨S4x512x512, .f32⟩
  | 20 => ⟨S4x512, .f32⟩
  | 21 => ⟨S4x512x512, .f32⟩
  | 22 => ⟨S4x512, .f32⟩
  | 23 => ⟨S4x512, .f32⟩
  | 24 => ⟨S4x512, .f32⟩
  | 25 => ⟨S4x512, .f32⟩
  | 26 => ⟨S4x512, .f32⟩
  | 27 => ⟨S3x512x512, .f32⟩
  | 28 => ⟨S3x512, .f32⟩
  | 29 => ⟨S512x1, .f32⟩
  | 30 => ⟨S1, .f32⟩
  | 31 => ⟨S1x150000, .i32⟩
  | 32 => ⟨S150000, .i32⟩
  | 33 => ⟨S1x150000, .i32⟩
  | 34 => ⟨S150000, .i32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .i32⟩
  | 50 => ⟨S150000, .i32⟩
  | 51 => ⟨S150000, .i1⟩
  | 52 => ⟨S_, .i32⟩
  | 53 => ⟨S150000, .i32⟩
  | 54 => ⟨S150000, .i32⟩
  | 55 => ⟨S150000, .i32⟩
  | 56 => ⟨S150000x1, .i32⟩
  | 57 => ⟨S150000x128, .f32⟩
  | 58 => ⟨S_, .f32⟩
  | 59 => ⟨S50000x128, .f32⟩
  | 60 => ⟨S150000x1, .i32⟩
  | 61 => ⟨S50000x128, .f32⟩
  | 62 => ⟨S50000x128, .f32⟩
  | 63 => ⟨S50000x512, .f32⟩
  | 64 => ⟨S1x512, .f32⟩
  | 65 => ⟨S512, .f32⟩
  | 66 => ⟨S1x512, .f32⟩
  | 67 => ⟨S512, .f32⟩
  | 68 => ⟨S1x512, .f32⟩
  | 69 => ⟨S512, .f32⟩
  | 70 => ⟨S1x512, .f32⟩
  | 71 => ⟨S512, .f32⟩
  | 72 => ⟨S1x512, .f32⟩
  | 73 => ⟨S50000x512, .f32⟩
  | 74 => ⟨S50000x512, .f32⟩
  | 75 => ⟨S_, .f32⟩
  | 76 => ⟨S512, .f32⟩
  | 77 => ⟨S512, .f32⟩
  | 78 => ⟨S512, .f32⟩
  | 79 => ⟨S512, .f32⟩
  | 80 => ⟨S1x512, .f32⟩
  | 81 => ⟨S50000x512, .f32⟩
  | 82 => ⟨S50000x512, .f32⟩
  | 83 => ⟨S1x512, .f32⟩
  | 84 => ⟨S50000x512, .f32⟩
  | 85 => ⟨S50000x512, .f32⟩
  | 86 => ⟨S_, .i32⟩
  | 87 => ⟨S150000, .i32⟩
  | 88 => ⟨S150000, .i1⟩
  | 89 => ⟨S_, .i32⟩
  | 90 => ⟨S150000, .i32⟩
  | 91 => ⟨S150000, .i32⟩
  | 92 => ⟨S150000, .i32⟩
  | 93 => ⟨S150000x1, .i32⟩
  | 94 => ⟨S150000x512, .f32⟩
  | 95 => ⟨S_, .f32⟩
  | 96 => ⟨S50000x512, .f32⟩
  | 97 => ⟨S150000x1, .i32⟩
  | 98 => ⟨S50000x512, .f32⟩
  | 99 => ⟨S50000x512, .f32⟩
  | 100 => ⟨S1x512x512, .f32⟩
  | 101 => ⟨S512x512, .f32⟩
  | 102 => ⟨S1x512, .f32⟩
  | 103 => ⟨S512, .f32⟩
  | 104 => ⟨S1x512x512, .f32⟩
  | 105 => ⟨S512x512, .f32⟩
  | 106 => ⟨S1x512, .f32⟩
  | 107 => ⟨S512, .f32⟩
  | 108 => ⟨S1x512, .f32⟩
  | 109 => ⟨S512, .f32⟩
  | 110 => ⟨S1x512, .f32⟩
  | 111 => ⟨S512, .f32⟩
  | 112 => ⟨S1x512, .f32⟩
  | 113 => ⟨S512, .f32⟩
  | 114 => ⟨S1x512, .f32⟩
  | 115 => ⟨S512, .f32⟩
  | 116 => ⟨S50000x512, .f32⟩
  | 117 => ⟨S1x512, .f32⟩
  | 118 => ⟨S512, .f32⟩
  | 119 => ⟨S1x512, .f32⟩
  | 120 => ⟨S512, .f32⟩
  | 121 => ⟨S1x512, .f32⟩
  | 122 => ⟨S512, .f32⟩
  | 123 => ⟨S1x512, .f32⟩
  | 124 => ⟨S512, .f32⟩
  | 125 => ⟨S1x512, .f32⟩
  | 126 => ⟨S50000x512, .f32⟩
  | 127 => ⟨S50000x512, .f32⟩
  | _ => ⟨S50000x128, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S512, .f32⟩
  | 5 => ⟨S1x512, .f32⟩
  | 6 => ⟨S50000x512, .f32⟩
  | 7 => ⟨S50000x512, .f32⟩
  | 8 => ⟨S1x512, .f32⟩
  | 9 => ⟨S50000x512, .f32⟩
  | 10 => ⟨S50000x512, .f32⟩
  | 11 => ⟨S_, .i32⟩
  | 12 => ⟨S150000, .i32⟩
  | 13 => ⟨S150000, .i1⟩
  | 14 => ⟨S_, .i32⟩
  | 15 => ⟨S150000, .i32⟩
  | 16 => ⟨S150000, .i32⟩
  | 17 => ⟨S150000, .i32⟩
  | 18 => ⟨S150000x1, .i32⟩
  | 19 => ⟨S150000x512, .f32⟩
  | 20 => ⟨S_, .f32⟩
  | 21 => ⟨S50000x512, .f32⟩
  | 22 => ⟨S150000x1, .i32⟩
  | 23 => ⟨S50000x512, .f32⟩
  | 24 => ⟨S50000x512, .f32⟩
  | 25 => ⟨S1x512x512, .f32⟩
  | 26 => ⟨S512x512, .f32⟩
  | 27 => ⟨S1x512, .f32⟩
  | 28 => ⟨S512, .f32⟩
  | 29 => ⟨S1x512x512, .f32⟩
  | 30 => ⟨S512x512, .f32⟩
  | 31 => ⟨S1x512, .f32⟩
  | 32 => ⟨S512, .f32⟩
  | 33 => ⟨S1x512, .f32⟩
  | 34 => ⟨S512, .f32⟩
  | 35 => ⟨S1x512, .f32⟩
  | 36 => ⟨S512, .f32⟩
  | 37 => ⟨S1x512, .f32⟩
  | 38 => ⟨S512, .f32⟩
  | 39 => ⟨S1x512, .f32⟩
  | 40 => ⟨S512, .f32⟩
  | 41 => ⟨S50000x512, .f32⟩
  | 42 => ⟨S1x512, .f32⟩
  | 43 => ⟨S512, .f32⟩
  | 44 => ⟨S1x512, .f32⟩
  | 45 => ⟨S512, .f32⟩
  | 46 => ⟨S1x512, .f32⟩
  | 47 => ⟨S512, .f32⟩
  | 48 => ⟨S1x512, .f32⟩
  | 49 => ⟨S512, .f32⟩
  | 50 => ⟨S1x512, .f32⟩
  | 51 => ⟨S50000x512, .f32⟩
  | 52 => ⟨S50000x512, .f32⟩
  | 53 => ⟨S_, .f32⟩
  | 54 => ⟨S512, .f32⟩
  | 55 => ⟨S512, .f32⟩
  | 56 => ⟨S512, .f32⟩
  | 57 => ⟨S512, .f32⟩
  | 58 => ⟨S1x512, .f32⟩
  | 59 => ⟨S50000x512, .f32⟩
  | 60 => ⟨S50000x512, .f32⟩
  | 61 => ⟨S1x512, .f32⟩
  | 62 => ⟨S50000x512, .f32⟩
  | 63 => ⟨S50000x512, .f32⟩
  | 64 => ⟨S_, .i32⟩
  | 65 => ⟨S150000, .i32⟩
  | 66 => ⟨S150000, .i1⟩
  | 67 => ⟨S_, .i32⟩
  | 68 => ⟨S150000, .i32⟩
  | 69 => ⟨S150000, .i32⟩
  | 70 => ⟨S150000, .i32⟩
  | 71 => ⟨S150000x1, .i32⟩
  | 72 => ⟨S150000x512, .f32⟩
  | 73 => ⟨S_, .f32⟩
  | 74 => ⟨S50000x512, .f32⟩
  | 75 => ⟨S150000x1, .i32⟩
  | 76 => ⟨S50000x512, .f32⟩
  | 77 => ⟨S50000x512, .f32⟩
  | 78 => ⟨S1x512x512, .f32⟩
  | 79 => ⟨S512x512, .f32⟩
  | 80 => ⟨S1x512, .f32⟩
  | 81 => ⟨S512, .f32⟩
  | 82 => ⟨S1x512x512, .f32⟩
  | 83 => ⟨S512x512, .f32⟩
  | 84 => ⟨S1x512, .f32⟩
  | 85 => ⟨S512, .f32⟩
  | 86 => ⟨S1x512, .f32⟩
  | 87 => ⟨S512, .f32⟩
  | 88 => ⟨S1x512, .f32⟩
  | 89 => ⟨S512, .f32⟩
  | 90 => ⟨S1x512, .f32⟩
  | 91 => ⟨S512, .f32⟩
  | 92 => ⟨S1x512, .f32⟩
  | 93 => ⟨S512, .f32⟩
  | 94 => ⟨S50000x512, .f32⟩
  | 95 => ⟨S1x512, .f32⟩
  | 96 => ⟨S512, .f32⟩
  | 97 => ⟨S1x512, .f32⟩
  | 98 => ⟨S512, .f32⟩
  | 99 => ⟨S1x512, .f32⟩
  | 100 => ⟨S512, .f32⟩
  | 101 => ⟨S1x512, .f32⟩
  | 102 => ⟨S512, .f32⟩
  | 103 => ⟨S1x512, .f32⟩
  | 104 => ⟨S50000x512, .f32⟩
  | 105 => ⟨S50000x512, .f32⟩
  | 106 => ⟨S_, .f32⟩
  | 107 => ⟨S512, .f32⟩
  | 108 => ⟨S512, .f32⟩
  | 109 => ⟨S512, .f32⟩
  | 110 => ⟨S512, .f32⟩
  | 111 => ⟨S1x512, .f32⟩
  | 112 => ⟨S50000x512, .f32⟩
  | 113 => ⟨S50000x512, .f32⟩
  | 114 => ⟨S1x512, .f32⟩
  | 115 => ⟨S50000x512, .f32⟩
  | 116 => ⟨S50000x512, .f32⟩
  | 117 => ⟨S_, .i32⟩
  | 118 => ⟨S150000, .i32⟩
  | 119 => ⟨S150000, .i1⟩
  | 120 => ⟨S_, .i32⟩
  | 121 => ⟨S150000, .i32⟩
  | 122 => ⟨S150000, .i32⟩
  | 123 => ⟨S150000, .i32⟩
  | 124 => ⟨S150000x1, .i32⟩
  | 125 => ⟨S150000x512, .f32⟩
  | 126 => ⟨S_, .f32⟩
  | 127 => ⟨S50000x512, .f32⟩
  | _ => ⟨S50000x128, .f32⟩

abbrev hbmTy0_2 (i : Nat) : BufTy := match i % 128 with
  | 0 => ⟨S150000x1, .i32⟩
  | 1 => ⟨S50000x512, .f32⟩
  | 2 => ⟨S50000x512, .f32⟩
  | 3 => ⟨S1x512x512, .f32⟩
  | 4 => ⟨S512x512, .f32⟩
  | 5 => ⟨S1x512, .f32⟩
  | 6 => ⟨S512, .f32⟩
  | 7 => ⟨S1x512x512, .f32⟩
  | 8 => ⟨S512x512, .f32⟩
  | 9 => ⟨S1x512, .f32⟩
  | 10 => ⟨S512, .f32⟩
  | 11 => ⟨S1x512, .f32⟩
  | 12 => ⟨S512, .f32⟩
  | 13 => ⟨S1x512, .f32⟩
  | 14 => ⟨S512, .f32⟩
  | 15 => ⟨S1x512, .f32⟩
  | 16 => ⟨S512, .f32⟩
  | 17 => ⟨S1x512, .f32⟩
  | 18 => ⟨S512, .f32⟩
  | 19 => ⟨S50000x512, .f32⟩
  | 20 => ⟨S_, .f32⟩
  | 21 => ⟨S2048x512, .f32⟩
  | 22 => ⟨S50000x1, .i32⟩
  | 23 => ⟨S2048x512, .f32⟩
  | 24 => ⟨S_, .f32⟩
  | 25 => ⟨S50000, .f32⟩
  | 26 => ⟨S_, .f32⟩
  | 27 => ⟨S2048, .f32⟩
  | 28 => ⟨S50000x1, .i32⟩
  | 29 => ⟨S2048, .f32⟩
  | 30 => ⟨S_, .f32⟩
  | 31 => ⟨S2048, .f32⟩
  | 32 => ⟨S2048, .f32⟩
  | 33 => ⟨S2048x1, .f32⟩
  | 34 => ⟨S2048x512, .f32⟩
  | 35 => ⟨S2048x512, .f32⟩
  | 36 => ⟨S2048x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x320, .f32⟩
  | .local _ .vmem, ⟨3, _⟩ => ⟨S320, .f32⟩
  | .local _ .vmem, ⟨4, _⟩ => ⟨S320x512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S512x512, .f32⟩
  | .local _ .vmem, ⟨15, _⟩ => ⟨S512, .f32⟩
  | .local _ .vmem, ⟨16, _⟩ => ⟨S512x512, .f32⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S512x512, .f32⟩
  | .local _ .vmem, ⟨27, _⟩ => ⟨S512, .f32⟩
  | .local _ .vmem, ⟨28, _⟩ => ⟨S512x512, .f32⟩
  | .local _ .vmem, ⟨29, _⟩ => ⟨S512, .f32⟩
  | .local _ .vmem, ⟨30, _⟩ => ⟨S512, .f32⟩
  | .local _ .vmem, ⟨31, _⟩ => ⟨S512, .f32⟩
  | .local _ .vmem, ⟨32, _⟩ => ⟨S512, .f32⟩
  | .local _ .vmem, ⟨33, _⟩ => ⟨S512, .f32⟩
  | .local _ .vmem, ⟨34, _⟩ => ⟨S1000x512, .f32⟩
  | .local _ .vmem, ⟨35, _⟩ => ⟨S1000x512, .f32⟩
  | .local _ .vmem, ⟨36, _⟩ => ⟨S1000x512, .f32⟩
  | .local _ .vmem, ⟨37, _⟩ => ⟨S1000x512, .f32⟩
  | .local _ .vmem, ⟨38, _⟩ => ⟨S512x512, .f32⟩
  | .local _ .vmem, ⟨39, _⟩ => ⟨S512, .f32⟩
  | .local _ .vmem, ⟨40, _⟩ => ⟨S512x512, .f32⟩
  | .local _ .vmem, ⟨41, _⟩ => ⟨S512, .f32⟩
  | .local _ .vmem, ⟨42, _⟩ => ⟨S512, .f32⟩
  | .local _ .vmem, ⟨43, _⟩ => ⟨S512, .f32⟩
  | .local _ .vmem, ⟨44, _⟩ => ⟨S512, .f32⟩
  | .local _ .vmem, ⟨45, _⟩ => ⟨S512, .f32⟩
  | .local _ .vmem, ⟨46, _⟩ => ⟨S1000x512, .f32⟩
  | .local _ .vmem, ⟨47, _⟩ => ⟨S1000x512, .f32⟩
  | .local _ .vmem, ⟨48, _⟩ => ⟨S1000x512, .f32⟩
  | .local _ .vmem, ⟨49, _⟩ => ⟨S1000x512, .f32⟩
  | .local _ .vmem, ⟨50, _⟩ => ⟨S512x512, .f32⟩
  | .local _ .vmem, ⟨51, _⟩ => ⟨S512, .f32⟩
  | .local _ .vmem, ⟨52, _⟩ => ⟨S512x512, .f32⟩
  | .local _ .vmem, ⟨53, _⟩ => ⟨S512, .f32⟩
  | .local _ .vmem, ⟨54, _⟩ => ⟨S512, .f32⟩
  | .local _ .vmem, ⟨55, _⟩ => ⟨S512, .f32⟩
  | .local _ .vmem, ⟨56, _⟩ => ⟨S512, .f32⟩
  | .local _ .vmem, ⟨57, _⟩ => ⟨S512, .f32⟩
  | .local _ .vmem, ⟨58, _⟩ => ⟨S1000x512, .f32⟩
  | .local _ .vmem, ⟨59, _⟩ => ⟨S1000x512, .f32⟩
  | .local _ .vmem, ⟨60, _⟩ => ⟨S2048x512, .f32⟩
  | .local _ .vmem, ⟨61, _⟩ => ⟨S3x512x512, .f32⟩
  | .local _ .vmem, ⟨62, _⟩ => ⟨S3x512, .f32⟩
  | .local _ .vmem, ⟨63, _⟩ => ⟨S512x1, .f32⟩
  | .local _ .vmem, ⟨64, _⟩ => ⟨S1, .f32⟩
  | .local _ .vmem, ⟨65, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_2 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_3 : Ref sig .tc := ⟨.hbm, 86, rfl⟩
abbrev main_v50 : Ref sig .tc := ⟨.hbm, 87, rfl⟩
abbrev main_v51 : Ref sig .tc := ⟨.hbm, 88, rfl⟩
abbrev main_c_4 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_5 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_6 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_7 : Ref sig .tc := ⟨.hbm, 139, rfl⟩
abbrev main_v99 : Ref sig .tc := ⟨.hbm, 140, rfl⟩
abbrev main_v100 : Ref sig .tc := ⟨.hbm, 141, rfl⟩
abbrev main_c_8 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_9 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_10 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_11 : Ref sig .tc := ⟨.hbm, 192, rfl⟩
abbrev main_v148 : Ref sig .tc := ⟨.hbm, 193, rfl⟩
abbrev main_v149 : Ref sig .tc := ⟨.hbm, 194, rfl⟩
abbrev main_c_12 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_13 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_14 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_c_15 : Ref sig .tc := ⟨.hbm, 245, rfl⟩
abbrev main_v197 : Ref sig .tc := ⟨.hbm, 246, rfl⟩
abbrev main_v198 : Ref sig .tc := ⟨.hbm, 247, rfl⟩
abbrev main_c_16 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_17 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_18 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_cst_19 : Ref sig .tc := ⟨.hbm, 280, rfl⟩
abbrev main_v228 : Ref sig .tc := ⟨.hbm, 281, rfl⟩
abbrev main_cst_20 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_cst_21 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc5_sem0_0 : DmaSem sig := 60
abbrev cc5_sem1_0 : DmaSem sig := 61
abbrev cc5_sem2_0 : DmaSem sig := 62
abbrev cc5_sem3_0 : DmaSem sig := 63
abbrev cc5_sem4_0 : DmaSem sig := 64
abbrev cc5_sem5_0 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S3x512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S3x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S50000x128 : S_.BroadcastsInDim S50000x128 (![] : Fin 0 → Fin S50000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x320_S128x320_0_0 : ∀ a, (![0, 0] : Fin 2 → Nat) a + S128x320.size a ≤ S128x320.size a
  h_S128x320 : 0 < S128x320.numel
  inb_S320_S320_0 : ∀ a, (![0] : Fin 1 → Nat) a + S320.size a ≤ S320.size a
  h_S320 : 0 < S320.numel
  shapeCasts_S320_S1x320 : S320.ShapeCasts S1x320
  broadcasts_S1x320_S1000x320 : S1x320.Broadcasts S1000x320
  inb_S320x512_S320x512_0_0 : ∀ a, (![0, 0] : Fin 2 → Nat) a + S320x512.size a ≤ S320x512.size a
  h_S320x512 : 0 < S320x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S512 : S_.BroadcastsInDim S512 (![] : Fin 0 → Fin S512.rank)
  bcast_S_S50000x512 : S_.BroadcastsInDim S50000x512 (![] : Fin 0 → Fin S50000x512.rank)
  slices_S4x512x512_S1x512x512_0_0_0 : S4x512x512.Slices ![0, 0, 0] S1x512x512
  shapeCasts_S1x512x512_S512x512 : S1x512x512.ShapeCasts S512x512
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512_S512 : S512.ShapeCasts S512
  slices_S4x512_S1x512_1_0 : S4x512.Slices ![1, 0] S1x512
  slices_S4x512x512_S1x512x512_1_0_0 : S4x512x512.Slices ![1, 0, 0] S1x512x512
  slices_S4x512_S1x512_2_0 : S4x512.Slices ![2, 0] S1x512
  slices_S4x512x512_S1x512x512_2_0_0 : S4x512x512.Slices ![2, 0, 0] S1x512x512
  slices_S4x512_S1x512_3_0 : S4x512.Slices ![3, 0] S1x512
  slices_S4x512x512_S1x512x512_3_0_0 : S4x512x512.Slices ![3, 0, 0] S1x512x512
  bcast_S_S2048x512 : S_.BroadcastsInDim S2048x512 (![] : Fin 0 → Fin S2048x512.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S3x512x512_S1x512x512_0_0_0 : ∀ a, (![0, 0, 0] : Fin 3 → Nat) a + S1x512x512.size a ≤ S3x512x512.size a
  h_S1x512x512 : 0 < S1x512x512.numel
  inb_S3x512_S1x512_0_0 : ∀ a, (![0, 0] : Fin 2 → Nat) a + S1x512.size a ≤ S3x512.size a
  h_S1x512 : 0 < S1x512.numel
  broadcasts_S1x512_S2048x512 : S1x512.Broadcasts S2048x512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S50000x128_S150000x1_S150000x128_1_0_n_n_0_1_1128_wf : GatherDims.WF S50000x128 S150000x1 S150000x128 [1] [0] [] [0] [] 1 ![1, 128]
  scatter_S50000x128_S150000x1_S150000x128_1_0_0_1_wf : ScatterDims.WF S50000x128 S150000x1 S150000x128 [1] [0] [0] 1
  dot_S1000x128_S128x320_S1000x320_1_0_0_1_n_n_wf : DotDims.WF S1000x128 S128x320 S1000x320 [1] [0] [0] [1] [] []
  dot_S1000x320_S320x512_S1000x512_1_0_0_1_n_n_wf : DotDims.WF S1000x320 S320x512 S1000x512 [1] [0] [0] [1] [] []
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S1000x512_S512x512_S1000x512_1_0_0_1_n_n_wf : DotDims.WF S1000x512 S512x512 S1000x512 [1] [0] [0] [1] [] []
  scatter_S2048x512_S50000x1_S50000x512_1_0_0_1_wf : ScatterDims.WF S2048x512 S50000x1 S50000x512 [1] [0] [0] 1
  scatter_S2048_S50000x1_S50000_n_0_0_1_wf : ScatterDims.WF S2048 S50000x1 S50000 [] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x320.size a ≤ S128x320.size a
  hwx0_1 : ∀ i : grid0.Coords, EltTy.bits .f32 = 32 ∨ (Rect.block (s := S128x320) S128x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320.size a ≤ S320.size a
  hwx0_2 : ∀ i : grid0.Coords, EltTy.bits .f32 = 32 ∨ (Rect.block (s := S320) S320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x512.size a ≤ S320x512.size a
  hwx0_3 : ∀ i : grid0.Coords, EltTy.bits .f32 = 32 ∨ (Rect.block (s := S320x512) S320x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S50000x512.size a
  hwx0_9 : ∀ i : grid0.Coords, EltTy.bits .f32 = 32 ∨ (Rect.block (s := S50000x512) S1000x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x512.size a ≤ S50000x512.size a
  hwx1_9 : ∀ i : grid1.Coords, EltTy.bits .f32 = 32 ∨ (Rect.block (s := S50000x512) S1000x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S512.size a
  hwx2_6 : ∀ i : grid2.Coords, EltTy.bits .f32 = 32 ∨ (Rect.block (s := S512) S512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512.size a ≤ S512.size a
  hwx2_7 : ∀ i : grid2.Coords, EltTy.bits .f32 = 32 ∨ (Rect.block (s := S512) S512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512.size a ≤ S512.size a
  hwx2_8 : ∀ i : grid2.Coords, EltTy.bits .f32 = 32 ∨ (Rect.block (s := S512) S512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x512.size a ≤ S50000x512.size a
  hwx2_9 : ∀ i : grid2.Coords, EltTy.bits .f32 = 32 ∨ (Rect.block (s := S50000x512) S1000x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S50000x512.size a
  hwx3_0 : ∀ i : grid3.Coords, EltTy.bits .f32 = 32 ∨ (Rect.block (s := S50000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512.size a ≤ S512.size a
  hwx3_4 : ∀ i : grid3.Coords, EltTy.bits .f32 = 32 ∨ (Rect.block (s := S512) S512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512.size a ≤ S512.size a
  hwx3_6 : ∀ i : grid3.Coords, EltTy.bits .f32 = 32 ∨ (Rect.block (s := S512) S512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512.size a ≤ S512.size a
  hwx3_7 : ∀ i : grid3.Coords, EltTy.bits .f32 = 32 ∨ (Rect.block (s := S512) S512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512.size a ≤ S512.size a
  hwx3_8 : ∀ i : grid3.Coords, EltTy.bits .f32 = 32 ∨ (Rect.block (s := S512) S512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x512.size a ≤ S50000x512.size a
  hwx3_9 : ∀ i : grid3.Coords, EltTy.bits .f32 = 32 ∨ (Rect.block (s := S50000x512) S1000x512.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S50000x512.size a
  hwx4_0 : ∀ i : grid4.Coords, EltTy.bits .f32 = 32 ∨ (Rect.block (s := S50000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512.size a ≤ S512.size a
  hwx4_4 : ∀ i : grid4.Coords, EltTy.bits .f32 = 32 ∨ (Rect.block (s := S512) S512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512.size a ≤ S512.size a
  hwx4_5 : ∀ i : grid4.Coords, EltTy.bits .f32 = 32 ∨ (Rect.block (s := S512) S512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512.size a ≤ S512.size a
  hwx4_6 : ∀ i : grid4.Coords, EltTy.bits .f32 = 32 ∨ (Rect.block (s := S512) S512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512.size a ≤ S512.size a
  hwx4_7 : ∀ i : grid4.Coords, EltTy.bits .f32 = 32 ∨ (Rect.block (s := S512) S512.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S512.size a ≤ S512.size a
  hwx4_8 : ∀ i : grid4.Coords, EltTy.bits .f32 = 32 ∨ (Rect.block (s := S512) S512.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x512.size a ≤ S50000x512.size a
  hwx4_9 : ∀ i : grid4.Coords, EltTy.bits .f32 = 32 ∨ (Rect.block (s := S50000x512) S1000x512.size (cc4_transform_9 i) (hinb4_9 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x512.size a ≤ S2048x512.size a
  hwx5_0 : ∀ i : grid5.Coords, EltTy.bits .f32 = 32 ∨ (Rect.block (s := S2048x512) S2048x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3x512x512.size a ≤ S3x512x512.size a
  hwx5_1 : ∀ i : grid5.Coords, EltTy.bits .f32 = 32 ∨ (Rect.block (s := S3x512x512) S3x512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x512.size a ≤ S3x512.size a
  hwx5_2 : ∀ i : grid5.Coords, EltTy.bits .f32 = 32 ∨ (Rect.block (s := S3x512) S3x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x1.size a ≤ S512x1.size a
  hwx5_3 : ∀ i : grid5.Coords, EltTy.bits .f32 = 32 ∨ (Rect.block (s := S512x1) S512x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1.size a ≤ S1.size a
  hwx5_4 : ∀ i : grid5.Coords, EltTy.bits .f32 = 32 ∨ (Rect.block (s := S1) S1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2048x1.size a ≤ S2048x1.size a
  hwx5_5 : ∀ i : grid5.Coords, EltTy.bits .f32 = 32 ∨ (Rect.block (s := S2048x1) S2048x1.size (cc5_transform_5 i) (hinb5_5 i)).WholeWords (EltTy.packing .f32)

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S1000x128_S128x320_S1000x320_1_0_0_1_n_n : DotDims S1000x128 S128x320 S1000x320 where
  lhsContracting := [1]
  rhsContracting := [0]
  lhsNonContracting := [0]
  rhsNonContracting := [1]
  lhsBatch := []
  rhsBatch := []
  wf := dot_S1000x128_S128x320_S1000x320_1_0_0_1_n_n_wf
def dot_S1000x320_S320x512_S1000x512_1_0_0_1_n_n : DotDims S1000x320 S320x512 S1000x512 where
  lhsContracting := [1]
  rhsContracting := [0]
  lhsNonContracting := [0]
  rhsNonContracting := [1]
  lhsBatch := []
  rhsBatch := []
  wf := dot_S1000x320_S320x512_S1000x512_1_0_0_1_n_n_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S2048x512_S50000x1_S50000x512_1_0_0_1 : ScatterDims S2048x512 S50000x1 S50000x512 where
  updateWindowDims := [1]
  insertedWindowDims := [0]
  scatterDimsToOperandDims := [0]
  indexVectorDim := 1
  wf := scatter_S2048x512_S50000x1_S50000x512_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v27) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S320x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v60) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v72) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v76) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S1000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v109) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v113) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v115) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v121) S512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v123) S512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v125) S512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v126) S1000x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v158) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v160) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v162) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v164) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v166) S512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v168) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v170) S512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v172) S512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v174) S512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v175) S1000x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v207) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v209) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v211) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v213) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v215) S512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v217) S512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v219) S512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v221) S512.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v223) S512.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v224) S1000x512.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v236) S2048x512.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg27) S3x512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg28) S3x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg29) S512x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg30) S1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v237) S2048x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x150000 : Shape := ⟨2, ![2, 150000]⟩
abbrev S50000 : Shape := ⟨1, ![50000]⟩
abbrev S128 : Shape := ⟨1, ![128]⟩
abbrev S128x320 : Shape := ⟨2, ![128, 320]⟩
abbrev S320 : Shape := ⟨1, ![320]⟩
abbrev S320x512 : Shape := ⟨2, ![320, 512]⟩
abbrev S512 : Shape := ⟨1, ![512]⟩
abbrev S4x512 : Shape := ⟨2, ![4, 512]⟩
abbrev S4x512x512 : Shape := ⟨3, ![4, 512, 512]⟩
abbrev S3x512x512 : Shape := ⟨3, ![3, 512, 512]⟩
abbrev S3x512 : Shape := ⟨2, ![3, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S1x128 : Shape := ⟨2, ![1, 128]⟩
abbrev S_ : Shape := ⟨0, ![]⟩
abbrev S150000x1 : Shape := ⟨2, ![150000, 1]⟩
abbrev S150000x128 : Shape := ⟨2, ![150000, 128]⟩
abbrev S50000x320 : Shape := ⟨2, ![50000, 320]⟩
abbrev S1x320 : Shape := ⟨2, ![1, 320]⟩
abbrev S50000x512 : Shape := ⟨2, ![50000, 512]⟩
abbrev S1x512 : Shape := ⟨2, ![1, 512]⟩
abbrev S1x512x512 : Shape := ⟨3, ![1, 512, 512]⟩
abbrev S512x512 : Shape := ⟨2, ![512, 512]⟩
abbrev S150000x512 : Shape := ⟨2, ![150000, 512]⟩
abbrev S2048x512 : Shape := ⟨2, ![2048, 512]⟩
abbrev S50000x1 : Shape := ⟨2, ![50000, 1]⟩
abbrev S2048 : Shape := ⟨1, ![2048]⟩
abbrev S2048x1 : Shape := ⟨2, ![2048, 1]⟩
abbrev S1x1 : Shape := ⟨2, ![1, 1]⟩

abbrev nBuf : Space → Nat
  | .hbm => 464
  | .vmem => 0
  | .smem => 0
  | _ => 0

abbrev hbmTy0_0 (i : Nat) : BufTy := match i % 128 with
  | 0 => ⟨S50000x128, .f32⟩
  | 1 => ⟨S2x150000, .i32⟩
  | 2 => ⟨S50000, .i32⟩
  | 3 => ⟨S128, .f32⟩
  | 4 => ⟨S128, .f32⟩
  | 5 => ⟨S128, .f32⟩
  | 6 => ⟨S128, .f32⟩
  | 7 => ⟨S128x320, .f32⟩
  | 8 => ⟨S320, .f32⟩
  | 9 => ⟨S320x512, .f32⟩
  | 10 => ⟨S512, .f32⟩
  | 11 => ⟨S512, .f32⟩
  | 12 => ⟨S512, .f32⟩
  | 13 => ⟨S512, .f32⟩
  | 14 => ⟨S512, .f32⟩
  | 15 => ⟨S4x512, .f32⟩
  | 16 => ⟨S4x512, .f32⟩
  | 17 => ⟨S4x512, .f32⟩
  | 18 => ⟨S4x512, .f32⟩
  | 19 => ⟨S4x512x512, .f32⟩
  | 20 => ⟨S4x512, .f32⟩
  | 21 => ⟨S4x512x512, .f32⟩
  | 22 => ⟨S4x512, .f32⟩
  | 23 => ⟨S4x512, .f32⟩
  | 24 => ⟨S4x512, .f32⟩
  | 25 => ⟨S4x512, .f32⟩
  | 26 => ⟨S4x512, .f32⟩
  | 27 => ⟨S3x512x512, .f32⟩
  | 28 => ⟨S3x512, .f32⟩
  | 29 => ⟨S512x1, .f32⟩
  | 30 => ⟨S1, .f32⟩
  | 31 => ⟨S1x150000, .i32⟩
  | 32 => ⟨S150000, .i32⟩
  | 33 => ⟨S1x150000, .i32⟩
  | 34 => ⟨S150000, .i32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .i32⟩
  | 50 => ⟨S150000, .i32⟩
  | 51 => ⟨S150000, .i1⟩
  | 52 => ⟨S_, .i32⟩
  | 53 => ⟨S150000, .i32⟩
  | 54 => ⟨S150000, .i32⟩
  | 55 => ⟨S150000, .i32⟩
  | 56 => ⟨S150000x1, .i32⟩
  | 57 => ⟨S150000x128, .f32⟩
  | 58 => ⟨S_, .f32⟩
  | 59 => ⟨S50000x128, .f32⟩
  | 60 => ⟨S150000x1, .i32⟩
  | 61 => ⟨S50000x128, .f32⟩
  | 62 => ⟨S50000x128, .f32⟩
  | 63 => ⟨S50000x320, .f32⟩
  | 64 => ⟨S1x320, .f32⟩
  | 65 => ⟨S50000x320, .f32⟩
  | 66 => ⟨S50000x320, .f32⟩
  | 67 => ⟨S_, .f32⟩
  | 68 => ⟨S50000x320, .f32⟩
  | 69 => ⟨S50000x320, .f32⟩
  | 70 => ⟨S50000x512, .f32⟩
  | 71 => ⟨S1x512, .f32⟩
  | 72 => ⟨S50000x512, .f32⟩
  | 73 => ⟨S50000x512, .f32⟩
  | 74 => ⟨S1x512, .f32⟩
  | 75 => ⟨S50000x512, .f32⟩
  | 76 => ⟨S50000x512, .f32⟩
  | 77 => ⟨S_, .f32⟩
  | 78 => ⟨S512, .f32⟩
  | 79 => ⟨S512, .f32⟩
  | 80 => ⟨S512, .f32⟩
  | 81 => ⟨S512, .f32⟩
  | 82 => ⟨S1x512, .f32⟩
  | 83 => ⟨S50000x512, .f32⟩
  | 84 => ⟨S50000x512, .f32⟩
  | 85 => ⟨S1x512, .f32⟩
  | 86 => ⟨S50000x512, .f32⟩
  | 87 => ⟨S50000x512, .f32⟩
  | 88 => ⟨S_, .f32⟩
  | 89 => ⟨S50000x512, .f32⟩
  | 90 => ⟨S50000x512, .f32⟩
  | 91 => ⟨S1x512, .f32⟩
  | 92 => ⟨S512, .f32⟩
  | 93 => ⟨S1x512, .f32⟩
  | 94 => ⟨S512, .f32⟩
  | 95 => ⟨S1x512, .f32⟩
  | 96 => ⟨S512, .f32⟩
  | 97 => ⟨S1x512, .f32⟩
  | 98 => ⟨S512, .f32⟩
  | 99 => ⟨S1x512x512, .f32⟩
  | 100 => ⟨S512x512, .f32⟩
  | 101 => ⟨S1x512, .f32⟩
  | 102 => ⟨S512, .f32⟩
  | 103 => ⟨S1x512x512, .f32⟩
  | 104 => ⟨S512x512, .f32⟩
  | 105 => ⟨S1x512, .f32⟩
  | 106 => ⟨S512, .f32⟩
  | 107 => ⟨S1x512, .f32⟩
  | 108 => ⟨S512, .f32⟩
  | 109 => ⟨S1x512, .f32⟩
  | 110 => ⟨S512, .f32⟩
  | 111 => ⟨S1x512, .f32⟩
  | 112 => ⟨S512, .f32⟩
  | 113 => ⟨S1x512, .f32⟩
  | 114 => ⟨S512, .f32⟩
  | 115 => ⟨S1x512, .f32⟩
  | 116 => ⟨S50000x512, .f32⟩
  | 117 => ⟨S50000x512, .f32⟩
  | 118 => ⟨S_, .f32⟩
  | 119 => ⟨S512, .f32⟩
  | 120 => ⟨S512, .f32⟩
  | 121 => ⟨S512, .f32⟩
  | 122 => ⟨S512, .f32⟩
  | 123 => ⟨S1x512, .f32⟩
  | 124 => ⟨S50000x512, .f32⟩
  | 125 => ⟨S50000x512, .f32⟩
  | 126 => ⟨S1x512, .f32⟩
  | 127 => ⟨S50000x512, .f32⟩
  | _ => ⟨S50000x128, .f32⟩

abbrev hbmTy0_1 (i : Nat) : BufTy := match i % 128 with
  | 0 => ⟨S50000x512, .f32⟩
  | 1 => ⟨S_, .i32⟩
  | 2 => ⟨S150000, .i32⟩
  | 3 => ⟨S150000, .i1⟩
  | 4 => ⟨S_, .i32⟩
  | 5 => ⟨S150000, .i32⟩
  | 6 => ⟨S150000, .i32⟩
  | 7 => ⟨S150000, .i32⟩
  | 8 => ⟨S150000x1, .i32⟩
  | 9 => ⟨S150000x512, .f32⟩
  | 10 => ⟨S_, .f32⟩
  | 11 => ⟨S50000x512, .f32⟩
  | 12 => ⟨S150000x1, .i32⟩
  | 13 => ⟨S50000x512, .f32⟩
  | 14 => ⟨S50000x512, .f32⟩
  | 15 => ⟨S50000x512, .f32⟩
  | 16 => ⟨S1x512, .f32⟩
  | 17 => ⟨S50000x512, .f32⟩
  | 18 => ⟨S50000x512, .f32⟩
  | 19 => ⟨S_, .f32⟩
  | 20 => ⟨S50000x512, .f32⟩
  | 21 => ⟨S50000x512, .f32⟩
  | 22 => ⟨S50000x512, .f32⟩
  | 23 => ⟨S1x512, .f32⟩
  | 24 => ⟨S50000x512, .f32⟩
  | 25 => ⟨S50000x512, .f32⟩
  | 26 => ⟨S1x512, .f32⟩
  | 27 => ⟨S50000x512, .f32⟩
  | 28 => ⟨S50000x512, .f32⟩
  | 29 => ⟨S_, .f32⟩
  | 30 => ⟨S512, .f32⟩
  | 31 => ⟨S512, .f32⟩
  | 32 => ⟨S512, .f32⟩
  | 33 => ⟨S512, .f32⟩
  | 34 => ⟨S1x512, .f32⟩
  | 35 => ⟨S50000x512, .f32⟩
  | 36 => ⟨S50000x512, .f32⟩
  | 37 => ⟨S1x512, .f32⟩
  | 38 => ⟨S50000x512, .f32⟩
  | 39 => ⟨S50000x512, .f32⟩
  | 40 => ⟨S_, .f32⟩
  | 41 => ⟨S50000x512, .f32⟩
  | 42 => ⟨S50000x512, .f32⟩
  | 43 => ⟨S1x512, .f32⟩
  | 44 => ⟨S512, .f32⟩
  | 45 => ⟨S1x512, .f32⟩
  | 46 => ⟨S512, .f32⟩
  | 47 => ⟨S1x512, .f32⟩
  | 48 => ⟨S512, .f32⟩
  | 49 => ⟨S1x512, .f32⟩
  | 50 => ⟨S512, .f32⟩
  | 51 => ⟨S1x512x512, .f32⟩
  | 52 => ⟨S512x512, .f32⟩
  | 53 => ⟨S1x512, .f32⟩
  | 54 => ⟨S512, .f32⟩
  | 55 => ⟨S1x512x512, .f32⟩
  | 56 => ⟨S512x512, .f32⟩
  | 57 => ⟨S1x512, .f32⟩
  | 58 => ⟨S512, .f32⟩
  | 59 => ⟨S1x512, .f32⟩
  | 60 => ⟨S512, .f32⟩
  | 61 => ⟨S1x512, .f32⟩
  | 62 => ⟨S512, .f32⟩
  | 63 => ⟨S1x512, .f32⟩
  | 64 => ⟨S512, .f32⟩
  | 65 => ⟨S1x512, .f32⟩
  | 66 => ⟨S512, .f32⟩
  | 67 => ⟨S1x512, .f32⟩
  | 68 => ⟨S50000x512, .f32⟩
  | 69 => ⟨S50000x512, .f32⟩
  | 70 => ⟨S_, .f32⟩
  | 71 => ⟨S512, .f32⟩
  | 72 => ⟨S512, .f32⟩
  | 73 => ⟨S512, .f32⟩
  | 74 => ⟨S512, .f32⟩
  | 75 => ⟨S1x512, .f32⟩
  | 76 => ⟨S50000x512, .f32⟩
  | 77 => ⟨S50000x512, .f32⟩
  | 78 => ⟨S1x512, .f32⟩
  | 79 => ⟨S50000x512, .f32⟩
  | 80 => ⟨S50000x512, .f32⟩
  | 81 => ⟨S_, .i32⟩
  | 82 => ⟨S150000, .i32⟩
  | 83 => ⟨S150000, .i1⟩
  | 84 => ⟨S_, .i32⟩
  | 85 => ⟨S150000, .i32⟩
  | 86 => ⟨S150000, .i32⟩
  | 87 => ⟨S150000, .i32⟩
  | 88 => ⟨S150000x1, .i32⟩
  | 89 => ⟨S150000x512, .f32⟩
  | 90 => ⟨S_, .f32⟩
  | 91 => ⟨S50000x512, .f32⟩
  | 92 => ⟨S150000x1, .i32⟩
  | 93 => ⟨S50000x512, .f32⟩
  | 94 => ⟨S50000x512, .f32⟩
  | 95 => ⟨S50000x512, .f32⟩
  | 96 => ⟨S1x512, .f32⟩
  | 97 => ⟨S50000x512, .f32⟩
  | 98 => ⟨S50000x512, .f32⟩
  | 99 => ⟨S_, .f32⟩
  | 100 => ⟨S50000x512, .f32⟩
  | 101 => ⟨S50000x512, .f32⟩
  | 102 => ⟨S50000x512, .f32⟩
  | 103 => ⟨S1x512, .f32⟩
  | 104 => ⟨S50000x512, .f32⟩
  | 105 => ⟨S50000x512, .f32⟩
  | 106 => ⟨S1x512, .f32⟩
  | 107 => ⟨S50000x512, .f32⟩
  | 108 => ⟨S50000x512, .f32⟩
  | 109 => ⟨S_, .f32⟩
  | 110 => ⟨S512, .f32⟩
  | 111 => ⟨S512, .f32⟩
  | 112 => ⟨S512, .f32⟩
  | 113 => ⟨S512, .f32⟩
  | 114 => ⟨S1x512, .f32⟩
  | 115 => ⟨S50000x512, .f32⟩
  | 116 => ⟨S50000x512, .f32⟩
  | 117 => ⟨S1x512, .f32⟩
  | 118 => ⟨S50000x512, .f32⟩
  | 119 => ⟨S50000x512, .f32⟩
  | 120 => ⟨S_, .f32⟩
  | 121 => ⟨S50000x512, .f32⟩
  | 122 => ⟨S50000x512, .f32⟩
  | 123 => ⟨S1x512, .f32⟩
  | 124 => ⟨S512, .f32⟩
  | 125 => ⟨S1x512, .f32⟩
  | 126 => ⟨S512, .f32⟩
  | 127 => ⟨S1x512, .f32⟩
  | _ => ⟨S50000x128, .f32⟩

abbrev hbmTy0_2 (i : Nat) : BufTy := match i % 128 with
  | 0 => ⟨S512, .f32⟩
  | 1 => ⟨S1x512, .f32⟩
  | 2 => ⟨S512, .f32⟩
  | 3 => ⟨S1x512x512, .f32⟩
  | 4 => ⟨S512x512, .f32⟩
  | 5 => ⟨S1x512, .f32⟩
  | 6 => ⟨S512, .f32⟩
  | 7 => ⟨S1x512x512, .f32⟩
  | 8 => ⟨S512x512, .f32⟩
  | 9 => ⟨S1x512, .f32⟩
  | 10 => ⟨S512, .f32⟩
  | 11 => ⟨S1x512, .f32⟩
  | 12 => ⟨S512, .f32⟩
  | 13 => ⟨S1x512, .f32⟩
  | 14 => ⟨S512, .f32⟩
  | 15 => ⟨S1x512, .f32⟩
  | 16 => ⟨S512, .f32⟩
  | 17 => ⟨S1x512, .f32⟩
  | 18 => ⟨S512, .f32⟩
  | 19 => ⟨S1x512, .f32⟩
  | 20 => ⟨S50000x512, .f32⟩
  | 21 => ⟨S50000x512, .f32⟩
  | 22 => ⟨S_, .f32⟩
  | 23 => ⟨S512, .f32⟩
  | 24 => ⟨S512, .f32⟩
  | 25 => ⟨S512, .f32⟩
  | 26 => ⟨S512, .f32⟩
  | 27 => ⟨S1x512, .f32⟩
  | 28 => ⟨S50000x512, .f32⟩
  | 29 => ⟨S50000x512, .f32⟩
  | 30 => ⟨S1x512, .f32⟩
  | 31 => ⟨S50000x512, .f32⟩
  | 32 => ⟨S50000x512, .f32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S150000x1, .i32⟩
  | 41 => ⟨S150000x512, .f32⟩
  | 42 => ⟨S_, .f32⟩
  | 43 => ⟨S50000x512, .f32⟩
  | 44 => ⟨S150000x1, .i32⟩
  | 45 => ⟨S50000x512, .f32⟩
  | 46 => ⟨S50000x512, .f32⟩
  | 47 => ⟨S50000x512, .f32⟩
  | 48 => ⟨S1x512, .f32⟩
  | 49 => ⟨S50000x512, .f32⟩
  | 50 => ⟨S50000x512, .f32⟩
  | 51 => ⟨S_, .f32⟩
  | 52 => ⟨S50000x512, .f32⟩
  | 53 => ⟨S50000x512, .f32⟩
  | 54 => ⟨S50000x512, .f32⟩
  | 55 => ⟨S1x512, .f32⟩
  | 56 => ⟨S50000x512, .f32⟩
  | 57 => ⟨S50000x512, .f32⟩
  | 58 => ⟨S1x512, .f32⟩
  | 59 => ⟨S50000x512, .f32⟩
  | 60 => ⟨S50000x512, .f32⟩
  | 61 => ⟨S_, .f32⟩
  | 62 => ⟨S512, .f32⟩
  | 63 => ⟨S512, .f32⟩
  | 64 => ⟨S512, .f32⟩
  | 65 => ⟨S512, .f32⟩
  | 66 => ⟨S1x512, .f32⟩
  | 67 => ⟨S50000x512, .f32⟩
  | 68 => ⟨S50000x512, .f32⟩
  | 69 => ⟨S1x512, .f32⟩
  | 70 => ⟨S50000x512, .f32⟩
  | 71 => ⟨S50000x512, .f32⟩
  | 72 => ⟨S_, .f32⟩
  | 73 => ⟨S50000x512, .f32⟩
  | 74 => ⟨S50000x512, .f32⟩
  | 75 => ⟨S1x512, .f32⟩
  | 76 => ⟨S512, .f32⟩
  | 77 => ⟨S1x512, .f32⟩
  | 78 => ⟨S512, .f32⟩
  | 79 => ⟨S1x512, .f32⟩
  | 80 => ⟨S512, .f32⟩
  | 81 => ⟨S1x512, .f32⟩
  | 82 => ⟨S512, .f32⟩
  | 83 => ⟨S1x512x512, .f32⟩
  | 84 => ⟨S512x512, .f32⟩
  | 85 => ⟨S1x512, .f32⟩
  | 86 => ⟨S512, .f32⟩
  | 87 => ⟨S1x512x512, .f32⟩
  | 88 => ⟨S512x512, .f32⟩
  | 89 => ⟨S1x512, .f32⟩
  | 90 => ⟨S512, .f32⟩
  | 91 => ⟨S1x512, .f32⟩
  | 92 => ⟨S512, .f32⟩
  | 93 => ⟨S1x512, .f32⟩
  | 94 => ⟨S512, .f32⟩
  | 95 => ⟨S1x512, .f32⟩
  | 96 => ⟨S512, .f32⟩
  | 97 => ⟨S1x512, .f32⟩
  | 98 => ⟨S512, .f32⟩
  | 99 => ⟨S1x512, .f32⟩
  | 100 => ⟨S50000x512, .f32⟩
  | 101 => ⟨S50000x512, .f32⟩
  | 102 => ⟨S_, .f32⟩
  | 103 => ⟨S512, .f32⟩
  | 104 => ⟨S512, .f32⟩
  | 105 => ⟨S512, .f32⟩
  | 106 => ⟨S512, .f32⟩
  | 107 => ⟨S1x512, .f32⟩
  | 108 => ⟨S50000x512, .f32⟩
  | 109 => ⟨S50000x512, .f32⟩
  | 110 => ⟨S1x512, .f32⟩
  | 111 => ⟨S50000x512, .f32⟩
  | 112 => ⟨S50000x512, .f32⟩
  | 113 => ⟨S_, .i32⟩
  | 114 => ⟨S150000, .i32⟩
  | 115 => ⟨S150000, .i1⟩
  | 116 => ⟨S_, .i32⟩
  | 117 => ⟨S150000, .i32⟩
  | 118 => ⟨S150000, .i32⟩
  | 119 => ⟨S150000, .i32⟩
  | 120 => ⟨S150000x1, .i32⟩
  | 121 => ⟨S150000x512, .f32⟩
  | 122 => ⟨S_, .f32⟩
  | 123 => ⟨S50000x512, .f32⟩
  | 124 => ⟨S150000x1, .i32⟩
  | 125 => ⟨S50000x512, .f32⟩
  | 126 => ⟨S50000x512, .f32⟩
  | 127 => ⟨S50000x512, .f32⟩
  | _ => ⟨S50000x128, .f32⟩

abbrev hbmTy0_3 (i : Nat) : BufTy := match i % 128 with
  | 0 => ⟨S1x512, .f32⟩
  | 1 => ⟨S50000x512, .f32⟩
  | 2 => ⟨S50000x512, .f32⟩
  | 3 => ⟨S_, .f32⟩
  | 4 => ⟨S50000x512, .f32⟩
  | 5 => ⟨S50000x512, .f32⟩
  | 6 => ⟨S50000x512, .f32⟩
  | 7 => ⟨S1x512, .f32⟩
  | 8 => ⟨S50000x512, .f32⟩
  | 9 => ⟨S50000x512, .f32⟩
  | 10 => ⟨S1x512, .f32⟩
  | 11 => ⟨S50000x512, .f32⟩
  | 12 => ⟨S50000x512, .f32⟩
  | 13 => ⟨S_, .f32⟩
  | 14 => ⟨S512, .f32⟩
  | 15 => ⟨S512, .f32⟩
  | 16 => ⟨S512, .f32⟩
  | 17 => ⟨S512, .f32⟩
  | 18 => ⟨S1x512, .f32⟩
  | 19 => ⟨S50000x512, .f32⟩
  | 20 => ⟨S50000x512, .f32⟩
  | 21 => ⟨S1x512, .f32⟩
  | 22 => ⟨S50000x512, .f32⟩
  | 23 => ⟨S50000x512, .f32⟩
  | 24 => ⟨S_, .f32⟩
  | 25 => ⟨S50000x512, .f32⟩
  | 26 => ⟨S50000x512, .f32⟩
  | 27 => ⟨S_, .f32⟩
  | 28 => ⟨S2048x512, .f32⟩
  | 29 => ⟨S50000x1, .i32⟩
  | 30 => ⟨S2048x512, .f32⟩
  | 31 => ⟨S_, .f32⟩
  | 32 => ⟨S50000, .f32⟩
  | 33 => ⟨S_, .f32⟩
  | 34 => ⟨S2048, .f32⟩
  | 35 => ⟨S50000x1, .i32⟩
  | 36 => ⟨S2048, .f32⟩
  | 37 => ⟨S_, .f32⟩
  | 38 => ⟨S2048, .f32⟩
  | 39 => ⟨S2048, .f32⟩
  | 40 => ⟨S2048x1, .f32⟩
  | 41 => ⟨S2048x512, .f32⟩
  | 42 => ⟨S2048x512, .f32⟩
  | 43 => ⟨S1x512x512, .f32⟩
  | 44 => ⟨S512x512, .f32⟩
  | 45 => ⟨S2048x512, .f32⟩
  | 46 => ⟨S1x512, .f32⟩
  | 47 => ⟨S512, .f32⟩
  | 48 => ⟨S1x512, .f32⟩
  | 49 => ⟨S2048x512, .f32⟩
  | 50 => ⟨S2048x512, .f32⟩
  | 51 => ⟨S_, .f32⟩
  | 52 => ⟨S2048x512, .f32⟩
  | 53 => ⟨S2048x512, .f32⟩
  | 54 => ⟨S1x512x512, .f32⟩
  | 55 => ⟨S512x512, .f32⟩
  | 56 => ⟨S2048x512, .f32⟩
  | 57 => ⟨S1x512, .f32⟩
  | 58 => ⟨S512, .f32⟩
  | 59 => ⟨S1x512, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S1x512x512, .f32⟩
  | 66 => ⟨S512x512, .f32⟩
  | 67 => ⟨S2048x512, .f32⟩
  | 68 => ⟨S1x512, .f32⟩
  | 69 => ⟨S512, .f32⟩
  | 70 => ⟨S1x512, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S2048x1, .f32⟩
  | 77 => ⟨S1x1, .f32⟩
  | 78 => ⟨S2048x1, .f32⟩
  | 79 => ⟨S2048x1, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call0_cst : Ref sig .tc := ⟨.hbm, 67, rfl⟩
abbrev main_call0_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call1_cst : Ref sig .tc := ⟨.hbm, 88, rfl⟩
abbrev main_call1_v0 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_3 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_4 : Ref sig .tc := ⟨.hbm, 129, rfl⟩
abbrev main_v88 : Ref sig .tc := ⟨.hbm, 130, rfl⟩
abbrev main_v89 : Ref sig .tc := ⟨.hbm, 131, rfl⟩
abbrev main_c_5 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_6 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call2_cst : Ref sig .tc := ⟨.hbm, 147, rfl⟩
abbrev main_call2_v0 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_7 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call3_cst : Ref sig .tc := ⟨.hbm, 168, rfl⟩
abbrev main_call3_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_8 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_c_9 : Ref sig .tc := ⟨.hbm, 209, rfl⟩
abbrev main_v159 : Ref sig .tc := ⟨.hbm, 210, rfl⟩
abbrev main_v160 : Ref sig .tc := ⟨.hbm, 211, rfl⟩
abbrev main_c_10 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_11 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_call4_cst : Ref sig .tc := ⟨.hbm, 227, rfl⟩
abbrev main_call4_v0 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_12 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_call5_cst : Ref sig .tc := ⟨.hbm, 248, rfl⟩
abbrev main_call5_v0 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_13 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_c_14 : Ref sig .tc := ⟨.hbm, 289, rfl⟩
abbrev main_v230 : Ref sig .tc := ⟨.hbm, 290, rfl⟩
abbrev main_v231 : Ref sig .tc := ⟨.hbm, 291, rfl⟩
abbrev main_c_15 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_16 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_call6_cst : Ref sig .tc := ⟨.hbm, 307, rfl⟩
abbrev main_call6_v0 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_cst_17 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_call7_cst : Ref sig .tc := ⟨.hbm, 328, rfl⟩
abbrev main_call7_v0 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_cst_18 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_c_19 : Ref sig .tc := ⟨.hbm, 369, rfl⟩
abbrev main_v301 : Ref sig .tc := ⟨.hbm, 370, rfl⟩
abbrev main_v302 : Ref sig .tc := ⟨.hbm, 371, rfl⟩
abbrev main_c_20 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_cst_21 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_call8_cst : Ref sig .tc := ⟨.hbm, 387, rfl⟩
abbrev main_call8_v0 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_cst_22 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_call9_cst : Ref sig .tc := ⟨.hbm, 408, rfl⟩
abbrev main_call9_v0 : Ref sig .tc := ⟨.hbm, 409, rfl⟩
abbrev main_v334 : Ref sig .tc := ⟨.hbm, 410, rfl⟩
abbrev main_cst_23 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_cst_24 : Ref sig .tc := ⟨.hbm, 415, rfl⟩
abbrev main_v338 : Ref sig .tc := ⟨.hbm, 416, rfl⟩
abbrev main_cst_25 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_cst_26 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_call10_cst : Ref sig .tc := ⟨.hbm, 435, rfl⟩
abbrev main_call10_v0 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_call11_cst : Ref sig .tc := ⟨.hbm, 446, rfl⟩
abbrev main_call11_v0 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_call12_cst : Ref sig .tc := ⟨.hbm, 457, rfl⟩
abbrev main_call12_v0 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S150000 : S_.BroadcastsInDim S150000 (![] : Fin 0 → Fin S150000.rank)
  bcast_S150000_S150000x1_0 : S150000.BroadcastsInDim S150000x1 (![0] : Fin 1 → Fin S150000x1.rank)
  bcast_S_S50000x128 : S_.BroadcastsInDim S50000x128 (![] : Fin 0 → Fin S50000x128.rank)
  bcast_S320_S1x320_1 : S320.BroadcastsInDim S1x320 (![1] : Fin 1 → Fin S1x320.rank)
  bcast_S1x320_S50000x320_0_1 : S1x320.BroadcastsInDim S50000x320 (![0, 1] : Fin 2 → Fin S50000x320.rank)
  bcast_S_S50000x320 : S_.BroadcastsInDim S50000x320 (![] : Fin 0 → Fin S50000x320.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S512 : S_.BroadcastsInDim S512 (![] : Fin 0 → Fin S512.rank)
  bcast_S_S50000x512 : S_.BroadcastsInDim S50000x512 (![] : Fin 0 → Fin S50000x512.rank)
  slices_S4x512_S1x512_0_0 : S4x512.Slices ![0, 0] S1x512
  shapeCasts_S1x512_S512 : S1x512.ShapeCasts S512
  slices_S4x512x512_S1x512x512_0_0_0 : S4x512x512.Slices ![0, 0, 0] S1x512x512
  shapeCasts_S1x512x512_S512x512 : S1x512x512.ShapeCasts S512x512
  slices_S4x512_S1x512_1_0 : S4x512.Slices ![1, 0] S1x512
  slices_S4x512x512_S1x512x512_1_0_0 : S4x512x512.Slices ![1, 0, 0] S1x512x512
  slices_S4x512_S1x512_2_0 : S4x512.Slices ![2, 0] S1x512
  slices_S4x512x512_S1x512x512_2_0_0 : S4x512x512.Slices ![2, 0, 0] S1x512x512
  slices_S4x512_S1x512_3_0 : S4x512.Slices ![3, 0] S1x512
  slices_S4x512x512_S1x512x512_3_0_0 : S4x512x512.Slices ![3, 0, 0] S1x512x512
  bcast_S_S2048x512 : S_.BroadcastsInDim S2048x512 (![] : Fin 0 → Fin S2048x512.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  slices_S3x512x512_S1x512x512_0_0_0 : S3x512x512.Slices ![0, 0, 0] S1x512x512
  slices_S3x512_S1x512_0_0 : S3x512.Slices ![0, 0] S1x512
  bcast_S1x512_S2048x512_0_1 : S1x512.BroadcastsInDim S2048x512 (![0, 1] : Fin 2 → Fin S2048x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S50000x128_S150000x1_S150000x128_1_0_n_n_0_1_1128_wf : GatherDims.WF S50000x128 S150000x1 S150000x128 [1] [0] [] [0] [] 1 ![1, 128]
  scatter_S50000x128_S150000x1_S150000x128_1_0_0_1_wf : ScatterDims.WF S50000x128 S150000x1 S150000x128 [1] [0] [0] 1
  dot_S50000x128_S128x320_S50000x320_1_0_0_1_n_n_wf : DotDims.WF S50000x128 S128x320 S50000x320 [1] [0] [0] [1] [] []
  dot_S50000x320_S320x512_S50000x512_1_0_0_1_n_n_wf : DotDims.WF S50000x320 S320x512 S50000x512 [1] [0] [0] [1] [] []
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  dot_S50000x512_S512x512_S50000x512_1_0_0_1_n_n_wf : DotDims.WF S50000x512 S512x512 S50000x512 [1] [0] [0] [1] [] []
  scatter_S2048x512_S50000x1_S50000x512_1_0_0_1_wf : ScatterDims.WF S2048x512 S50000x1 S50000x512 [1] [0] [0] 1
  scatter_S2048_S50000x1_S50000_n_0_0_1_wf : ScatterDims.WF S2048 S50000x1 S50000 [] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []

variable [Facts₀]

def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def dot_S50000x128_S128x320_S50000x320_1_0_0_1_n_n : DotDims S50000x128 S128x320 S50000x320 where
  lhsContracting := [1]
  rhsContracting := [0]
  lhsNonContracting := [0]
  rhsNonContracting := [1]
  lhsBatch := []
  rhsBatch := []
  wf := dot_S50000x128_S128x320_S50000x320_1_0_0_1_n_n_wf
def dot_S50000x320_S320x512_S50000x512_1_0_0_1_n_n : DotDims S50000x320 S320x512 S50000x512 where
  lhsContracting := [1]
  rhsContracting := [0]
  lhsNonContracting := [0]
  rhsNonContracting := [1]
  lhsBatch := []
  rhsBatch := []
  wf := dot_S50000x320_S320x512_S50000x512_1_0_0_1_n_n_wf
def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S2048x512_S50000x1_S50000x512_1_0_0_1 : ScatterDims S2048x512 S50000x1 S50000x512 where
  updateWindowDims := [1]
  insertedWindowDims := [0]
  scatterDimsToOperandDims := [0]
  indexVectorDim := 1
  wf := scatter_S2048x512_S50000x1_S50000x512_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

class Facts : Prop extends Facts₀ where

variable [Facts]
-- ==== Proof.RefLive.lean ====
/-
  What the reference program's buffers hold at the boundaries between the seven parts of its @main.

  The program is a straight line of host operations, printed in seven parts. At a boundary, every buffer that a later
  part still reads holds the stage of the same name: the value the operation that wrote it computes from the arguments
  (the arguments themselves are never written). `LiveK V` says so of the contents `V` at the boundary before part K;
  the last one names the result.
-/
import proofs.«174249_j54640573940143_1_alg».proof.Proof.RefRead
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
/-- The contents `V` at the launch: each buffer still to be read at its stage. -/
structure Live0 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30

/-- The contents `V` before part 1: each buffer still to be read at its stage. -/
structure Live1 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v50 : V (Proc.devRef .tc main_v50) = Cert.ReferenceIdeal.Read.val_main_v50 (F := Ideal) x0 x1 x3 x4 x5 x6 x7 x8 x9 x10 x11 x12 x13 x14
  v52 : V (Proc.devRef .tc main_v52) = Cert.ReferenceIdeal.Read.val_main_v52 (F := Ideal) x15
  v54 : V (Proc.devRef .tc main_v54) = Cert.ReferenceIdeal.Read.val_main_v54 (F := Ideal) x16
  v1 : V (Proc.devRef .tc main_v1) = Cert.ReferenceIdeal.Read.val_main_v1 (F := Ideal) x1
  v3 : V (Proc.devRef .tc main_v3) = Cert.ReferenceIdeal.Read.val_main_v3 (F := Ideal) x1

/-- The contents `V` before part 2: each buffer still to be read at its stage. -/
structure Live2 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v74 : V (Proc.devRef .tc main_v74) = Cert.ReferenceIdeal.Read.val_main_v74 (F := Ideal) x26
  v68 : V (Proc.devRef .tc main_v68) = Cert.ReferenceIdeal.Read.val_main_v68 (F := Ideal) x23
  v110 : V (Proc.devRef .tc main_v110) = Cert.ReferenceIdeal.Read.val_main_v110 (F := Ideal) x0 x1 x3 x4 x5 x6 x7 x8 x9 x10 x11 x12 x13 x14 x15 x16 x17 x18 x19 x20 x21 x22 x25
  v70 : V (Proc.devRef .tc main_v70) = Cert.ReferenceIdeal.Read.val_main_v70 (F := Ideal) x24
  v1 : V (Proc.devRef .tc main_v1) = Cert.ReferenceIdeal.Read.val_main_v1 (F := Ideal) x1
  v3 : V (Proc.devRef .tc main_v3) = Cert.ReferenceIdeal.Read.val_main_v3 (F := Ideal) x1

/-- The contents `V` before part 3: each buffer still to be read at its stage. -/
structure Live3 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  cst_11 : V (Proc.devRef .tc main_cst_11) = Cert.ReferenceIdeal.Read.val_main_cst_11 (F := Ideal)
  v3 : V (Proc.devRef .tc main_v3) = Cert.ReferenceIdeal.Read.val_main_v3 (F := Ideal) x1
  v165 : V (Proc.devRef .tc main_v165) = Cert.ReferenceIdeal.Read.val_main_v165 (F := Ideal) x0 x1 x3 x4 x5 x6 x7 x8 x9 x10 x11 x12 x13 x14 x15 x16 x17 x18 x19 x20 x21 x22 x23 x24 x25 x26
  v158 : V (Proc.devRef .tc main_v158) = Cert.ReferenceIdeal.Read.val_main_v158 (F := Ideal) x0 x1 x3 x4 x5 x6 x7 x8 x9 x10 x11 x12 x13 x14 x15 x16 x17 x18 x19 x20 x21 x22 x23 x24 x25 x26
  v131 : V (Proc.devRef .tc main_v131) = Cert.ReferenceIdeal.Read.val_main_v131 (F := Ideal) x19
  v133 : V (Proc.devRef .tc main_v133) = Cert.ReferenceIdeal.Read.val_main_v133 (F := Ideal) x20
  v135 : V (Proc.devRef .tc main_v135) = Cert.ReferenceIdeal.Read.val_main_v135 (F := Ideal) x21
  v137 : V (Proc.devRef .tc main_v137) = Cert.ReferenceIdeal.Read.val_main_v137 (F := Ideal) x22
  v143 : V (Proc.devRef .tc main_v143) = Cert.ReferenceIdeal.Read.val_main_v143 (F := Ideal) x25
  v145 : V (Proc.devRef .tc main_v145) = Cert.ReferenceIdeal.Read.val_main_v145 (F := Ideal) x26
  v139 : V (Proc.devRef .tc main_v139) = Cert.ReferenceIdeal.Read.val_main_v139 (F := Ideal) x23
  v141 : V (Proc.devRef .tc main_v141) = Cert.ReferenceIdeal.Read.val_main_v141 (F := Ideal) x24
  v1 : V (Proc.devRef .tc main_v1) = Cert.ReferenceIdeal.Read.val_main_v1 (F := Ideal) x1

/-- The contents `V` before part 4: each buffer still to be read at its stage. -/
structure Live4 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v223 : V (Proc.devRef .tc main_v223) = Cert.ReferenceIdeal.Read.val_main_v223 (F := Ideal) x15 x18
  v219 : V (Proc.devRef .tc main_v219) = Cert.ReferenceIdeal.Read.val_main_v219 (F := Ideal) x0 x1 x3 x4 x5 x6 x7 x8 x9 x10 x11 x12 x13 x14 x15 x16 x17 x18 x19 x20 x21 x22 x23 x24 x25 x26
  v196 : V (Proc.devRef .tc main_v196) = Cert.ReferenceIdeal.Read.val_main_v196 (F := Ideal) x16
  v1 : V (Proc.devRef .tc main_v1) = Cert.ReferenceIdeal.Read.val_main_v1 (F := Ideal) x1
  v3 : V (Proc.devRef .tc main_v3) = Cert.ReferenceIdeal.Read.val_main_v3 (F := Ideal) x1
  v202 : V (Proc.devRef .tc main_v202) = Cert.ReferenceIdeal.Read.val_main_v202 (F := Ideal) x19
  v204 : V (Proc.devRef .tc main_v204) = Cert.ReferenceIdeal.Read.val_main_v204 (F := Ideal) x20
  v206 : V (Proc.devRef .tc main_v206) = Cert.ReferenceIdeal.Read.val_main_v206 (F := Ideal) x21
  v208 : V (Proc.devRef .tc main_v208) = Cert.ReferenceIdeal.Read.val_main_v208 (F := Ideal) x22
  v214 : V (Proc.devRef .tc main_v214) = Cert.ReferenceIdeal.Read.val_main_v214 (F := Ideal) x25
  v216 : V (Proc.devRef .tc main_v216) = Cert.ReferenceIdeal.Read.val_main_v216 (F := Ideal) x26
  v210 : V (Proc.devRef .tc main_v210) = Cert.ReferenceIdeal.Read.val_main_v210 (F := Ideal) x23
  v212 : V (Proc.devRef .tc main_v212) = Cert.ReferenceIdeal.Read.val_main_v212 (F := Ideal) x24

/-- The contents `V` before part 5: each buffer still to be read at its stage. -/
structure Live5 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v269 : V (Proc.devRef .tc main_v269) = Cert.ReferenceIdeal.Read.val_main_v269 (F := Ideal) x17
  v263 : V (Proc.devRef .tc main_v263) = Cert.ReferenceIdeal.Read.val_main_v263 (F := Ideal) x0 x1 x3 x4 x5 x6 x7 x8 x9 x10 x11 x12 x13 x14 x15 x16 x17 x18 x19 x20 x21 x22 x23 x24 x25 x26
  v271 : V (Proc.devRef .tc main_v271) = Cert.ReferenceIdeal.Read.val_main_v271 (F := Ideal) x18
  v265 : V (Proc.devRef .tc main_v265) = Cert.ReferenceIdeal.Read.val_main_v265 (F := Ideal) x15
  v267 : V (Proc.devRef .tc main_v267) = Cert.ReferenceIdeal.Read.val_main_v267 (F := Ideal) x16
  v1 : V (Proc.devRef .tc main_v1) = Cert.ReferenceIdeal.Read.val_main_v1 (F := Ideal) x1
  v3 : V (Proc.devRef .tc main_v3) = Cert.ReferenceIdeal.Read.val_main_v3 (F := Ideal) x1
  v273 : V (Proc.devRef .tc main_v273) = Cert.ReferenceIdeal.Read.val_main_v273 (F := Ideal) x19
  v275 : V (Proc.devRef .tc main_v275) = Cert.ReferenceIdeal.Read.val_main_v275 (F := Ideal) x20
  v277 : V (Proc.devRef .tc main_v277) = Cert.ReferenceIdeal.Read.val_main_v277 (F := Ideal) x21
  v279 : V (Proc.devRef .tc main_v279) = Cert.ReferenceIdeal.Read.val_main_v279 (F := Ideal) x22

/-- The contents `V` before part 6: each buffer still to be read at its stage. -/
structure Live6 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v334 : V (Proc.devRef .tc main_v334) = Cert.ReferenceIdeal.Read.val_main_v334 (F := Ideal) x0 x1 x3 x4 x5 x6 x7 x8 x9 x10 x11 x12 x13 x14 x15 x16 x17 x18 x19 x20 x21 x22 x23 x24 x25 x26

/-- The contents `V` at the end: each buffer still to be read at its stage. -/
structure Live7 (V : Valuation τ sig (Elt Ideal)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  v377 : V (Proc.devRef .tc main_v377) = Cert.ReferenceIdeal.Read.val_main_v377 (F := Ideal) x0 x1 x2 x3 x4 x5 x6 x7 x8 x9 x10 x11 x12 x13 x14 x15 x16 x17 x18 x19 x20 x21 x22 x23 x24 x25 x26 x27 x28 x29 x30

end Cert.RefSide

end
-- ==== Proof.RefSeq.lean ====
/-
  The reference program's @main as seven lists of host operations, and its run.

  The printed reference program runs its 408 statements in seven consecutive parts. Each part is a straight line of
  host operations; the lists below are the printed program's operations, listed part by part in the program's
  order (a call of the relu function stands as its three operations: the zero constant, its broadcast, the maximum).
  Running a straight line of operations folds their results over the buffers' contents, so every weakly fair
  execution of @main ends with each buffer at the fold of the seven lists, one after the other, over its launch
  contents.
-/
import proofs.«174249_j54640573940143_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## Part 0 -/

/-- The operations of @main's statements 1 … 60, in order (64 operations: a call of the relu function stands
    as its three operations). -/
abbrev ops0 : List (HloOp τ sig (Elt F)) :=
  [ unary main_arg1 main_v0 ((extractStridedSlice S1x150000 ![0, 0] · slices_S2x150000_S1x150000_0_0) : (⟨S2x150000, .i32⟩ : BufTy).Contents (Elt F) → (⟨S1x150000, .i32⟩ : BufTy).Contents (Elt F)),
    reshape main_v0 main_v1 rfl shapeCasts_S1x150000_S150000,
    unary main_arg1 main_v2 ((extractStridedSlice S1x150000 ![1, 0] · slices_S2x150000_S1x150000_1_0) : (⟨S2x150000, .i32⟩ : BufTy).Contents (Elt F) → (⟨S1x150000, .i32⟩ : BufTy).Contents (Elt F)),
    reshape main_v2 main_v3 rfl shapeCasts_S1x150000_S150000,
    unary main_arg5 main_v4 (broadcastInDim S1x128 ![1] bcast_S128_S1x128_1 : (⟨S128, .f32⟩ : BufTy).Contents (Elt F) → (⟨S1x128, .f32⟩ : BufTy).Contents (Elt F)),
    unary main_v4 main_v5 (broadcastInDim S50000x128 ![0, 1] bcast_S1x128_S50000x128_0_1 : (⟨S1x128, .f32⟩ : BufTy).Contents (Elt F) → (⟨S50000x128, .f32⟩ : BufTy).Contents (Elt F)),
    binary main_arg0 main_v5 main_v6 (subf : (⟨S50000x128, .f32⟩ : BufTy).Contents (Elt F) → (⟨S50000x128, .f32⟩ : BufTy).Contents (Elt F) → (⟨S50000x128, .f32⟩ : BufTy).Contents (Elt F)),
    nullary main_cst (constant S_ .f32 0x3727C5AC#32),
    unary main_cst main_v7 (broadcastInDim S128 ![] bcast_S_S128 : (⟨S_, .f32⟩ : BufTy).Contents (Elt F) → (⟨S128, .f32⟩ : BufTy).Contents (Elt F)),
    binary main_arg6 main_v7 main_v8 (addf : (⟨S128, .f32⟩ : BufTy).Contents (Elt F) → (⟨S128, .f32⟩ : BufTy).Contents (Elt F) → (⟨S128, .f32⟩ : BufTy).Contents (Elt F)),
    unary main_v8 main_v9 (Host.sqrt : (⟨S128, .f32⟩ : BufTy).Contents (Elt F) → (⟨S128, .f32⟩ : BufTy).Contents (Elt F)),
    binary main_arg3 main_v9 main_v10 (Host.divf : (⟨S128, .f32⟩ : BufTy).Contents (Elt F) → (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v6 main_v12 main_v13 (mulf : (⟨S50000x128, .f32⟩ : BufTy).Contents (Elt F) → (⟨S50000x128, .f32⟩ : BufTy).Contents (Elt F) → (⟨S50000x128, .f32⟩ : BufTy).Contents (Elt F)),
    unary main_arg4 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v17 (broadcastInDim S150000 ![] bcast_S_S150000 : (⟨S_, .i32⟩ : BufTy).Contents (Elt F) → (⟨S150000, .i32⟩ : BufTy).Contents (Elt F)),
    binary main_v1 main_v17 main_v18 (cmpi .slt : (⟨S150000, .i32⟩ : BufTy).Contents (Elt F) → (⟨S150000, .i32⟩ : BufTy).Contents (Elt F) → (⟨S150000, .i1⟩ : BufTy).Contents (Elt F)),
    nullary main_c_0 (constantI S_ 32 50000#32),
    unary main_c_0 main_v19 (broadcastInDim S150000 ![] bcast_S_S150000 : (⟨S_, .i32⟩ : BufTy).Contents (Elt F) → (⟨S150000, .i32⟩ : BufTy).Contents (Elt F)),
    binary main_v1 main_v19 main_v20 (addi : (⟨S150000, .i32⟩ : BufTy).Contents (Elt F) → (⟨S150000, .i32⟩ : BufTy).Contents (Elt F) → (⟨S150000, .i32⟩ : BufTy).Contents (Elt F)),
    ternary main_v18 main_v20 main_v1 main_v21 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v21 main_v22 (broadcastInDim S150000x1 ![0] bcast_S150000_S150000x1_0 : (⟨S150000, .i32⟩ : BufTy).Contents (Elt F) → (⟨S150000x1, .i32⟩ : BufTy).Contents (Elt F)),
    binary main_v16 main_v22 main_v23 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    nullary main_cst_1 (constant S_ .f32 0x00000000#32),
    unary main_cst_1 main_v24 (broadcastInDim S50000x128 ![] bcast_S_S50000x128 : (⟨S_, .f32⟩ : BufTy).Contents (Elt F) → (⟨S50000x128, .f32⟩ : BufTy).Contents (Elt F)),
    unary main_v3 main_v25 (broadcastInDim S150000x1 ![0] bcast_S150000_S150000x1_0 : (⟨S150000, .i32⟩ : BufTy).Contents (Elt F) → (⟨S150000x1, .i32⟩ : BufTy).Contents (Elt F)),
    ternary main_v24 main_v25 main_v23 main_v26 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    binary main_v26 main_v16 main_v27 (addf : (⟨S50000x128, .f32⟩ : BufTy).Contents (Elt F) → (⟨S50000x128, .f32⟩ : BufTy).Contents (Elt F) → (⟨S50000x128, .f32⟩ : BufTy).Contents (Elt F)),
    binary main_v27 main_arg7 main_v28 ((fun l r => Host.dotGeneral dot_S50000x128_S128x320_S50000x320_1_0_0_1_n_n none l r) : (⟨S50000x128, .f32⟩ : BufTy).Contents (Elt F) → (⟨S128x320, .f32⟩ : BufTy).Contents (Elt F) → (⟨S50000x320, .f32⟩ : BufTy).Contents (Elt F)),
    unary main_arg8 main_v29 (broadcastInDim S1x320 ![1] bcast_S320_S1x320_1 : (⟨S320, .f32⟩ : BufTy).Contents (Elt F) → (⟨S1x320, .f32⟩ : BufTy).Contents (Elt F)),
    unary main_v29 main_v30 (broadcastInDim S50000x320 ![0, 1] bcast_S1x320_S50000x320_0_1 : (⟨S1x320, .f32⟩ : BufTy).Contents (Elt F) → (⟨S50000x320, .f32⟩ : BufTy).Contents (Elt F)),
    binary main_v28 main_v30 main_v31 (addf : (⟨S50000x320, .f32⟩ : BufTy).Contents (Elt F) → (⟨S50000x320, .f32⟩ : BufTy).Contents (Elt F) → (⟨S50000x320, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x320, .f32⟩) main_call0_v0) (broadcastInDim S50000x320 ![] bcast_S_S50000x320),
    TRef.binary (TRef.of (T := ⟨S50000x320, .f32⟩) main_v31) (TRef.of (T := ⟨S50000x320, .f32⟩) main_call0_v0) (TRef.of (T := ⟨S50000x320, .f32⟩) main_v32) maximumf,
    binary main_v32 main_arg9 main_v33 ((fun l r => Host.dotGeneral dot_S50000x320_S320x512_S50000x512_1_0_0_1_n_n none l r) : (⟨S50000x320, .f32⟩ : BufTy).Contents (Elt F) → (⟨S320x512, .f32⟩ : BufTy).Contents (Elt F) → (⟨S50000x512, .f32⟩ : BufTy).Contents (Elt F)),
    unary main_arg10 main_v34 (broadcastInDim S1x512 ![1] bcast_S512_S1x512_1 : (⟨S512, .f32⟩ : BufTy).Contents (Elt F) → (⟨S1x512, .f32⟩ : BufTy).Contents (Elt F)),
    unary main_v34 main_v35 (broadcastInDim S50000x512 ![0, 1] bcast_S1x512_S50000x512_0_1 : (⟨S1x512, .f32⟩ : BufTy).Contents (Elt F) → (⟨S50000x512, .f32⟩ : BufTy).Contents (Elt F)),
    binary main_v33 main_v35 main_v36 (addf : (⟨S50000x512, .f32⟩ : BufTy).Contents (Elt F) → (⟨S50000x512, .f32⟩ : BufTy).Contents (Elt F) → (⟨S50000x512, .f32⟩ : BufTy).Contents (Elt F)),
    unary main_arg13 main_v37 (broadcastInDim S1x512 ![1] bcast_S512_S1x512_1 : (⟨S512, .f32⟩ : BufTy).Contents (Elt F) → (⟨S1x512, .f32⟩ : BufTy).Contents (Elt F)),
    unary main_v37 main_v38 (broadcastInDim S50000x512 ![0, 1] bcast_S1x512_S50000x512_0_1 : (⟨S1x512, .f32⟩ : BufTy).Contents (Elt F) → (⟨S50000x512, .f32⟩ : BufTy).Contents (Elt F)),
    binary main_v36 main_v38 main_v39 (subf : (⟨S50000x512, .f32⟩ : BufTy).Contents (Elt F) → (⟨S50000x512, .f32⟩ : BufTy).Contents (Elt F) → (⟨S50000x512, .f32⟩ : BufTy).Contents (Elt F)),
    nullary main_cst_2 (constant S_ .f32 0x3727C5AC#32),
    unary main_cst_2 main_v40 (broadcastInDim S512 ![] bcast_S_S512 : (⟨S_, .f32⟩ : BufTy).Contents (Elt F) → (⟨S512, .f32⟩ : BufTy).Contents (Elt F)),
    binary main_arg14 main_v40 main_v41 (addf : (⟨S512, .f32⟩ : BufTy).Contents (Elt F) → (⟨S512, .f32⟩ : BufTy).Contents (Elt F) → (⟨S512, .f32⟩ : BufTy).Contents (Elt F)),
    unary main_v41 main_v42 (Host.sqrt : (⟨S512, .f32⟩ : BufTy).Contents (Elt F) → (⟨S512, .f32⟩ : BufTy).Contents (Elt F)),
    binary main_arg11 main_v42 main_v43 (Host.divf : (⟨S512, .f32⟩ : BufTy).Contents (Elt F) → (⟨S512, .f32⟩ : BufTy).Contents (Elt F) → (⟨S512, .f32⟩ : BufTy).Contents (Elt F)),
    unary main_v43 main_v44 (broadcastInDim S1x512 ![1] bcast_S512_S1x512_1 : (⟨S512, .f32⟩ : BufTy).Contents (Elt F) → (⟨S1x512, .f32⟩ : BufTy).Contents (Elt F)),
    unary main_v44 main_v45 (broadcastInDim S50000x512 ![0, 1] bcast_S1x512_S50000x512_0_1 : (⟨S1x512, .f32⟩ : BufTy).Contents (Elt F) → (⟨S50000x512, .f32⟩ : BufTy).Contents (Elt F)),
    binary main_v39 main_v45 main_v46 (mulf : (⟨S50000x512, .f32⟩ : BufTy).Contents (Elt F) → (⟨S50000x512, .f32⟩ : BufTy).Contents (Elt F) → (⟨S50000x512, .f32⟩ : BufTy).Contents (Elt F)),
    unary main_arg12 main_v47 (broadcastInDim S1x512 ![1] bcast_S512_S1x512_1 : (⟨S512, .f32⟩ : BufTy).Contents (Elt F) → (⟨S1x512, .f32⟩ : BufTy).Contents (Elt F)),
    unary main_v47 main_v48 (broadcastInDim S50000x512 ![0, 1] bcast_S1x512_S50000x512_0_1 : (⟨S1x512, .f32⟩ : BufTy).Contents (Elt F) → (⟨S50000x512, .f32⟩ : BufTy).Contents (Elt F)),
    binary main_v46 main_v48 main_v49 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x512, .f32⟩) main_call1_v0) (broadcastInDim S50000x512 ![] bcast_S_S50000x512),
    TRef.binary (TRef.of (T := ⟨S50000x512, .f32⟩) main_v49) (TRef.of (T := ⟨S50000x512, .f32⟩) main_call1_v0) (TRef.of (T := ⟨S50000x512, .f32⟩) main_v50) maximumf,
    unary main_arg15 main_v51 ((extractStridedSlice S1x512 ![0, 0] · slices_S4x512_S1x512_0_0) : (⟨S4x512, .f32⟩ : BufTy).Contents (Elt F) → (⟨S1x512, .f32⟩ : BufTy).Contents (Elt F)),
    reshape main_v51 main_v52 rfl shapeCasts_S1x512_S512,
    unary main_arg16 main_v53 ((extractStridedSlice S1x512 ![0, 0] · slices_S4x512_S1x512_0_0) : (⟨S4x512, .f32⟩ : BufTy).Contents (Elt F) → (⟨S1x512, .f32⟩ : BufTy).Contents (Elt F)),
    reshape main_v53 main_v54 rfl shapeCasts_S1x512_S512 ]

/-- Statements 1 … 60 are those operations run in order. -/
theorem part_eq0 (c : Dev nD) : main_part0 (F := F) c = seq ops0 := rfl

/-- Each of them touches TensorCore buffers only. -/
theorem ops_sub0 : (ops0 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub ..⟩

/-- None of them allocates. -/
theorem fresh0 : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 1 -/

/-- The operations of @main's statements 61 … 120, in order (62 operations: a call of the relu function stands
    as its three operations). -/
abbrev ops1 : List (HloOp τ sig (Elt F)) :=
  [ unary main_arg17 main_v55 ((extractStridedSlice S1x512 ![0, 0] · slices_S4x512_S1x512_0_0) : (⟨S4x512, .f32⟩ : BufTy).Contents (Elt F) → (⟨S1x512, .f32⟩ : BufTy).Contents (Elt F)),
    reshape main_v55 main_v56 rfl shapeCasts_S1x512_S512,
    unary main_arg18 main_v57 ((extractStridedSlice S1x512 ![0, 0] · slices_S4x512_S1x512_0_0) : (⟨S4x512, .f32⟩ : BufTy).Contents (Elt F) → (⟨S1x512, .f32⟩ : BufTy).Contents (Elt F)),
    reshape main_v57 main_v58 rfl shapeCasts_S1x512_S512,
    unary main_arg19 main_v59 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v59 main_v60 rfl shapeCasts_S1x512x512_S512x512,
    unary main_arg20 main_v61 ((extractStridedSlice S1x512 ![0, 0] · slices_S4x512_S1x512_0_0) : (⟨S4x512, .f32⟩ : BufTy).Contents (Elt F) → (⟨S1x512, .f32⟩ : BufTy).Contents (Elt F)),
    reshape main_v61 main_v62 rfl shapeCasts_S1x512_S512,
    unary main_arg21 main_v63 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v63 main_v64 rfl shapeCasts_S1x512x512_S512x512,
    unary main_arg22 main_v65 ((extractStridedSlice S1x512 ![0, 0] · slices_S4x512_S1x512_0_0) : (⟨S4x512, .f32⟩ : BufTy).Contents (Elt F) → (⟨S1x512, .f32⟩ : BufTy).Contents (Elt F)),
    reshape main_v65 main_v66 rfl shapeCasts_S1x512_S512,
    unary main_arg23 main_v67 ((extractStridedSlice S1x512 ![0, 0] · slices_S4x512_S1x512_0_0) : (⟨S4x512, .f32⟩ : BufTy).Contents (Elt F) → (⟨S1x512, .f32⟩ : BufTy).Contents (Elt F)),
    reshape main_v67 main_v68 rfl shapeCasts_S1x512_S512,
    unary main_arg24 main_v69 ((extractStridedSlice S1x512 ![0, 0] · slices_S4x512_S1x512_0_0) : (⟨S4x512, .f32⟩ : BufTy).Contents (Elt F) → (⟨S1x512, .f32⟩ : BufTy).Contents (Elt F)),
    reshape main_v69 main_v70 rfl shapeCasts_S1x512_S512,
    unary main_arg25 main_v71 ((extractStridedSlice S1x512 ![0, 0] · slices_S4x512_S1x512_0_0) : (⟨S4x512, .f32⟩ : BufTy).Contents (Elt F) → (⟨S1x512, .f32⟩ : BufTy).Contents (Elt F)),
    reshape main_v71 main_v72 rfl shapeCasts_S1x512_S512,
    unary main_arg26 main_v73 ((extractStridedSlice S1x512 ![0, 0] · slices_S4x512_S1x512_0_0) : (⟨S4x512, .f32⟩ : BufTy).Contents (Elt F) → (⟨S1x512, .f32⟩ : BufTy).Contents (Elt F)),
    reshape main_v73 main_v74 rfl shapeCasts_S1x512_S512,
    unary main_v56 main_v75 (broadcastInDim S1x512 ![1] bcast_S512_S1x512_1 : (⟨S512, .f32⟩ : BufTy).Contents (Elt F) → (⟨S1x512, .f32⟩ : BufTy).Contents (Elt F)),
    unary main_v75 main_v76 (broadcastInDim S50000x512 ![0, 1] bcast_S1x512_S50000x512_0_1 : (⟨S1x512, .f32⟩ : BufTy).Contents (Elt F) → (⟨S50000x512, .f32⟩ : BufTy).Contents (Elt F)),
    binary main_v50 main_v76 main_v77 (subf : (⟨S50000x512, .f32⟩ : BufTy).Contents (Elt F) → (⟨S50000x512, .f32⟩ : BufTy).Contents (Elt F) → (⟨S50000x512, .f32⟩ : BufTy).Contents (Elt F)),
    nullary main_cst_3 (constant S_ .f32 0x3727C5AC#32),
    unary main_cst_3 main_v78 (broadcastInDim S512 ![] bcast_S_S512 : (⟨S_, .f32⟩ : BufTy).Contents (Elt F) → (⟨S512, .f32⟩ : BufTy).Contents (Elt F)),
    binary main_v58 main_v78 main_v79 (addf : (⟨S512, .f32⟩ : BufTy).Contents (Elt F) → (⟨S512, .f32⟩ : BufTy).Contents (Elt F) → (⟨S512, .f32⟩ : BufTy).Contents (Elt F)),
    unary main_v79 main_v80 (Host.sqrt : (⟨S512, .f32⟩ : BufTy).Contents (Elt F) → (⟨S512, .f32⟩ : BufTy).Contents (Elt F)),
    binary main_v52 main_v80 main_v81 (Host.divf : (⟨S512, .f32⟩ : BufTy).Contents (Elt F) → (⟨S512, .f32⟩ : BufTy).Contents (Elt F) → (⟨S512, .f32⟩ : BufTy).Contents (Elt F)),
    unary main_v81 main_v82 (broadcastInDim S1x512 ![1] bcast_S512_S1x512_1 : (⟨S512, .f32⟩ : BufTy).Contents (Elt F) → (⟨S1x512, .f32⟩ : BufTy).Contents (Elt F)),
    unary main_v82 main_v83 (broadcastInDim S50000x512 ![0, 1] bcast_S1x512_S50000x512_0_1 : (⟨S1x512, .f32⟩ : BufTy).Contents (Elt F) → (⟨S50000x512, .f32⟩ : BufTy).Contents (Elt F)),
    binary main_v77 main_v83 main_v84 (mulf : (⟨S50000x512, .f32⟩ : BufTy).Contents (Elt F) → (⟨S50000x512, .f32⟩ : BufTy).Contents (Elt F) → (⟨S50000x512, .f32⟩ : BufTy).Contents (Elt F)),
    unary main_v54 main_v85 (broadcastInDim S1x512 ![1] bcast_S512_S1x512_1 : (⟨S512, .f32⟩ : BufTy).Contents (Elt F) → (⟨S1x512, .f32⟩ : BufTy).Contents (Elt F)),
    unary main_v85 main_v86 (broadcastInDim S50000x512 ![0, 1] bcast_S1x512_S50000x512_0_1 : (⟨S1x512, .f32⟩ : BufTy).Contents (Elt F) → (⟨S50000x512, .f32⟩ : BufTy).Contents (Elt F)),
    binary main_v84 main_v86 main_v87 (addf : (⟨S50000x512, .f32⟩ : BufTy).Contents (Elt F) → (⟨S50000x512, .f32⟩ : BufTy).Contents (Elt F) → (⟨S50000x512, .f32⟩ : BufTy).Contents (Elt F)),
    nullary main_c_4 (constantI S_ 32 0#32),
    unary main_c_4 main_v88 (broadcastInDim S150000 ![] bcast_S_S150000 : (⟨S_, .i32⟩ : BufTy).Contents (Elt F) → (⟨S150000, .i32⟩ : BufTy).Contents (Elt F)),
    binary main_v1 main_v88 main_v89 (cmpi .slt : (⟨S150000, .i32⟩ : BufTy).Contents (Elt F) → (⟨S150000, .i32⟩ : BufTy).Contents (Elt F) → (⟨S150000, .i1⟩ : BufTy).Contents (Elt F)),
    nullary main_c_5 (constantI S_ 32 50000#32),
    unary main_c_5 main_v90 (broadcastInDim S150000 ![] bcast_S_S150000 : (⟨S_, .i32⟩ : BufTy).Contents (Elt F) → (⟨S150000, .i32⟩ : BufTy).Contents (Elt F)),
    binary main_v1 main_v90 main_v91 (addi : (⟨S150000, .i32⟩ : BufTy).Contents (Elt F) → (⟨S150000, .i32⟩ : BufTy).Contents (Elt F) → (⟨S150000, .i32⟩ : BufTy).Contents (Elt F)),
    ternary main_v89 main_v91 main_v1 main_v92 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v92 main_v93 (broadcastInDim S150000x1 ![0] bcast_S150000_S150000x1_0 : (⟨S150000, .i32⟩ : BufTy).Contents (Elt F) → (⟨S150000x1, .i32⟩ : BufTy).Contents (Elt F)),
    binary main_v87 main_v93 main_v94 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    nullary main_cst_6 (constant S_ .f32 0x00000000#32),
    unary main_cst_6 main_v95 (broadcastInDim S50000x512 ![] bcast_S_S50000x512 : (⟨S_, .f32⟩ : BufTy).Contents (Elt F) → (⟨S50000x512, .f32⟩ : BufTy).Contents (Elt F)),
    unary main_v3 main_v96 (broadcastInDim S150000x1 ![0] bcast_S150000_S150000x1_0 : (⟨S150000, .i32⟩ : BufTy).Contents (Elt F) → (⟨S150000x1, .i32⟩ : BufTy).Contents (Elt F)),
    ternary main_v95 main_v96 main_v94 main_v97 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    binary main_v97 main_v87 main_v98 (addf : (⟨S50000x512, .f32⟩ : BufTy).Contents (Elt F) → (⟨S50000x512, .f32⟩ : BufTy).Contents (Elt F) → (⟨S50000x512, .f32⟩ : BufTy).Contents (Elt F)),
    binary main_v98 main_v60 main_v99 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v62 main_v100 (broadcastInDim S1x512 ![1] bcast_S512_S1x512_1 : (⟨S512, .f32⟩ : BufTy).Contents (Elt F) → (⟨S1x512, .f32⟩ : BufTy).Contents (Elt F)),
    unary main_v100 main_v101 (broadcastInDim S50000x512 ![0, 1] bcast_S1x512_S50000x512_0_1 : (⟨S1x512, .f32⟩ : BufTy).Contents (Elt F) → (⟨S50000x512, .f32⟩ : BufTy).Contents (Elt F)),
    binary main_v99 main_v101 main_v102 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x512, .f32⟩) main_call2_v0) (broadcastInDim S50000x512 ![] bcast_S_S50000x512),
    TRef.binary (TRef.of (T := ⟨S50000x512, .f32⟩) main_v102) (TRef.of (T := ⟨S50000x512, .f32⟩) main_call2_v0) (TRef.of (T := ⟨S50000x512, .f32⟩) main_v103) maximumf,
    binary main_v103 main_v64 main_v104 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v66 main_v105 (broadcastInDim S1x512 ![1] bcast_S512_S1x512_1 : (⟨S512, .f32⟩ : BufTy).Contents (Elt F) → (⟨S1x512, .f32⟩ : BufTy).Contents (Elt F)),
    unary main_v105 main_v106 (broadcastInDim S50000x512 ![0, 1] bcast_S1x512_S50000x512_0_1 : (⟨S1x512, .f32⟩ : BufTy).Contents (Elt F) → (⟨S50000x512, .f32⟩ : BufTy).Contents (Elt F)),
    binary main_v104 main_v106 main_v107 (addf : (⟨S50000x512, .f32⟩ : BufTy).Contents (Elt F) → (⟨S50000x512, .f32⟩ : BufTy).Contents (Elt F) → (⟨S50000x512, .f32⟩ : BufTy).Contents (Elt F)),
    unary main_v72 main_v108 (broadcastInDim S1x512 ![1] bcast_S512_S1x512_1 : (⟨S512, .f32⟩ : BufTy).Contents (Elt F) → (⟨S1x512, .f32⟩ : BufTy).Contents (Elt F)),
    unary main_v108 main_v109 (broadcastInDim S50000x512 ![0, 1] bcast_S1x512_S50000x512_0_1 : (⟨S1x512, .f32⟩ : BufTy).Contents (Elt F) → (⟨S50000x512, .f32⟩ : BufTy).Contents (Elt F)),
    binary main_v107 main_v109 main_v110 (subf : (⟨S50000x512, .f32⟩ : BufTy).Contents (Elt F) → (⟨S50000x512, .f32⟩ : BufTy).Contents (Elt F) → (⟨S50000x512, .f32⟩ : BufTy).Contents (Elt F)) ]

/-- Statements 61 … 120 are those operations run in order. -/
theorem part_eq1 (c : Dev nD) : main_part1 (F := F) c = seq ops1 := rfl

/-- Each of them touches TensorCore buffers only. -/
theorem ops_sub1 : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub ..⟩

/-- None of them allocates. -/
theorem fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 2 -/

/-- The operations of @main's statements 121 … 180, in order (62 operations: a call of the relu function stands
    as its three operations). -/
abbrev ops2 : List (HloOp τ sig (Elt F)) :=
  [ nullary main_cst_7 (constant S_ .f32 0x3727C5AC#32),
    unary main_cst_7 main_v111 (broadcastInDim S512 ![] bcast_S_S512 : (⟨S_, .f32⟩ : BufTy).Contents (Elt F) → (⟨S512, .f32⟩ : BufTy).Contents (Elt F)),
    binary main_v74 main_v111 main_v112 (addf : (⟨S512, .f32⟩ : BufTy).Contents (Elt F) → (⟨S512, .f32⟩ : BufTy).Contents (Elt F) → (⟨S512, .f32⟩ : BufTy).Contents (Elt F)),
    unary main_v112 main_v113 (Host.sqrt : (⟨S512, .f32⟩ : BufTy).Contents (Elt F) → (⟨S512, .f32⟩ : BufTy).Contents (Elt F)),
    binary main_v68 main_v113 main_v114 (Host.divf : (⟨S512, .f32⟩ : BufTy).Contents (Elt F) → (⟨S512, .f32⟩ : BufTy).Contents (Elt F) → (⟨S512, .f32⟩ : BufTy).Contents (Elt F)),
    unary main_v114 main_v115 (broadcastInDim S1x512 ![1] bcast_S512_S1x512_1 : (⟨S512, .f32⟩ : BufTy).Contents (Elt F) → (⟨S1x512, .f32⟩ : BufTy).Contents (Elt F)),
    unary main_v115 main_v116 (broadcastInDim S50000x512 ![0, 1] bcast_S1x512_S50000x512_0_1 : (⟨S1x512, .f32⟩ : BufTy).Contents (Elt F) → (⟨S50000x512, .f32⟩ : BufTy).Contents (Elt F)),
    binary main_v110 main_v116 main_v117 (mulf : (⟨S50000x512, .f32⟩ : BufTy).Contents (Elt F) → (⟨S50000x512, .f32⟩ : BufTy).Contents (Elt F) → (⟨S50000x512, .f32⟩ : BufTy).Contents (Elt F)),
    unary main_v70 main_v118 (broadcastInDim S1x512 ![1] bcast_S512_S1x512_1 : (⟨S512, .f32⟩ : BufTy).Contents (Elt F) → (⟨S1x512, .f32⟩ : BufTy).Contents (Elt F)),
    unary main_v118 main_v119 (broadcastInDim S50000x512 ![0, 1] bcast_S1x512_S50000x512_0_1 : (⟨S1x512, .f32⟩ : BufTy).Contents (Elt F) → (⟨S50000x512, .f32⟩ : BufTy).Contents (Elt F)),
    binary main_v117 main_v119 main_v120 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x512, .f32⟩) main_call3_v0) (broadcastInDim S50000x512 ![] bcast_S_S50000x512),
    TRef.binary (TRef.of (T := ⟨S50000x512, .f32⟩) main_v120) (TRef.of (T := ⟨S50000x512, .f32⟩) main_call3_v0) (TRef.of (T := ⟨S50000x512, .f32⟩) main_v121) maximumf,
    unary main_arg15 main_v122 ((extractStridedSlice S1x512 ![1, 0] · slices_S4x512_S1x512_1_0) : (⟨S4x512, .f32⟩ : BufTy).Contents (Elt F) → (⟨S1x512, .f32⟩ : BufTy).Contents (Elt F)),
    reshape main_v122 main_v123 rfl shapeCasts_S1x512_S512,
    unary main_arg16 main_v124 ((extractStridedSlice S1x512 ![1, 0] · slices_S4x512_S1x512_1_0) : (⟨S4x512, .f32⟩ : BufTy).Contents (Elt F) → (⟨S1x512, .f32⟩ : BufTy).Contents (Elt F)),
    reshape main_v124 main_v125 rfl shapeCasts_S1x512_S512,
    unary main_arg17 main_v126 ((extractStridedSlice S1x512 ![1, 0] · slices_S4x512_S1x512_1_0) : (⟨S4x512, .f32⟩ : BufTy).Contents (Elt F) → (⟨S1x512, .f32⟩ : BufTy).Contents (Elt F)),
    reshape main_v126 main_v127 rfl shapeCasts_S1x512_S512,
    unary main_arg18 main_v128 ((extractStridedSlice S1x512 ![1, 0] · slices_S4x512_S1x512_1_0) : (⟨S4x512, .f32⟩ : BufTy).Contents (Elt F) → (⟨S1x512, .f32⟩ : BufTy).Contents (Elt F)),
    reshape main_v128 main_v129 rfl shapeCasts_S1x512_S512,
    unary main_arg19 main_v130 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v130 main_v131 rfl shapeCasts_S1x512x512_S512x512,
    unary main_arg20 main_v132 ((extractStridedSlice S1x512 ![1, 0] · slices_S4x512_S1x512_1_0) : (⟨S4x512, .f32⟩ : BufTy).Contents (Elt F) → (⟨S1x512, .f32⟩ : BufTy).Contents (Elt F)),
    reshape main_v132 main_v133 rfl shapeCasts_S1x512_S512,
    unary main_arg21 main_v134 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v134 main_v135 rfl shapeCasts_S1x512x512_S512x512,
    unary main_arg22 main_v136 ((extractStridedSlice S1x512 ![1, 0] · slices_S4x512_S1x512_1_0) : (⟨S4x512, .f32⟩ : BufTy).Contents (Elt F) → (⟨S1x512, .f32⟩ : BufTy).Contents (Elt F)),
    reshape main_v136 main_v137 rfl shapeCasts_S1x512_S512,
    unary main_arg23 main_v138 ((extractStridedSlice S1x512 ![1, 0] · slices_S4x512_S1x512_1_0) : (⟨S4x512, .f32⟩ : BufTy).Contents (Elt F) → (⟨S1x512, .f32⟩ : BufTy).Contents (Elt F)),
    reshape main_v138 main_v139 rfl shapeCasts_S1x512_S512,
    unary main_arg24 main_v140 ((extractStridedSlice S1x512 ![1, 0] · slices_S4x512_S1x512_1_0) : (⟨S4x512, .f32⟩ : BufTy).Contents (Elt F) → (⟨S1x512, .f32⟩ : BufTy).Contents (Elt F)),
    reshape main_v140 main_v141 rfl shapeCasts_S1x512_S512,
    unary main_arg25 main_v142 ((extractStridedSlice S1x512 ![1, 0] · slices_S4x512_S1x512_1_0) : (⟨S4x512, .f32⟩ : BufTy).Contents (Elt F) → (⟨S1x512, .f32⟩ : BufTy).Contents (Elt F)),
    reshape main_v142 main_v143 rfl shapeCasts_S1x512_S512,
    unary main_arg26 main_v144 ((extractStridedSlice S1x512 ![1, 0] · slices_S4x512_S1x512_1_0) : (⟨S4x512, .f32⟩ : BufTy).Contents (Elt F) → (⟨S1x512, .f32⟩ : BufTy).Contents (Elt F)),
    reshape main_v144 main_v145 rfl shapeCasts_S1x512_S512,
    unary main_v127 main_v146 (broadcastInDim S1x512 ![1] bcast_S512_S1x512_1 : (⟨S512, .f32⟩ : BufTy).Contents (Elt F) → (⟨S1x512, .f32⟩ : BufTy).Contents (Elt F)),
    unary main_v146 main_v147 (broadcastInDim S50000x512 ![0, 1] bcast_S1x512_S50000x512_0_1 : (⟨S1x512, .f32⟩ : BufTy).Contents (Elt F) → (⟨S50000x512, .f32⟩ : BufTy).Contents (Elt F)),
    binary main_v121 main_v147 main_v148 (subf : (⟨S50000x512, .f32⟩ : BufTy).Contents (Elt F) → (⟨S50000x512, .f32⟩ : BufTy).Contents (Elt F) → (⟨S50000x512, .f32⟩ : BufTy).Contents (Elt F)),
    nullary main_cst_8 (constant S_ .f32 0x3727C5AC#32),
    unary main_cst_8 main_v149 (broadcastInDim S512 ![] bcast_S_S512 : (⟨S_, .f32⟩ : BufTy).Contents (Elt F) → (⟨S512, .f32⟩ : BufTy).Contents (Elt F)),
    binary main_v129 main_v149 main_v150 (addf : (⟨S512, .f32⟩ : BufTy).Contents (Elt F) → (⟨S512, .f32⟩ : BufTy).Contents (Elt F) → (⟨S512, .f32⟩ : BufTy).Contents (Elt F)),
    unary main_v150 main_v151 (Host.sqrt : (⟨S512, .f32⟩ : BufTy).Contents (Elt F) → (⟨S512, .f32⟩ : BufTy).Contents (Elt F)),
    binary main_v123 main_v151 main_v152 (Host.divf : (⟨S512, .f32⟩ : BufTy).Contents (Elt F) → (⟨S512, .f32⟩ : BufTy).Contents (Elt F) → (⟨S512, .f32⟩ : BufTy).Contents (Elt F)),
    unary main_v152 main_v153 (broadcastInDim S1x512 ![1] bcast_S512_S1x512_1 : (⟨S512, .f32⟩ : BufTy).Contents (Elt F) → (⟨S1x512, .f32⟩ : BufTy).Contents (Elt F)),
    unary main_v153 main_v154 (broadcastInDim S50000x512 ![0, 1] bcast_S1x512_S50000x512_0_1 : (⟨S1x512, .f32⟩ : BufTy).Contents (Elt F) → (⟨S50000x512, .f32⟩ : BufTy).Contents (Elt F)),
    binary main_v148 main_v154 main_v155 (mulf : (⟨S50000x512, .f32⟩ : BufTy).Contents (Elt F) → (⟨S50000x512, .f32⟩ : BufTy).Contents (Elt F) → (⟨S50000x512, .f32⟩ : BufTy).Contents (Elt F)),
    unary main_v125 main_v156 (broadcastInDim S1x512 ![1] bcast_S512_S1x512_1 : (⟨S512, .f32⟩ : BufTy).Contents (Elt F) → (⟨S1x512, .f32⟩ : BufTy).Contents (Elt F)),
    unary main_v156 main_v157 (broadcastInDim S50000x512 ![0, 1] bcast_S1x512_S50000x512_0_1 : (⟨S1x512, .f32⟩ : BufTy).Contents (Elt F) → (⟨S50000x512, .f32⟩ : BufTy).Contents (Elt F)),
    binary main_v155 main_v157 main_v158 (addf : (⟨S50000x512, .f32⟩ : BufTy).Contents (Elt F) → (⟨S50000x512, .f32⟩ : BufTy).Contents (Elt F) → (⟨S50000x512, .f32⟩ : BufTy).Contents (Elt F)),
    nullary main_c_9 (constantI S_ 32 0#32),
    unary main_c_9 main_v159 (broadcastInDim S150000 ![] bcast_S_S150000 : (⟨S_, .i32⟩ : BufTy).Contents (Elt F) → (⟨S150000, .i32⟩ : BufTy).Contents (Elt F)),
    binary main_v1 main_v159 main_v160 (cmpi .slt : (⟨S150000, .i32⟩ : BufTy).Contents (Elt F) → (⟨S150000, .i32⟩ : BufTy).Contents (Elt F) → (⟨S150000, .i1⟩ : BufTy).Contents (Elt F)),
    nullary main_c_10 (constantI S_ 32 50000#32),
    unary main_c_10 main_v161 (broadcastInDim S150000 ![] bcast_S_S150000 : (⟨S_, .i32⟩ : BufTy).Contents (Elt F) → (⟨S150000, .i32⟩ : BufTy).Contents (Elt F)),
    binary main_v1 main_v161 main_v162 (addi : (⟨S150000, .i32⟩ : BufTy).Contents (Elt F) → (⟨S150000, .i32⟩ : BufTy).Contents (Elt F) → (⟨S150000, .i32⟩ : BufTy).Contents (Elt F)),
    ternary main_v160 main_v162 main_v1 main_v163 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v163 main_v164 (broadcastInDim S150000x1 ![0] bcast_S150000_S150000x1_0 : (⟨S150000, .i32⟩ : BufTy).Contents (Elt F) → (⟨S150000x1, .i32⟩ : BufTy).Contents (Elt F)),
    binary main_v158 main_v164 main_v165 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    nullary main_cst_11 (constant S_ .f32 0x00000000#32) ]

/-- Statements 121 … 180 are those operations run in order. -/
theorem part_eq2 (c : Dev nD) : main_part2 (F := F) c = seq ops2 := rfl

/-- Each of them touches TensorCore buffers only. -/
theorem ops_sub2 : (ops2 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

/-- None of them allocates. -/
theorem fresh2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 3 -/

/-- The operations of @main's statements 181 … 240, in order (64 operations: a call of the relu function stands
    as its three operations). -/
abbrev ops3 : List (HloOp τ sig (Elt F)) :=
  [ unary main_cst_11 main_v166 (broadcastInDim S50000x512 ![] bcast_S_S50000x512 : (⟨S_, .f32⟩ : BufTy).Contents (Elt F) → (⟨S50000x512, .f32⟩ : BufTy).Contents (Elt F)),
    unary main_v3 main_v167 (broadcastInDim S150000x1 ![0] bcast_S150000_S150000x1_0 : (⟨S150000, .i32⟩ : BufTy).Contents (Elt F) → (⟨S150000x1, .i32⟩ : BufTy).Contents (Elt F)),
    ternary main_v166 main_v167 main_v165 main_v168 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    binary main_v168 main_v158 main_v169 (addf : (⟨S50000x512, .f32⟩ : BufTy).Contents (Elt F) → (⟨S50000x512, .f32⟩ : BufTy).Contents (Elt F) → (⟨S50000x512, .f32⟩ : BufTy).Contents (Elt F)),
    binary main_v169 main_v131 main_v170 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v133 main_v171 (broadcastInDim S1x512 ![1] bcast_S512_S1x512_1 : (⟨S512, .f32⟩ : BufTy).Contents (Elt F) → (⟨S1x512, .f32⟩ : BufTy).Contents (Elt F)),
    unary main_v171 main_v172 (broadcastInDim S50000x512 ![0, 1] bcast_S1x512_S50000x512_0_1 : (⟨S1x512, .f32⟩ : BufTy).Contents (Elt F) → (⟨S50000x512, .f32⟩ : BufTy).Contents (Elt F)),
    binary main_v170 main_v172 main_v173 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x512, .f32⟩) main_call4_v0) (broadcastInDim S50000x512 ![] bcast_S_S50000x512),
    TRef.binary (TRef.of (T := ⟨S50000x512, .f32⟩) main_v173) (TRef.of (T := ⟨S50000x512, .f32⟩) main_call4_v0) (TRef.of (T := ⟨S50000x512, .f32⟩) main_v174) maximumf,
    binary main_v174 main_v135 main_v175 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v137 main_v176 (broadcastInDim S1x512 ![1] bcast_S512_S1x512_1 : (⟨S512, .f32⟩ : BufTy).Contents (Elt F) → (⟨S1x512, .f32⟩ : BufTy).Contents (Elt F)),
    unary main_v176 main_v177 (broadcastInDim S50000x512 ![0, 1] bcast_S1x512_S50000x512_0_1 : (⟨S1x512, .f32⟩ : BufTy).Contents (Elt F) → (⟨S50000x512, .f32⟩ : BufTy).Contents (Elt F)),
    binary main_v175 main_v177 main_v178 (addf : (⟨S50000x512, .f32⟩ : BufTy).Contents (Elt F) → (⟨S50000x512, .f32⟩ : BufTy).Contents (Elt F) → (⟨S50000x512, .f32⟩ : BufTy).Contents (Elt F)),
    unary main_v143 main_v179 (broadcastInDim S1x512 ![1] bcast_S512_S1x512_1 : (⟨S512, .f32⟩ : BufTy).Contents (Elt F) → (⟨S1x512, .f32⟩ : BufTy).Contents (Elt F)),
    unary main_v179 main_v180 (broadcastInDim S50000x512 ![0, 1] bcast_S1x512_S50000x512_0_1 : (⟨S1x512, .f32⟩ : BufTy).Contents (Elt F) → (⟨S50000x512, .f32⟩ : BufTy).Contents (Elt F)),
    binary main_v178 main_v180 main_v181 (subf : (⟨S50000x512, .f32⟩ : BufTy).Contents (Elt F) → (⟨S50000x512, .f32⟩ : BufTy).Contents (Elt F) → (⟨S50000x512, .f32⟩ : BufTy).Contents (Elt F)),
    nullary main_cst_12 (constant S_ .f32 0x3727C5AC#32),
    unary main_cst_12 main_v182 (broadcastInDim S512 ![] bcast_S_S512 : (⟨S_, .f32⟩ : BufTy).Contents (Elt F) → (⟨S512, .f32⟩ : BufTy).Contents (Elt F)),
    binary main_v145 main_v182 main_v183 (addf : (⟨S512, .f32⟩ : BufTy).Contents (Elt F) → (⟨S512, .f32⟩ : BufTy).Contents (Elt F) → (⟨S512, .f32⟩ : BufTy).Contents (Elt F)),
    unary main_v183 main_v184 (Host.sqrt : (⟨S512, .f32⟩ : BufTy).Contents (Elt F) → (⟨S512, .f32⟩ : BufTy).Contents (Elt F)),
    binary main_v139 main_v184 main_v185 (Host.divf : (⟨S512, .f32⟩ : BufTy).Contents (Elt F) → (⟨S512, .f32⟩ : BufTy).Contents (Elt F) → (⟨S512, .f32⟩ : BufTy).Contents (Elt F)),
    unary main_v185 main_v186 (broadcastInDim S1x512 ![1] bcast_S512_S1x512_1 : (⟨S512, .f32⟩ : BufTy).Contents (Elt F) → (⟨S1x512, .f32⟩ : BufTy).Contents (Elt F)),
    unary main_v186 main_v187 (broadcastInDim S50000x512 ![0, 1] bcast_S1x512_S50000x512_0_1 : (⟨S1x512, .f32⟩ : BufTy).Contents (Elt F) → (⟨S50000x512, .f32⟩ : BufTy).Contents (Elt F)),
    binary main_v181 main_v187 main_v188 (mulf : (⟨S50000x512, .f32⟩ : BufTy).Contents (Elt F) → (⟨S50000x512, .f32⟩ : BufTy).Contents (Elt F) → (⟨S50000x512, .f32⟩ : BufTy).Contents (Elt F)),
    unary main_v141 main_v189 (broadcastInDim S1x512 ![1] bcast_S512_S1x512_1 : (⟨S512, .f32⟩ : BufTy).Contents (Elt F) → (⟨S1x512, .f32⟩ : BufTy).Contents (Elt F)),
    unary main_v189 main_v190 (broadcastInDim S50000x512 ![0, 1] bcast_S1x512_S50000x512_0_1 : (⟨S1x512, .f32⟩ : BufTy).Contents (Elt F) → (⟨S50000x512, .f32⟩ : BufTy).Contents (Elt F)),
    binary main_v188 main_v190 main_v191 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x512, .f32⟩) main_call5_v0) (broadcastInDim S50000x512 ![] bcast_S_S50000x512),
    TRef.binary (TRef.of (T := ⟨S50000x512, .f32⟩) main_v191) (TRef.of (T := ⟨S50000x512, .f32⟩) main_call5_v0) (TRef.of (T := ⟨S50000x512, .f32⟩) main_v192) maximumf,
    unary main_arg15 main_v193 ((extractStridedSlice S1x512 ![2, 0] · slices_S4x512_S1x512_2_0) : (⟨S4x512, .f32⟩ : BufTy).Contents (Elt F) → (⟨S1x512, .f32⟩ : BufTy).Contents (Elt F)),
    reshape main_v193 main_v194 rfl shapeCasts_S1x512_S512,
    unary main_arg16 main_v195 ((extractStridedSlice S1x512 ![2, 0] · slices_S4x512_S1x512_2_0) : (⟨S4x512, .f32⟩ : BufTy).Contents (Elt F) → (⟨S1x512, .f32⟩ : BufTy).Contents (Elt F)),
    reshape main_v195 main_v196 rfl shapeCasts_S1x512_S512,
    unary main_arg17 main_v197 ((extractStridedSlice S1x512 ![2, 0] · slices_S4x512_S1x512_2_0) : (⟨S4x512, .f32⟩ : BufTy).Contents (Elt F) → (⟨S1x512, .f32⟩ : BufTy).Contents (Elt F)),
    reshape main_v197 main_v198 rfl shapeCasts_S1x512_S512,
    unary main_arg18 main_v199 ((extractStridedSlice S1x512 ![2, 0] · slices_S4x512_S1x512_2_0) : (⟨S4x512, .f32⟩ : BufTy).Contents (Elt F) → (⟨S1x512, .f32⟩ : BufTy).Contents (Elt F)),
    reshape main_v199 main_v200 rfl shapeCasts_S1x512_S512,
    unary main_arg19 main_v201 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v201 main_v202 rfl shapeCasts_S1x512x512_S512x512,
    unary main_arg20 main_v203 ((extractStridedSlice S1x512 ![2, 0] · slices_S4x512_S1x512_2_0) : (⟨S4x512, .f32⟩ : BufTy).Contents (Elt F) → (⟨S1x512, .f32⟩ : BufTy).Contents (Elt F)),
    reshape main_v203 main_v204 rfl shapeCasts_S1x512_S512,
    unary main_arg21 main_v205 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v205 main_v206 rfl shapeCasts_S1x512x512_S512x512,
    unary main_arg22 main_v207 ((extractStridedSlice S1x512 ![2, 0] · slices_S4x512_S1x512_2_0) : (⟨S4x512, .f32⟩ : BufTy).Contents (Elt F) → (⟨S1x512, .f32⟩ : BufTy).Contents (Elt F)),
    reshape main_v207 main_v208 rfl shapeCasts_S1x512_S512,
    unary main_arg23 main_v209 ((extractStridedSlice S1x512 ![2, 0] · slices_S4x512_S1x512_2_0) : (⟨S4x512, .f32⟩ : BufTy).Contents (Elt F) → (⟨S1x512, .f32⟩ : BufTy).Contents (Elt F)),
    reshape main_v209 main_v210 rfl shapeCasts_S1x512_S512,
    unary main_arg24 main_v211 ((extractStridedSlice S1x512 ![2, 0] · slices_S4x512_S1x512_2_0) : (⟨S4x512, .f32⟩ : BufTy).Contents (Elt F) → (⟨S1x512, .f32⟩ : BufTy).Contents (Elt F)),
    reshape main_v211 main_v212 rfl shapeCasts_S1x512_S512,
    unary main_arg25 main_v213 ((extractStridedSlice S1x512 ![2, 0] · slices_S4x512_S1x512_2_0) : (⟨S4x512, .f32⟩ : BufTy).Contents (Elt F) → (⟨S1x512, .f32⟩ : BufTy).Contents (Elt F)),
    reshape main_v213 main_v214 rfl shapeCasts_S1x512_S512,
    unary main_arg26 main_v215 ((extractStridedSlice S1x512 ![2, 0] · slices_S4x512_S1x512_2_0) : (⟨S4x512, .f32⟩ : BufTy).Contents (Elt F) → (⟨S1x512, .f32⟩ : BufTy).Contents (Elt F)),
    reshape main_v215 main_v216 rfl shapeCasts_S1x512_S512,
    unary main_v198 main_v217 (broadcastInDim S1x512 ![1] bcast_S512_S1x512_1 : (⟨S512, .f32⟩ : BufTy).Contents (Elt F) → (⟨S1x512, .f32⟩ : BufTy).Contents (Elt F)),
    unary main_v217 main_v218 (broadcastInDim S50000x512 ![0, 1] bcast_S1x512_S50000x512_0_1 : (⟨S1x512, .f32⟩ : BufTy).Contents (Elt F) → (⟨S50000x512, .f32⟩ : BufTy).Contents (Elt F)),
    binary main_v192 main_v218 main_v219 (subf : (⟨S50000x512, .f32⟩ : BufTy).Contents (Elt F) → (⟨S50000x512, .f32⟩ : BufTy).Contents (Elt F) → (⟨S50000x512, .f32⟩ : BufTy).Contents (Elt F)),
    nullary main_cst_13 (constant S_ .f32 0x3727C5AC#32),
    unary main_cst_13 main_v220 (broadcastInDim S512 ![] bcast_S_S512 : (⟨S_, .f32⟩ : BufTy).Contents (Elt F) → (⟨S512, .f32⟩ : BufTy).Contents (Elt F)),
    binary main_v200 main_v220 main_v221 (addf : (⟨S512, .f32⟩ : BufTy).Contents (Elt F) → (⟨S512, .f32⟩ : BufTy).Contents (Elt F) → (⟨S512, .f32⟩ : BufTy).Contents (Elt F)),
    unary main_v221 main_v222 (Host.sqrt : (⟨S512, .f32⟩ : BufTy).Contents (Elt F) → (⟨S512, .f32⟩ : BufTy).Contents (Elt F)),
    binary main_v194 main_v222 main_v223 (Host.divf : (⟨S512, .f32⟩ : BufTy).Contents (Elt F) → (⟨S512, .f32⟩ : BufTy).Contents (Elt F) → (⟨S512, .f32⟩ : BufTy).Contents (Elt F)) ]

/-- Statements 181 … 240 are those operations run in order. -/
theorem part_eq3 (c : Dev nD) : main_part3 (F := F) c = seq ops3 := rfl

/-- Each of them touches TensorCore buffers only. -/
theorem ops_sub3 : (ops3 : List (HloOp τ sig (Elt F))).Forall fun op => op.bufs ⊆ tcRefs τ sig :=
  ⟨unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub ..⟩

/-- None of them allocates. -/
theorem fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 4 -/

/-- The operations of @main's statements 241 … 300, in order (64 operations: a call of the relu function stands
    as its three operations). -/
abbrev ops4 : List (HloOp τ sig (Elt F)) :=
  [ unary main_v223 main_v224 (broadcastInDim S1x512 ![1] bcast_S512_S1x512_1 : (⟨S512, .f32⟩ : BufTy).Contents (Elt F) → (⟨S1x512, .f32⟩ : BufTy).Contents (Elt F)),
    unary main_v224 main_v225 (broadcastInDim S50000x512 ![0, 1] bcast_S1x512_S50000x512_0_1 : (⟨S1x512, .f32⟩ : BufTy).Contents (Elt F) → (⟨S50000x512, .f32⟩ : BufTy).Contents (Elt F)),
    binary main_v219 main_v225 main_v226 (mulf : (⟨S50000x512, .f32⟩ : BufTy).Contents (Elt F) → (⟨S50000x512, .f32⟩ : BufTy).Contents (Elt F) → (⟨S50000x512, .f32⟩ : BufTy).Contents (Elt F)),
    unary main_v196 main_v227 (broadcastInDim S1x512 ![1] bcast_S512_S1x512_1 : (⟨S512, .f32⟩ : BufTy).Contents (Elt F) → (⟨S1x512, .f32⟩ : BufTy).Contents (Elt F)),
    unary main_v227 main_v228 (broadcastInDim S50000x512 ![0, 1] bcast_S1x512_S50000x512_0_1 : (⟨S1x512, .f32⟩ : BufTy).Contents (Elt F) → (⟨S50000x512, .f32⟩ : BufTy).Contents (Elt F)),
    binary main_v226 main_v228 main_v229 (addf : (⟨S50000x512, .f32⟩ : BufTy).Contents (Elt F) → (⟨S50000x512, .f32⟩ : BufTy).Contents (Elt F) → (⟨S50000x512, .f32⟩ : BufTy).Contents (Elt F)),
    nullary main_c_14 (constantI S_ 32 0#32),
    unary main_c_14 main_v230 (broadcastInDim S150000 ![] bcast_S_S150000 : (⟨S_, .i32⟩ : BufTy).Contents (Elt F) → (⟨S150000, .i32⟩ : BufTy).Contents (Elt F)),
    binary main_v1 main_v230 main_v231 (cmpi .slt : (⟨S150000, .i32⟩ : BufTy).Contents (Elt F) → (⟨S150000, .i32⟩ : BufTy).Contents (Elt F) → (⟨S150000, .i1⟩ : BufTy).Contents (Elt F)),
    nullary main_c_15 (constantI S_ 32 50000#32),
    unary main_c_15 main_v232 (broadcastInDim S150000 ![] bcast_S_S150000 : (⟨S_, .i32⟩ : BufTy).Contents (Elt F) → (⟨S150000, .i32⟩ : BufTy).Contents (Elt F)),
    binary main_v1 main_v232 main_v233 (addi : (⟨S150000, .i32⟩ : BufTy).Contents (Elt F) → (⟨S150000, .i32⟩ : BufTy).Contents (Elt F) → (⟨S150000, .i32⟩ : BufTy).Contents (Elt F)),
    ternary main_v231 main_v233 main_v1 main_v234 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v234 main_v235 (broadcastInDim S150000x1 ![0] bcast_S150000_S150000x1_0 : (⟨S150000, .i32⟩ : BufTy).Contents (Elt F) → (⟨S150000x1, .i32⟩ : BufTy).Contents (Elt F)),
    binary main_v229 main_v235 main_v236 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    nullary main_cst_16 (constant S_ .f32 0x00000000#32),
    unary main_cst_16 main_v237 (broadcastInDim S50000x512 ![] bcast_S_S50000x512 : (⟨S_, .f32⟩ : BufTy).Contents (Elt F) → (⟨S50000x512, .f32⟩ : BufTy).Contents (Elt F)),
    unary main_v3 main_v238 (broadcastInDim S150000x1 ![0] bcast_S150000_S150000x1_0 : (⟨S150000, .i32⟩ : BufTy).Contents (Elt F) → (⟨S150000x1, .i32⟩ : BufTy).Contents (Elt F)),
    ternary main_v237 main_v238 main_v236 main_v239 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    binary main_v239 main_v229 main_v240 (addf : (⟨S50000x512, .f32⟩ : BufTy).Contents (Elt F) → (⟨S50000x512, .f32⟩ : BufTy).Contents (Elt F) → (⟨S50000x512, .f32⟩ : BufTy).Contents (Elt F)),
    binary main_v240 main_v202 main_v241 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v204 main_v242 (broadcastInDim S1x512 ![1] bcast_S512_S1x512_1 : (⟨S512, .f32⟩ : BufTy).Contents (Elt F) → (⟨S1x512, .f32⟩ : BufTy).Contents (Elt F)),
    unary main_v242 main_v243 (broadcastInDim S50000x512 ![0, 1] bcast_S1x512_S50000x512_0_1 : (⟨S1x512, .f32⟩ : BufTy).Contents (Elt F) → (⟨S50000x512, .f32⟩ : BufTy).Contents (Elt F)),
    binary main_v241 main_v243 main_v244 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x512, .f32⟩) main_call6_v0) (broadcastInDim S50000x512 ![] bcast_S_S50000x512),
    TRef.binary (TRef.of (T := ⟨S50000x512, .f32⟩) main_v244) (TRef.of (T := ⟨S50000x512, .f32⟩) main_call6_v0) (TRef.of (T := ⟨S50000x512, .f32⟩) main_v245) maximumf,
    binary main_v245 main_v206 main_v246 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v208 main_v247 (broadcastInDim S1x512 ![1] bcast_S512_S1x512_1 : (⟨S512, .f32⟩ : BufTy).Contents (Elt F) → (⟨S1x512, .f32⟩ : BufTy).Contents (Elt F)),
    unary main_v247 main_v248 (broadcastInDim S50000x512 ![0, 1] bcast_S1x512_S50000x512_0_1 : (⟨S1x512, .f32⟩ : BufTy).Contents (Elt F) → (⟨S50000x512, .f32⟩ : BufTy).Contents (Elt F)),
    binary main_v246 main_v248 main_v249 (addf : (⟨S50000x512, .f32⟩ : BufTy).Contents (Elt F) → (⟨S50000x512, .f32⟩ : BufTy).Contents (Elt F) → (⟨S50000x512, .f32⟩ : BufTy).Contents (Elt F)),
    unary main_v214 main_v250 (broadcastInDim S1x512 ![1] bcast_S512_S1x512_1 : (⟨S512, .f32⟩ : BufTy).Contents (Elt F) → (⟨S1x512, .f32⟩ : BufTy).Contents (Elt F)),
    unary main_v250 main_v251 (broadcastInDim S50000x512 ![0, 1] bcast_S1x512_S50000x512_0_1 : (⟨S1x512, .f32⟩ : BufTy).Contents (Elt F) → (⟨S50000x512, .f32⟩ : BufTy).Contents (Elt F)),
    binary main_v249 main_v251 main_v252 (subf : (⟨S50000x512, .f32⟩ : BufTy).Contents (Elt F) → (⟨S50000x512, .f32⟩ : BufTy).Contents (Elt F) → (⟨S50000x512, .f32⟩ : BufTy).Contents (Elt F)),
    nullary main_cst_17 (constant S_ .f32 0x3727C5AC#32),
    unary main_cst_17 main_v253 (broadcastInDim S512 ![] bcast_S_S512 : (⟨S_, .f32⟩ : BufTy).Contents (Elt F) → (⟨S512, .f32⟩ : BufTy).Contents (Elt F)),
    binary main_v216 main_v253 main_v254 (addf : (⟨S512, .f32⟩ : BufTy).Contents (Elt F) → (⟨S512, .f32⟩ : BufTy).Contents (Elt F) → (⟨S512, .f32⟩ : BufTy).Contents (Elt F)),
    unary main_v254 main_v255 (Host.sqrt : (⟨S512, .f32⟩ : BufTy).Contents (Elt F) → (⟨S512, .f32⟩ : BufTy).Contents (Elt F)),
    binary main_v210 main_v255 main_v256 (Host.divf : (⟨S512, .f32⟩ : BufTy).Contents (Elt F) → (⟨S512, .f32⟩ : BufTy).Contents (Elt F) → (⟨S512, .f32⟩ : BufTy).Contents (Elt F)),
    unary main_v256 main_v257 (broadcastInDim S1x512 ![1] bcast_S512_S1x512_1 : (⟨S512, .f32⟩ : BufTy).Contents (Elt F) → (⟨S1x512, .f32⟩ : BufTy).Contents (Elt F)),
    unary main_v257 main_v258 (broadcastInDim S50000x512 ![0, 1] bcast_S1x512_S50000x512_0_1 : (⟨S1x512, .f32⟩ : BufTy).Contents (Elt F) → (⟨S50000x512, .f32⟩ : BufTy).Contents (Elt F)),
    binary main_v252 main_v258 main_v259 (mulf : (⟨S50000x512, .f32⟩ : BufTy).Contents (Elt F) → (⟨S50000x512, .f32⟩ : BufTy).Contents (Elt F) → (⟨S50000x512, .f32⟩ : BufTy).Contents (Elt F)),
    unary main_v212 main_v260 (broadcastInDim S1x512 ![1] bcast_S512_S1x512_1 : (⟨S512, .f32⟩ : BufTy).Contents (Elt F) → (⟨S1x512, .f32⟩ : BufTy).Contents (Elt F)),
    unary main_v260 main_v261 (broadcastInDim S50000x512 ![0, 1] bcast_S1x512_S50000x512_0_1 : (⟨S1x512, .f32⟩ : BufTy).Contents (Elt F) → (⟨S50000x512, .f32⟩ : BufTy).Contents (Elt F)),
    binary main_v259 main_v261 main_v262 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x512, .f32⟩) main_call7_v0) (broadcastInDim S50000x512 ![] bcast_S_S50000x512),
    TRef.binary (TRef.of (T := ⟨S50000x512, .f32⟩) main_v262) (TRef.of (T := ⟨S50000x512, .f32⟩) main_call7_v0) (TRef.of (T := ⟨S50000x512, .f32⟩) main_v263) maximumf,
    unary main_arg15 main_v264 ((extractStridedSlice S1x512 ![3, 0] · slices_S4x512_S1x512_3_0) : (⟨S4x512, .f32⟩ : BufTy).Contents (Elt F) → (⟨S1x512, .f32⟩ : BufTy).Contents (Elt F)),
    reshape main_v264 main_v265 rfl shapeCasts_S1x512_S512,
    unary main_arg16 main_v266 ((extractStridedSlice S1x512 ![3, 0] · slices_S4x512_S1x512_3_0) : (⟨S4x512, .f32⟩ : BufTy).Contents (Elt F) → (⟨S1x512, .f32⟩ : BufTy).Contents (Elt F)),
    reshape main_v266 main_v267 rfl shapeCasts_S1x512_S512,
    unary main_arg17 main_v268 ((extractStridedSlice S1x512 ![3, 0] · slices_S4x512_S1x512_3_0) : (⟨S4x512, .f32⟩ : BufTy).Contents (Elt F) → (⟨S1x512, .f32⟩ : BufTy).Contents (Elt F)),
    reshape main_v268 main_v269 rfl shapeCasts_S1x512_S512,
    unary main_arg18 main_v270 ((extractStridedSlice S1x512 ![3, 0] · slices_S4x512_S1x512_3_0) : (⟨S4x512, .f32⟩ : BufTy).Contents (Elt F) → (⟨S1x512, .f32⟩ : BufTy).Contents (Elt F)),
    reshape main_v270 main_v271 rfl shapeCasts_S1x512_S512,
    unary main_arg19 main_v272 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v272 main_v273 rfl shapeCasts_S1x512x512_S512x512,
    unary main_arg20 main_v274 ((extractStridedSlice S1x512 ![3, 0] · slices_S4x512_S1x512_3_0) : (⟨S4x512, .f32⟩ : BufTy).Contents (Elt F) → (⟨S1x512, .f32⟩ : BufTy).Contents (Elt F)),
    reshape main_v274 main_v275 rfl shapeCasts_S1x512_S512,
    unary main_arg21 main_v276 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v276 main_v277 rfl shapeCasts_S1x512x512_S512x512,
    unary main_arg22 main_v278 ((extractStridedSlice S1x512 ![3, 0] · slices_S4x512_S1x512_3_0) : (⟨S4x512, .f32⟩ : BufTy).Contents (Elt F) → (⟨S1x512, .f32⟩ : BufTy).Contents (Elt F)),
    reshape main_v278 main_v279 rfl shapeCasts_S1x512_S512 ]

/-- Statements 241 … 300 are those operations run in order. -/
theorem part_eq4 (c : Dev nD) : main_part4 (F := F) c = seq ops4 := rfl

/-- Each of them touches TensorCore buffers only. -/
theorem ops_sub4 : (ops4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- None of them allocates. -/
theorem fresh4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 5 -/

/-- The operations of @main's statements 301 … 360, in order (64 operations: a call of the relu function stands
    as its three operations). -/
abbrev ops5 : List (HloOp τ sig (Elt F)) :=
  [ unary main_arg23 main_v280 ((extractStridedSlice S1x512 ![3, 0] · slices_S4x512_S1x512_3_0) : (⟨S4x512, .f32⟩ : BufTy).Contents (Elt F) → (⟨S1x512, .f32⟩ : BufTy).Contents (Elt F)),
    reshape main_v280 main_v281 rfl shapeCasts_S1x512_S512,
    unary main_arg24 main_v282 ((extractStridedSlice S1x512 ![3, 0] · slices_S4x512_S1x512_3_0) : (⟨S4x512, .f32⟩ : BufTy).Contents (Elt F) → (⟨S1x512, .f32⟩ : BufTy).Contents (Elt F)),
    reshape main_v282 main_v283 rfl shapeCasts_S1x512_S512,
    unary main_arg25 main_v284 ((extractStridedSlice S1x512 ![3, 0] · slices_S4x512_S1x512_3_0) : (⟨S4x512, .f32⟩ : BufTy).Contents (Elt F) → (⟨S1x512, .f32⟩ : BufTy).Contents (Elt F)),
    reshape main_v284 main_v285 rfl shapeCasts_S1x512_S512,
    unary main_arg26 main_v286 ((extractStridedSlice S1x512 ![3, 0] · slices_S4x512_S1x512_3_0) : (⟨S4x512, .f32⟩ : BufTy).Contents (Elt F) → (⟨S1x512, .f32⟩ : BufTy).Contents (Elt F)),
    reshape main_v286 main_v287 rfl shapeCasts_S1x512_S512,
    unary main_v269 main_v288 (broadcastInDim S1x512 ![1] bcast_S512_S1x512_1 : (⟨S512, .f32⟩ : BufTy).Contents (Elt F) → (⟨S1x512, .f32⟩ : BufTy).Contents (Elt F)),
    unary main_v288 main_v289 (broadcastInDim S50000x512 ![0, 1] bcast_S1x512_S50000x512_0_1 : (⟨S1x512, .f32⟩ : BufTy).Contents (Elt F) → (⟨S50000x512, .f32⟩ : BufTy).Contents (Elt F)),
    binary main_v263 main_v289 main_v290 (subf : (⟨S50000x512, .f32⟩ : BufTy).Contents (Elt F) → (⟨S50000x512, .f32⟩ : BufTy).Contents (Elt F) → (⟨S50000x512, .f32⟩ : BufTy).Contents (Elt F)),
    nullary main_cst_18 (constant S_ .f32 0x3727C5AC#32),
    unary main_cst_18 main_v291 (broadcastInDim S512 ![] bcast_S_S512 : (⟨S_, .f32⟩ : BufTy).Contents (Elt F) → (⟨S512, .f32⟩ : BufTy).Contents (Elt F)),
    binary main_v271 main_v291 main_v292 (addf : (⟨S512, .f32⟩ : BufTy).Contents (Elt F) → (⟨S512, .f32⟩ : BufTy).Contents (Elt F) → (⟨S512, .f32⟩ : BufTy).Contents (Elt F)),
    unary main_v292 main_v293 (Host.sqrt : (⟨S512, .f32⟩ : BufTy).Contents (Elt F) → (⟨S512, .f32⟩ : BufTy).Contents (Elt F)),
    binary main_v265 main_v293 main_v294 (Host.divf : (⟨S512, .f32⟩ : BufTy).Contents (Elt F) → (⟨S512, .f32⟩ : BufTy).Contents (Elt F) → (⟨S512, .f32⟩ : BufTy).Contents (Elt F)),
    unary main_v294 main_v295 (broadcastInDim S1x512 ![1] bcast_S512_S1x512_1 : (⟨S512, .f32⟩ : BufTy).Contents (Elt F) → (⟨S1x512, .f32⟩ : BufTy).Contents (Elt F)),
    unary main_v295 main_v296 (broadcastInDim S50000x512 ![0, 1] bcast_S1x512_S50000x512_0_1 : (⟨S1x512, .f32⟩ : BufTy).Contents (Elt F) → (⟨S50000x512, .f32⟩ : BufTy).Contents (Elt F)),
    binary main_v290 main_v296 main_v297 (mulf : (⟨S50000x512, .f32⟩ : BufTy).Contents (Elt F) → (⟨S50000x512, .f32⟩ : BufTy).Contents (Elt F) → (⟨S50000x512, .f32⟩ : BufTy).Contents (Elt F)),
    unary main_v267 main_v298 (broadcastInDim S1x512 ![1] bcast_S512_S1x512_1 : (⟨S512, .f32⟩ : BufTy).Contents (Elt F) → (⟨S1x512, .f32⟩ : BufTy).Contents (Elt F)),
    unary main_v298 main_v299 (broadcastInDim S50000x512 ![0, 1] bcast_S1x512_S50000x512_0_1 : (⟨S1x512, .f32⟩ : BufTy).Contents (Elt F) → (⟨S50000x512, .f32⟩ : BufTy).Contents (Elt F)),
    binary main_v297 main_v299 main_v300 (addf : (⟨S50000x512, .f32⟩ : BufTy).Contents (Elt F) → (⟨S50000x512, .f32⟩ : BufTy).Contents (Elt F) → (⟨S50000x512, .f32⟩ : BufTy).Contents (Elt F)),
    nullary main_c_19 (constantI S_ 32 0#32),
    unary main_c_19 main_v301 (broadcastInDim S150000 ![] bcast_S_S150000 : (⟨S_, .i32⟩ : BufTy).Contents (Elt F) → (⟨S150000, .i32⟩ : BufTy).Contents (Elt F)),
    binary main_v1 main_v301 main_v302 (cmpi .slt : (⟨S150000, .i32⟩ : BufTy).Contents (Elt F) → (⟨S150000, .i32⟩ : BufTy).Contents (Elt F) → (⟨S150000, .i1⟩ : BufTy).Contents (Elt F)),
    nullary main_c_20 (constantI S_ 32 50000#32),
    unary main_c_20 main_v303 (broadcastInDim S150000 ![] bcast_S_S150000 : (⟨S_, .i32⟩ : BufTy).Contents (Elt F) → (⟨S150000, .i32⟩ : BufTy).Contents (Elt F)),
    binary main_v1 main_v303 main_v304 (addi : (⟨S150000, .i32⟩ : BufTy).Contents (Elt F) → (⟨S150000, .i32⟩ : BufTy).Contents (Elt F) → (⟨S150000, .i32⟩ : BufTy).Contents (Elt F)),
    ternary main_v302 main_v304 main_v1 main_v305 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v305 main_v306 (broadcastInDim S150000x1 ![0] bcast_S150000_S150000x1_0 : (⟨S150000, .i32⟩ : BufTy).Contents (Elt F) → (⟨S150000x1, .i32⟩ : BufTy).Contents (Elt F)),
    binary main_v300 main_v306 main_v307 ((fun x i => Host.gather gather_S50000x512_S150000x1_S150000x512_1_0_n_n_0_1_1512 x i) : (⟨S50000x512, .f32⟩ : BufTy).Contents (Elt F) → (⟨S150000x1, .i32⟩ : BufTy).Contents (Elt F) → (⟨S150000x512, .f32⟩ : BufTy).Contents (Elt F)),
    nullary main_cst_21 (constant S_ .f32 0x00000000#32),
    unary main_cst_21 main_v308 (broadcastInDim S50000x512 ![] bcast_S_S50000x512 : (⟨S_, .f32⟩ : BufTy).Contents (Elt F) → (⟨S50000x512, .f32⟩ : BufTy).Contents (Elt F)),
    unary main_v3 main_v309 (broadcastInDim S150000x1 ![0] bcast_S150000_S150000x1_0 : (⟨S150000, .i32⟩ : BufTy).Contents (Elt F) → (⟨S150000x1, .i32⟩ : BufTy).Contents (Elt F)),
    ternary main_v308 main_v309 main_v307 main_v310 ((fun x i u => Host.scatterAdd scatter_S50000x512_S150000x1_S150000x512_1_0_0_1 x i u) : (⟨S50000x512, .f32⟩ : BufTy).Contents (Elt F) → (⟨S150000x1, .i32⟩ : BufTy).Contents (Elt F) → (⟨S150000x512, .f32⟩ : BufTy).Contents (Elt F) → (⟨S50000x512, .f32⟩ : BufTy).Contents (Elt F)),
    binary main_v310 main_v300 main_v311 (addf : (⟨S50000x512, .f32⟩ : BufTy).Contents (Elt F) → (⟨S50000x512, .f32⟩ : BufTy).Contents (Elt F) → (⟨S50000x512, .f32⟩ : BufTy).Contents (Elt F)),
    binary main_v311 main_v273 main_v312 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v275 main_v313 (broadcastInDim S1x512 ![1] bcast_S512_S1x512_1 : (⟨S512, .f32⟩ : BufTy).Contents (Elt F) → (⟨S1x512, .f32⟩ : BufTy).Contents (Elt F)),
    unary main_v313 main_v314 (broadcastInDim S50000x512 ![0, 1] bcast_S1x512_S50000x512_0_1 : (⟨S1x512, .f32⟩ : BufTy).Contents (Elt F) → (⟨S50000x512, .f32⟩ : BufTy).Contents (Elt F)),
    binary main_v312 main_v314 main_v315 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x512, .f32⟩) main_call8_v0) (broadcastInDim S50000x512 ![] bcast_S_S50000x512),
    TRef.binary (TRef.of (T := ⟨S50000x512, .f32⟩) main_v315) (TRef.of (T := ⟨S50000x512, .f32⟩) main_call8_v0) (TRef.of (T := ⟨S50000x512, .f32⟩) main_v316) maximumf,
    binary main_v316 main_v277 main_v317 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_v279 main_v318 (broadcastInDim S1x512 ![1] bcast_S512_S1x512_1 : (⟨S512, .f32⟩ : BufTy).Contents (Elt F) → (⟨S1x512, .f32⟩ : BufTy).Contents (Elt F)),
    unary main_v318 main_v319 (broadcastInDim S50000x512 ![0, 1] bcast_S1x512_S50000x512_0_1 : (⟨S1x512, .f32⟩ : BufTy).Contents (Elt F) → (⟨S50000x512, .f32⟩ : BufTy).Contents (Elt F)),
    binary main_v317 main_v319 main_v320 (addf : (⟨S50000x512, .f32⟩ : BufTy).Contents (Elt F) → (⟨S50000x512, .f32⟩ : BufTy).Contents (Elt F) → (⟨S50000x512, .f32⟩ : BufTy).Contents (Elt F)),
    unary main_v285 main_v321 (broadcastInDim S1x512 ![1] bcast_S512_S1x512_1 : (⟨S512, .f32⟩ : BufTy).Contents (Elt F) → (⟨S1x512, .f32⟩ : BufTy).Contents (Elt F)),
    unary main_v321 main_v322 (broadcastInDim S50000x512 ![0, 1] bcast_S1x512_S50000x512_0_1 : (⟨S1x512, .f32⟩ : BufTy).Contents (Elt F) → (⟨S50000x512, .f32⟩ : BufTy).Contents (Elt F)),
    binary main_v320 main_v322 main_v323 (subf : (⟨S50000x512, .f32⟩ : BufTy).Contents (Elt F) → (⟨S50000x512, .f32⟩ : BufTy).Contents (Elt F) → (⟨S50000x512, .f32⟩ : BufTy).Contents (Elt F)),
    nullary main_cst_22 (constant S_ .f32 0x3727C5AC#32),
    unary main_cst_22 main_v324 (broadcastInDim S512 ![] bcast_S_S512 : (⟨S_, .f32⟩ : BufTy).Contents (Elt F) → (⟨S512, .f32⟩ : BufTy).Contents (Elt F)),
    binary main_v287 main_v324 main_v325 (addf : (⟨S512, .f32⟩ : BufTy).Contents (Elt F) → (⟨S512, .f32⟩ : BufTy).Contents (Elt F) → (⟨S512, .f32⟩ : BufTy).Contents (Elt F)),
    unary main_v325 main_v326 (Host.sqrt : (⟨S512, .f32⟩ : BufTy).Contents (Elt F) → (⟨S512, .f32⟩ : BufTy).Contents (Elt F)),
    binary main_v281 main_v326 main_v327 (Host.divf : (⟨S512, .f32⟩ : BufTy).Contents (Elt F) → (⟨S512, .f32⟩ : BufTy).Contents (Elt F) → (⟨S512, .f32⟩ : BufTy).Contents (Elt F)),
    unary main_v327 main_v328 (broadcastInDim S1x512 ![1] bcast_S512_S1x512_1 : (⟨S512, .f32⟩ : BufTy).Contents (Elt F) → (⟨S1x512, .f32⟩ : BufTy).Contents (Elt F)),
    unary main_v328 main_v329 (broadcastInDim S50000x512 ![0, 1] bcast_S1x512_S50000x512_0_1 : (⟨S1x512, .f32⟩ : BufTy).Contents (Elt F) → (⟨S50000x512, .f32⟩ : BufTy).Contents (Elt F)),
    binary main_v323 main_v329 main_v330 (mulf : (⟨S50000x512, .f32⟩ : BufTy).Contents (Elt F) → (⟨S50000x512, .f32⟩ : BufTy).Contents (Elt F) → (⟨S50000x512, .f32⟩ : BufTy).Contents (Elt F)),
    unary main_v283 main_v331 (broadcastInDim S1x512 ![1] bcast_S512_S1x512_1 : (⟨S512, .f32⟩ : BufTy).Contents (Elt F) → (⟨S1x512, .f32⟩ : BufTy).Contents (Elt F)),
    unary main_v331 main_v332 (broadcastInDim S50000x512 ![0, 1] bcast_S1x512_S50000x512_0_1 : (⟨S1x512, .f32⟩ : BufTy).Contents (Elt F) → (⟨S50000x512, .f32⟩ : BufTy).Contents (Elt F)),
    binary main_v330 main_v332 main_v333 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x512, .f32⟩) main_call9_v0) (broadcastInDim S50000x512 ![] bcast_S_S50000x512),
    TRef.binary (TRef.of (T := ⟨S50000x512, .f32⟩) main_v333) (TRef.of (T := ⟨S50000x512, .f32⟩) main_call9_v0) (TRef.of (T := ⟨S50000x512, .f32⟩) main_v334) maximumf ]

/-- Statements 301 … 360 are those operations run in order. -/
theorem part_eq5 (c : Dev nD) : main_part5 (F := F) c = seq ops5 := rfl

/-- Each of them touches TensorCore buffers only. -/
theorem ops_sub5 : (ops5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- None of them allocates. -/
theorem fresh5 : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## Part 6 -/

/-- The operations of @main's statements 361 … 408, in order (53 operations: a call of the relu function stands
    as its three operations). -/
abbrev ops6 : List (HloOp τ sig (Elt F)) :=
  [ nullary main_cst_23 (constant S_ .f32 0x00000000#32),
    unary main_cst_23 main_v335 (broadcastInDim S2048x512 ![] bcast_S_S2048x512 : (⟨S_, .f32⟩ : BufTy).Contents (Elt F) → (⟨S2048x512, .f32⟩ : BufTy).Contents (Elt F)),
    unary main_arg2 main_v336 (broadcastInDim S50000x1 ![0] bcast_S50000_S50000x1_0 : (⟨S50000, .i32⟩ : BufTy).Contents (Elt F) → (⟨S50000x1, .i32⟩ : BufTy).Contents (Elt F)),
    ternary main_v335 main_v336 main_v334 main_v337 ((fun x i u => Host.scatterAdd scatter_S2048x512_S50000x1_S50000x512_1_0_0_1 x i u) : (⟨S2048x512, .f32⟩ : BufTy).Contents (Elt F) → (⟨S50000x1, .i32⟩ : BufTy).Contents (Elt F) → (⟨S50000x512, .f32⟩ : BufTy).Contents (Elt F) → (⟨S2048x512, .f32⟩ : BufTy).Contents (Elt F)),
    nullary main_cst_24 (constant S_ .f32 0x3F800000#32),
    unary main_cst_24 main_v338 (broadcastInDim S50000 ![] bcast_S_S50000 : (⟨S_, .f32⟩ : BufTy).Contents (Elt F) → (⟨S50000, .f32⟩ : BufTy).Contents (Elt F)),
    nullary main_cst_25 (constant S_ .f32 0x00000000#32),
    unary main_cst_25 main_v339 (broadcastInDim S2048 ![] bcast_S_S2048 : (⟨S_, .f32⟩ : BufTy).Contents (Elt F) → (⟨S2048, .f32⟩ : BufTy).Contents (Elt F)),
    unary main_arg2 main_v340 (broadcastInDim S50000x1 ![0] bcast_S50000_S50000x1_0 : (⟨S50000, .i32⟩ : BufTy).Contents (Elt F) → (⟨S50000x1, .i32⟩ : BufTy).Contents (Elt F)),
    ternary main_v339 main_v340 main_v338 main_v341 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_26 (constant S_ .f32 0x3F800000#32),
    unary main_cst_26 main_v342 (broadcastInDim S2048 ![] bcast_S_S2048 : (⟨S_, .f32⟩ : BufTy).Contents (Elt F) → (⟨S2048, .f32⟩ : BufTy).Contents (Elt F)),
    binary main_v341 main_v342 main_v343 (maximumf : (⟨S2048, .f32⟩ : BufTy).Contents (Elt F) → (⟨S2048, .f32⟩ : BufTy).Contents (Elt F) → (⟨S2048, .f32⟩ : BufTy).Contents (Elt F)),
    unary main_v343 main_v344 (broadcastInDim S2048x1 ![0] bcast_S2048_S2048x1_0 : (⟨S2048, .f32⟩ : BufTy).Contents (Elt F) → (⟨S2048x1, .f32⟩ : BufTy).Contents (Elt F)),
    unary main_v344 main_v345 (broadcastInDim S2048x512 ![0, 1] bcast_S2048x1_S2048x512_0_1 : (⟨S2048x1, .f32⟩ : BufTy).Contents (Elt F) → (⟨S2048x512, .f32⟩ : BufTy).Contents (Elt F)),
    binary main_v337 main_v345 main_v346 (Host.divf : (⟨S2048x512, .f32⟩ : BufTy).Contents (Elt F) → (⟨S2048x512, .f32⟩ : BufTy).Contents (Elt F) → (⟨S2048x512, .f32⟩ : BufTy).Contents (Elt F)),
    unary main_arg27 main_v347 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v347 main_v348 rfl shapeCasts_S1x512x512_S512x512,
    binary main_v346 main_v348 main_v349 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_arg28 main_v350 ((extractStridedSlice S1x512 ![0, 0] · slices_S3x512_S1x512_0_0) : (⟨S3x512, .f32⟩ : BufTy).Contents (Elt F) → (⟨S1x512, .f32⟩ : BufTy).Contents (Elt F)),
    reshape main_v350 main_v351 rfl shapeCasts_S1x512_S512,
    unary main_v351 main_v352 (broadcastInDim S1x512 ![1] bcast_S512_S1x512_1 : (⟨S512, .f32⟩ : BufTy).Contents (Elt F) → (⟨S1x512, .f32⟩ : BufTy).Contents (Elt F)),
    unary main_v352 main_v353 (broadcastInDim S2048x512 ![0, 1] bcast_S1x512_S2048x512_0_1 : (⟨S1x512, .f32⟩ : BufTy).Contents (Elt F) → (⟨S2048x512, .f32⟩ : BufTy).Contents (Elt F)),
    binary main_v349 main_v353 main_v354 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S2048x512, .f32⟩) main_call10_v0) (broadcastInDim S2048x512 ![] bcast_S_S2048x512),
    TRef.binary (TRef.of (T := ⟨S2048x512, .f32⟩) main_v354) (TRef.of (T := ⟨S2048x512, .f32⟩) main_call10_v0) (TRef.of (T := ⟨S2048x512, .f32⟩) main_v355) maximumf,
    unary main_arg27 main_v356 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v356 main_v357 rfl shapeCasts_S1x512x512_S512x512,
    binary main_v355 main_v357 main_v358 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_arg28 main_v359 ((extractStridedSlice S1x512 ![1, 0] · slices_S3x512_S1x512_1_0) : (⟨S3x512, .f32⟩ : BufTy).Contents (Elt F) → (⟨S1x512, .f32⟩ : BufTy).Contents (Elt F)),
    reshape main_v359 main_v360 rfl shapeCasts_S1x512_S512,
    unary main_v360 main_v361 (broadcastInDim S1x512 ![1] bcast_S512_S1x512_1 : (⟨S512, .f32⟩ : BufTy).Contents (Elt F) → (⟨S1x512, .f32⟩ : BufTy).Contents (Elt F)),
    unary main_v361 main_v362 (broadcastInDim S2048x512 ![0, 1] bcast_S1x512_S2048x512_0_1 : (⟨S1x512, .f32⟩ : BufTy).Contents (Elt F) → (⟨S2048x512, .f32⟩ : BufTy).Contents (Elt F)),
    binary main_v358 main_v362 main_v363 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S2048x512, .f32⟩) main_call11_v0) (broadcastInDim S2048x512 ![] bcast_S_S2048x512),
    TRef.binary (TRef.of (T := ⟨S2048x512, .f32⟩) main_v363) (TRef.of (T := ⟨S2048x512, .f32⟩) main_call11_v0) (TRef.of (T := ⟨S2048x512, .f32⟩) main_v364) maximumf,
    unary main_arg27 main_v365 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v365 main_v366 rfl shapeCasts_S1x512x512_S512x512,
    binary main_v364 main_v366 main_v367 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    unary main_arg28 main_v368 ((extractStridedSlice S1x512 ![2, 0] · slices_S3x512_S1x512_2_0) : (⟨S3x512, .f32⟩ : BufTy).Contents (Elt F) → (⟨S1x512, .f32⟩ : BufTy).Contents (Elt F)),
    reshape main_v368 main_v369 rfl shapeCasts_S1x512_S512,
    unary main_v369 main_v370 (broadcastInDim S1x512 ![1] bcast_S512_S1x512_1 : (⟨S512, .f32⟩ : BufTy).Contents (Elt F) → (⟨S1x512, .f32⟩ : BufTy).Contents (Elt F)),
    unary main_v370 main_v371 (broadcastInDim S2048x512 ![0, 1] bcast_S1x512_S2048x512_0_1 : (⟨S1x512, .f32⟩ : BufTy).Contents (Elt F) → (⟨S2048x512, .f32⟩ : BufTy).Contents (Elt F)),
    binary main_v367 main_v371 main_v372 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S2048x512, .f32⟩) main_call12_v0) (broadcastInDim S2048x512 ![] bcast_S_S2048x512),
    TRef.binary (TRef.of (T := ⟨S2048x512, .f32⟩) main_v372) (TRef.of (T := ⟨S2048x512, .f32⟩) main_call12_v0) (TRef.of (T := ⟨S2048x512, .f32⟩) main_v373) maximumf,
    binary main_v373 main_arg29 main_v374 ((fun l r => Host.dotGeneral dot_S2048x512_S512x1_S2048x1_1_0_0_1_n_n none l r) : (⟨S2048x512, .f32⟩ : BufTy).Contents (Elt F) → (⟨S512x1, .f32⟩ : BufTy).Contents (Elt F) → (⟨S2048x1, .f32⟩ : BufTy).Contents (Elt F)),
    unary main_arg30 main_v375 (broadcastInDim S1x1 ![1] bcast_S1_S1x1_1 : (⟨S1, .f32⟩ : BufTy).Contents (Elt F) → (⟨S1x1, .f32⟩ : BufTy).Contents (Elt F)),
    unary main_v375 main_v376 (broadcastInDim S2048x1 ![0, 1] bcast_S1x1_S2048x1_0_1 : (⟨S1x1, .f32⟩ : BufTy).Contents (Elt F) → (⟨S2048x1, .f32⟩ : BufTy).Contents (Elt F)),
    binary main_v374 main_v376 main_v377 (addf : (⟨S2048x1, .f32⟩ : BufTy).Contents (Elt F) → (⟨S2048x1, .f32⟩ : BufTy).Contents (Elt F) → (⟨S2048x1, .f32⟩ : BufTy).Contents (Elt F)) ]

/-- Statements 361 … 408 are those operations run in order. -/
theorem part_eq6 (c : Dev nD) : main_part6 (F := F) c = seq ops6 := rfl

/-- Each of them touches TensorCore buffers only. -/
theorem ops_sub6 : (ops6 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- None of them allocates. -/
theorem fresh6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## The whole program -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- @main's 433 operations: the seven parts' in order. -/
abbrev opsAll : List (HloOp τ sig (Elt F)) := ops0 ++ (ops1 ++ (ops2 ++ (ops3 ++ (ops4 ++ (ops5 ++ ops6)))))

/-- @main is its operations run in order. -/
theorem main_eq (c : Dev nD) : main (F := F) c = seq (opsAll (F := F)) := by
  unfold main
  rw [part_eq0, part_eq1, part_eq2, part_eq3, part_eq4, part_eq5, part_eq6]
  simp only [opsAll, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_subAll : (opsAll : List (HloOp τ sig (Elt F))).Forall fun op => op.bufs ⊆ tcRefs τ sig :=
  List.forall_append.mpr ⟨ops_sub0, List.forall_append.mpr ⟨ops_sub1, List.forall_append.mpr ⟨ops_sub2,
    List.forall_append.mpr ⟨ops_sub3, List.forall_append.mpr ⟨ops_sub4, List.forall_append.mpr ⟨ops_sub5, ops_sub6⟩⟩⟩⟩⟩⟩

/-- No operation allocates. -/
theorem freshAll : ∀ op ∈ (opsAll : List (HloOp τ sig (Elt F))), op.fresh = ∅ :=
  List.forall_iff_forall_mem.mp (List.forall_append.mpr ⟨fresh0, List.forall_append.mpr ⟨fresh1, List.forall_append.mpr ⟨fresh2,
    List.forall_append.mpr ⟨fresh3, List.forall_append.mpr ⟨fresh4, List.forall_append.mpr ⟨fresh5, fresh6⟩⟩⟩⟩⟩⟩)

/-- On every device, for any float values, from any memory with zero counters: every weakly fair execution of @main
    terminates with each TensorCore buffer at the fold of the seven parts' operations, part after part, over its
    launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops6 (after ops5 (after ops4 (after ops3 (after ops2 (after ops1 (after ops0 (launchContents m d)))))))
            (Proc.devRef .tc b) :=
  (θ_run defs _ _).mono (fun r h d b => (h d b).trans (by
      simp only [opsAll, after_append]))
    (run_seq scopedRefs_eq scopedSems_eq defs (main (F := F)) (fun _ => opsAll) main_eq (fun _ => ops_subAll) m ρ
      (fun _ => freshAll))

end Cert.RefSide

end
-- ==== Proof.RefPart0.lean ====
/-
  Part 0 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 0 takes the contents before it to the contents after it. -/
theorem part0 (V : Valuation τ sig (Elt Ideal)) (h : Live0 x0 x1 x2 x3 x4 x5 x6 x7 x8 x9 x10 x11 x12 x13 x14 x15 x16 x17 x18 x19 x20 x21 x22 x23 x24 x25 x26 x27 x28 x29 x30 V) : Live1 x0 x1 x2 x3 x4 x5 x6 x7 x8 x9 x10 x11 x12 x13 x14 x15 x16 x17 x18 x19 x20 x21 x22 x23 x24 x25 x26 x27 x28 x29 x30 (after (ops0 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v50 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30]
    rfl
  v52 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30]
    rfl
  v54 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30]
    rfl
  v1 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30]
    rfl
  v3 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30]
    rfl

end Cert.RefSide

end
-- ==== Proof.RefPart1.lean ====
/-
  Part 1 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 1 takes the contents before it to the contents after it. -/
theorem part1 (V : Valuation τ sig (Elt Ideal)) (h : Live1 x0 x1 x2 x3 x4 x5 x6 x7 x8 x9 x10 x11 x12 x13 x14 x15 x16 x17 x18 x19 x20 x21 x22 x23 x24 x25 x26 x27 x28 x29 x30 V) : Live2 x0 x1 x2 x3 x4 x5 x6 x7 x8 x9 x10 x11 x12 x13 x14 x15 x16 x17 x18 x19 x20 x21 x22 x23 x24 x25 x26 x27 x28 x29 x30 (after (ops1 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v74 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v50, h.v52, h.v54, h.v1, h.v3]
    rfl
  v68 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v50, h.v52, h.v54, h.v1, h.v3]
    rfl
  v110 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v50, h.v52, h.v54, h.v1, h.v3]
    rfl
  v70 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v50, h.v52, h.v54, h.v1, h.v3]
    rfl
  v1 := by
    after_results_simp
    exact h.v1
  v3 := by
    after_results_simp
    exact h.v3

end Cert.RefSide

end
-- ==== Proof.RefPart2.lean ====
/-
  Part 2 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 2 takes the contents before it to the contents after it. -/
theorem part2 (V : Valuation τ sig (Elt Ideal)) (h : Live2 x0 x1 x2 x3 x4 x5 x6 x7 x8 x9 x10 x11 x12 x13 x14 x15 x16 x17 x18 x19 x20 x21 x22 x23 x24 x25 x26 x27 x28 x29 x30 V) : Live3 x0 x1 x2 x3 x4 x5 x6 x7 x8 x9 x10 x11 x12 x13 x14 x15 x16 x17 x18 x19 x20 x21 x22 x23 x24 x25 x26 x27 x28 x29 x30 (after (ops2 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  cst_11 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v3 := by
    after_results_simp
    exact h.v3
  v165 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v158 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v131 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v133 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v135 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v137 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v143 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v145 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v139 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v141 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v74, h.v68, h.v110, h.v70, h.v1, h.v3]
    rfl
  v1 := by
    after_results_simp
    exact h.v1

end Cert.RefSide

end
-- ==== Proof.RefPart3.lean ====
/-
  Part 3 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 3 takes the contents before it to the contents after it. -/
theorem part3 (V : Valuation τ sig (Elt Ideal)) (h : Live3 x0 x1 x2 x3 x4 x5 x6 x7 x8 x9 x10 x11 x12 x13 x14 x15 x16 x17 x18 x19 x20 x21 x22 x23 x24 x25 x26 x27 x28 x29 x30 V) : Live4 x0 x1 x2 x3 x4 x5 x6 x7 x8 x9 x10 x11 x12 x13 x14 x15 x16 x17 x18 x19 x20 x21 x22 x23 x24 x25 x26 x27 x28 x29 x30 (after (ops3 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v223 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v219 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v196 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v1 := by
    after_results_simp
    exact h.v1
  v3 := by
    after_results_simp
    exact h.v3
  v202 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v204 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v206 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v208 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v214 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v216 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v210 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl
  v212 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.cst_11, h.v3, h.v165, h.v158, h.v131, h.v133, h.v135, h.v137, h.v143, h.v145, h.v139, h.v141, h.v1]
    rfl

end Cert.RefSide

end
-- ==== Proof.RefPart4.lean ====
/-
  Part 4 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 4 takes the contents before it to the contents after it. -/
theorem part4 (V : Valuation τ sig (Elt Ideal)) (h : Live4 x0 x1 x2 x3 x4 x5 x6 x7 x8 x9 x10 x11 x12 x13 x14 x15 x16 x17 x18 x19 x20 x21 x22 x23 x24 x25 x26 x27 x28 x29 x30 V) : Live5 x0 x1 x2 x3 x4 x5 x6 x7 x8 x9 x10 x11 x12 x13 x14 x15 x16 x17 x18 x19 x20 x21 x22 x23 x24 x25 x26 x27 x28 x29 x30 (after (ops4 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v269 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v263 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v271 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v265 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v267 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v1 := by
    after_results_simp
    exact h.v1
  v3 := by
    after_results_simp
    exact h.v3
  v273 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v275 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v277 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl
  v279 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v223, h.v219, h.v196, h.v1, h.v3, h.v202, h.v204, h.v206, h.v208, h.v214, h.v216, h.v210, h.v212]
    rfl

end Cert.RefSide

end
-- ==== Proof.RefPart5.lean ====
/-
  Part 5 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 5 takes the contents before it to the contents after it. -/
theorem part5 (V : Valuation τ sig (Elt Ideal)) (h : Live5 x0 x1 x2 x3 x4 x5 x6 x7 x8 x9 x10 x11 x12 x13 x14 x15 x16 x17 x18 x19 x20 x21 x22 x23 x24 x25 x26 x27 x28 x29 x30 V) : Live6 x0 x1 x2 x3 x4 x5 x6 x7 x8 x9 x10 x11 x12 x13 x14 x15 x16 x17 x18 x19 x20 x21 x22 x23 x24 x25 x26 x27 x28 x29 x30 (after (ops5 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v334 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v269, h.v263, h.v271, h.v265, h.v267, h.v1, h.v3, h.v273, h.v275, h.v277, h.v279]
    rfl

end Cert.RefSide

end
-- ==== Proof.RefPart6.lean ====
/-
  Part 6 of the reference program's @main carries the boundary contents forward: if every buffer still to be read holds
  its stage before the part, then so does every buffer still to be read after it. A buffer the part writes holds its
  operation's value of operands that hold their stages, which is the stage by definition; any other keeps its contents.
-/
import proofs.«174249_j54640573940143_1_alg».proof.Proof.RefRead
import proofs.«174249_j54640573940143_1_alg».proof.Proof.RefLive
import proofs.«174249_j54640573940143_1_alg».proof.Proof.RefSeq
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S512, .f32⟩ : BufTy).Contents (Elt Ideal)) (x15 : (⟨S4x512, .f32⟩ : BufTy).Contents (Elt Ideal)) (x16 : (⟨S4x512, .f32⟩ : BufTy).Contents (Elt Ideal)) (x17 : (⟨S4x512, .f32⟩ : BufTy).Contents (Elt Ideal)) (x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 : (⟨S4x512, .f32⟩ : BufTy).Contents (Elt Ideal)) (x23 : (⟨S4x512, .f32⟩ : BufTy).Contents (Elt Ideal)) (x24 : (⟨S4x512, .f32⟩ : BufTy).Contents (Elt Ideal)) (x25 : (⟨S4x512, .f32⟩ : BufTy).Contents (Elt Ideal)) (x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal))
set_option maxHeartbeats 1000000000 in
/-- Part 6 takes the contents before it to the contents after it. -/
theorem part6 (V : Valuation τ sig (Elt Ideal)) (h : Live6 x0 x1 x2 x3 x4 x5 x6 x7 x8 x9 x10 x11 x12 x13 x14 x15 x16 x17 x18 x19 x20 x21 x22 x23 x24 x25 x26 x27 x28 x29 x30 V) : Live7 x0 x1 x2 x3 x4 x5 x6 x7 x8 x9 x10 x11 x12 x13 x14 x15 x16 x17 x18 x19 x20 x21 x22 x23 x24 x25 x26 x27 x28 x29 x30 (after (ops6 (F := Ideal)) V) where
  a0 := by
    after_results_simp
    exact h.a0
  a1 := by
    after_results_simp
    exact h.a1
  a2 := by
    after_results_simp
    exact h.a2
  a3 := by
    after_results_simp
    exact h.a3
  a4 := by
    after_results_simp
    exact h.a4
  a5 := by
    after_results_simp
    exact h.a5
  a6 := by
    after_results_simp
    exact h.a6
  a7 := by
    after_results_simp
    exact h.a7
  a8 := by
    after_results_simp
    exact h.a8
  a9 := by
    after_results_simp
    exact h.a9
  a10 := by
    after_results_simp
    exact h.a10
  a11 := by
    after_results_simp
    exact h.a11
  a12 := by
    after_results_simp
    exact h.a12
  a13 := by
    after_results_simp
    exact h.a13
  a14 := by
    after_results_simp
    exact h.a14
  a15 := by
    after_results_simp
    exact h.a15
  a16 := by
    after_results_simp
    exact h.a16
  a17 := by
    after_results_simp
    exact h.a17
  a18 := by
    after_results_simp
    exact h.a18
  a19 := by
    after_results_simp
    exact h.a19
  a20 := by
    after_results_simp
    exact h.a20
  a21 := by
    after_results_simp
    exact h.a21
  a22 := by
    after_results_simp
    exact h.a22
  a23 := by
    after_results_simp
    exact h.a23
  a24 := by
    after_results_simp
    exact h.a24
  a25 := by
    after_results_simp
    exact h.a25
  a26 := by
    after_results_simp
    exact h.a26
  a27 := by
    after_results_simp
    exact h.a27
  a28 := by
    after_results_simp
    exact h.a28
  a29 := by
    after_results_simp
    exact h.a29
  a30 := by
    after_results_simp
    exact h.a30
  v377 := by
    after_results_simp
    try simp only [h.a0, h.a1, h.a2, h.a3, h.a4, h.a5, h.a6, h.a7, h.a8, h.a9, h.a10, h.a11, h.a12, h.a13, h.a14, h.a15, h.a16, h.a17, h.a18, h.a19, h.a20, h.a21, h.a22, h.a23, h.a24, h.a25, h.a26, h.a27, h.a28, h.a29, h.a30, h.v334]
    rfl

end Cert.RefSide

end
-- ==== Proof.RefRunVal.lean ====
/-
  The reference program's run, read: it terminates without a fault with its result buffer at the last stage of the
  arguments and every argument unchanged. The run's last memory is the fold of the seven parts' operations over the launch
  contents; at the launch every argument buffer holds the argument, and each part carries the boundary contents forward.
-/
import proofs.«174249_j54640573940143_1_alg».proof.Proof.RefRead
import proofs.«174249_j54640573940143_1_alg».proof.Proof.RefLive
import proofs.«174249_j54640573940143_1_alg».proof.Proof.RefSeq
import proofs.«174249_j54640573940143_1_alg».proof.Proof.RefPart0
import proofs.«174249_j54640573940143_1_alg».proof.Proof.RefPart1
import proofs.«174249_j54640573940143_1_alg».proof.Proof.RefPart2
import proofs.«174249_j54640573940143_1_alg».proof.Proof.RefPart3
import proofs.«174249_j54640573940143_1_alg».proof.Proof.RefPart4
import proofs.«174249_j54640573940143_1_alg».proof.Proof.RefPart5
import proofs.«174249_j54640573940143_1_alg».proof.Proof.RefPart6
import Idealize.ShloMosaic.Lib.StableHlo.Run

set_option maxRecDepth 16384

noncomputable section

namespace Cert.RefSide

open Cert.ReferenceIdeal Idealize.ShloMosaic Idealize.ShloMosaic.TcCoe Idealize.SL.Sem Idealize.ShloMosaic.StableHlo

variable (m : (ℓ : Loc nD τ sig) → Buf (Elt Ideal) ℓ) (c : Dev nD)

/-- At the launch every argument buffer holds its argument. -/
theorem live0 : Live0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (launchContents m c) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- At the end the result buffer holds the last stage and the arguments are unchanged. -/
theorem live7 : Live7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
    (after (ops6 (F := Ideal)) (after (ops5 (F := Ideal)) (after (ops4 (F := Ideal)) (after (ops3 (F := Ideal)) (after (ops2 (F := Ideal)) (after (ops1 (F := Ideal)) (after (ops0 (F := Ideal)) (launchContents m c)))))))) :=
  part6 _ _ _ _ _ _ _ _ _ _ _ _ _ _ _ _ _ _ _ _ _ _ _ _ _ _ _ _ _ _ _ _ (part5 _ _ _ _ _ _ _ _ _ _ _ _ _ _ _ _ _ _ _ _ _ _ _ _ _ _ _ _ _ _ _ _ (part4 _ _ _ _ _ _ _ _ _ _ _ _ _ _ _ _ _ _ _ _ _ _ _ _ _ _ _ _ _ _ _ _ (part3 _ _ _ _ _ _ _ _ _ _ _ _ _ _ _ _ _ _ _ _ _ _ _ _ _ _ _ _ _ _ _ _ (part2 _ _ _ _ _ _ _ _ _ _ _ _ _ _ _ _ _ _ _ _ _ _ _ _ _ _ _ _ _ _ _ _ (part1 _ _ _ _ _ _ _ _ _ _ _ _ _ _ _ _ _ _ _ _ _ _ _ _ _ _ _ _ _ _ _ _ (part0 _ _ _ _ _ _ _ _ _ _ _ _ _ _ _ _ _ _ _ _ _ _ _ _ _ _ _ _ _ _ _ _ (live0 m c)))))))

/-- THE REFERENCE'S RUN: every weakly fair execution terminates, nothing faulting, with the result buffer at the last
    stage of the arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v377) = Cert.ReferenceIdeal.Read.val_main_v377 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun r h c =>
    ⟨(h c main_v377).trans (live7 m c).v377,
     (h c main_arg0).trans (live7 m c).a0,
     (h c main_arg1).trans (live7 m c).a1,
     (h c main_arg2).trans (live7 m c).a2,
     (h c main_arg3).trans (live7 m c).a3,
     (h c main_arg4).trans (live7 m c).a4,
     (h c main_arg5).trans (live7 m c).a5,
     (h c main_arg6).trans (live7 m c).a6,
     (h c main_arg7).trans (live7 m c).a7,
     (h c main_arg8).trans (live7 m c).a8,
     (h c main_arg9).trans (live7 m c).a9,
     (h c main_arg10).trans (live7 m c).a10,
     (h c main_arg11).trans (live7 m c).a11,
     (h c main_arg12).trans (live7 m c).a12,
     (h c main_arg13).trans (live7 m c).a13,
     (h c main_arg14).trans (live7 m c).a14,
     (h c main_arg15).trans (live7 m c).a15,
     (h c main_arg16).trans (live7 m c).a16,
     (h c main_arg17).trans (live7 m c).a17,
     (h c main_arg18).trans (live7 m c).a18,
     (h c main_arg19).trans (live7 m c).a19,
     (h c main_arg20).trans (live7 m c).a20,
     (h c main_arg21).trans (live7 m c).a21,
     (h c main_arg22).trans (live7 m c).a22,
     (h c main_arg23).trans (live7 m c).a23,
     (h c main_arg24).trans (live7 m c).a24,
     (h c main_arg25).trans (live7 m c).a25,
     (h c main_arg26).trans (live7 m c).a26,
     (h c main_arg27).trans (live7 m c).a27,
     (h c main_arg28).trans (live7 m c).a28,
     (h c main_arg29).trans (live7 m c).a29,
     (h c main_arg30).trans (live7 m c).a30⟩)
    (run_after m ρ)

end Cert.RefSide

end
-- ==== Proof.KRun.lean ====
/-
  The idealized kernel program's run, with every buffer named at the end.

  The program is six grid regions among stretches of host operations. Its run from a launch memory terminates without
  a fault, and at the end every buffer that outlives the regions holds the contents the fold through the program
  assigns it: a host stretch applies its operations, a region leaves in each of its arrays what its write-backs
  leave and every other buffer as it found it. The statement differs from the frame only in what it keeps of the last
  state: all of it, not just the arguments.
-/
import proofs.«174249_j54640573940143_1_alg».proof.Proof.Gen.KernelIdeal.Frame

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with every buffer outside the
    regions' scopes at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer outlives the regions. -/
theorem result_mem_uc : Proc.devRef .tc main_v237 ∈ Pipeline.ucRefs τ sig := mem_uc main_v237 (by decide)

end Cert.KerSide

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.Spec.lean ====
/-
  The network's dense stages as functions of whole arrays of extended reals, index by index.

  One message-passing layer's dense update takes the aggregated features `a` (one row per node) and computes, row by
  row, `relu(bn(relu(a·w1 + b1)·w2 + b2))`, where `bn(x) = (x - mean)·(gamma / sqrt(var + eps)) + beta` is
  evaluation-mode batch normalisation, column by column. The head takes the pooled graph features through three
  dense-plus-relu stages and one last dense stage. Each entry of a result depends on ONE row of the first operand, so
  cutting the rows into blocks and computing block by block gives the same array (`layer_rows`, `head_rows`).
-/
import proofs.«174249_j54640573940143_1_alg».proof.Proof.LibPlainDot

noncomputable section

open scoped BigOperators

namespace Cert.Spec

open Idealize.ShloMosaic Idealize.ShloMosaic.ValueIdx Idealize.ShloMosaic.PlainDot

/-- An M×N array of extended reals. -/
abbrev Mat (M N : Nat) := (⟨2, ![M, N]⟩ : Shape).Idx → EReal
/-- A length-N array of extended reals. -/
abbrev Vc (N : Nat) := (⟨1, ![N]⟩ : Shape).Idx → EReal

/-- The f32 zero, as the programs spell it. -/
def zero : EReal := Ideal.ofBits .f32 0x00000000#32
/-- The batch normalisation's epsilon, the f32 nearest 1e-5, as the programs spell it. -/
def eps : EReal := Ideal.ofBits .f32 0x3727C5AC#32

/-- A dense stage followed by relu: `max (a·w + b) 0`. -/
def dense {M K H : Nat} (a : Mat M K) (w : Mat K H) (b : Vc H) : Mat M H :=
  fun j => max (mm a w j + b (ix1 (j 1))) zero

/-- Batch normalisation's scale of column `c`: `gamma / sqrt(var + eps)`. -/
def bnScale {D : Nat} (g v : Vc D) (c : Fin D) : EReal := Ideal.div (g (ix1 c)) (Ideal.sqrt (v (ix1 c) + eps))

/-- One layer's dense update: `relu(bn(relu(a·w1 + b1)·w2 + b2))`. -/
def layer {M K H D : Nat} (a : Mat M K) (w1 : Mat K H) (b1 : Vc H) (w2 : Mat H D) (b2 g b m v : Vc D) : Mat M D :=
  fun j => max (((mm (dense a w1 b1) w2 j + b2 (ix1 (j 1))) - m (ix1 (j 1))) * bnScale g v (j 1) + b (ix1 (j 1))) zero

/-- Row `i` of a stack of `n` matrices. -/
def page {n K H : Nat} (i : Fin n) (w : (⟨3, ![n, K, H]⟩ : Shape).Idx → EReal) : Mat K H := fun j => w (ix3 i (j 0) (j 1))
/-- Row `i` of a stack of `n` vectors. -/
def row {n H : Nat} (i : Fin n) (b : Mat n H) : Vc H := fun j => b (ix2 i (j 0))

/-- The head: three dense-plus-relu stages with the stacked weights `lw`, `lb`, then `·fw + fb`. -/
def head {G H : Nat} (p : Mat G H) (lw : (⟨3, ![3, H, H]⟩ : Shape).Idx → EReal) (lb : Mat 3 H) (fw : Mat H 1) (fb : Vc 1) : Mat G 1 :=
  fun j => mm (dense (dense (dense p (page 0 lw) (row 0 lb)) (page 1 lw) (row 1 lb)) (page 2 lw) (row 2 lb)) fw j + fb (ix1 (j 1))

/-- An entry of a product depends on one row of the left operand. -/
theorem mm_rows {M M' K N : Nat} (a : Mat M K) (a' : Mat M' K) (w : Mat K N) (r : Fin M) (r' : Fin M') (c : Fin N)
    (h : ∀ k : Fin K, a' (ix2 r' k) = a (ix2 r k)) : mm a' w (ix2 r' c) = mm a w (ix2 r c) := by
  unfold mm
  exact Finset.sum_congr rfl fun k _ => by rw [show a' (ix2 ((ix2 r' c : (⟨2, ![M', N]⟩ : Shape).Idx) 0) k) = a (ix2 ((ix2 r c : (⟨2, ![M, N]⟩ : Shape).Idx) 0) k) from h k]; rfl

/-- An entry of a dense stage depends on one row of its input. -/
theorem dense_rows {M M' K H : Nat} (a : Mat M K) (a' : Mat M' K) (w : Mat K H) (b : Vc H) (r : Fin M) (r' : Fin M')
    (h : ∀ k : Fin K, a' (ix2 r' k) = a (ix2 r k)) (c : Fin H) : dense a' w b (ix2 r' c) = dense a w b (ix2 r c) := by
  unfold dense
  rw [mm_rows a a' w r r' c h]; rfl

/-- An entry of a layer's update depends on one row of the aggregated features: a block of rows gives that block of
    the result. -/
theorem layer_rows {M M' K H D : Nat} (a : Mat M K) (a' : Mat M' K) (w1 : Mat K H) (b1 : Vc H) (w2 : Mat H D) (b2 g b m v : Vc D)
    (r : Fin M) (r' : Fin M') (h : ∀ k : Fin K, a' (ix2 r' k) = a (ix2 r k)) (c : Fin D) :
    layer a' w1 b1 w2 b2 g b m v (ix2 r' c) = layer a w1 b1 w2 b2 g b m v (ix2 r c) := by
  unfold layer
  rw [mm_rows (dense a w1 b1) (dense a' w1 b1) w2 r r' c (dense_rows a a' w1 b1 r r' h)]; rfl

end Cert.Spec

end
-- ==== Proof.RefSide.lean ====
/-
  The reference program's dense stages are the specification's functions.

  Between two aggregations the reference program applies, to the aggregated features, one layer's dense update:
  a product with the first weight matrix plus its bias, a maximum with zero, a product with the second weight
  matrix plus its bias, and evaluation-mode batch normalisation (subtract the running mean, multiply by
  gamma / sqrt(variance + epsilon), add beta) followed by a maximum with zero. Every one of these array operations
  is pointwise in the output index (a bias, mean, scale or shift vector is broadcast along the rows), and a product
  is the textbook sum, so the composite is `Spec.layer` of the aggregated features and the layer's parameters, entry
  by entry. The head is three such product-bias-maximum stages on the pooled features, with page `i` of the stacked
  weights and row `i` of the stacked biases, and one last product plus bias: `Spec.head`.
-/
import proofs.«174249_j54640573940143_1_alg».proof.Proof.RefRead
import proofs.«174249_j54640573940143_1_alg».proof.Proof.Spec

noncomputable section

open scoped BigOperators

namespace Cert.RefSide

open Cert.ReferenceIdeal Cert.ReferenceIdeal.Gen Cert.ReferenceIdeal.Read
open Idealize.ShloMosaic Idealize.ShloMosaic.ValueIdx Idealize.ShloMosaic.PlainDot

/-! ## The composites over abstract arrays -/

/-- A product, plus an array `B` whose row `r` is the vector `b` whatever `r`, then the pointwise maximum with
    an array `Z` that is zero everywhere: the specification's dense stage. -/
theorem dense_of_parts {M K H : Nat}
    (a : FVec Ideal ⟨2, ![M, K]⟩ .f32) (w : FVec Ideal ⟨2, ![K, H]⟩ .f32) (b : FVec Ideal ⟨1, ![H]⟩ .f32)
    (B Z : FVec Ideal ⟨2, ![M, H]⟩ .f32) (hB : ∀ j, B j = b (ix1 (j 1))) (hZ : ∀ j, Z j = Spec.zero) :
    maximumf (addf (FloatOps.dotGeneral (DotDims.plain M K H) none .single a w) B) Z = Spec.dense a w b := by
  rw [dotGeneral_eq_mm none .single a w]
  funext j
  show max (mm a w j + B j) (Z j) = _
  rw [hB, hZ]; rfl

/-- One layer's dense update, assembled from whole-array operations: two products, the row broadcasts `B1`, `B2`,
    `Mm`, `Sc`, `Bb` of the two biases, the mean, the scale gamma / sqrt(variance + epsilon) and the shift, and two
    pointwise maxima against arrays that are zero everywhere. Each operation is pointwise in the output index, so
    the composite is `Spec.layer`, entry by entry. -/
theorem layer_of_parts {M K H D : Nat}
    (a : FVec Ideal ⟨2, ![M, K]⟩ .f32) (w1 : FVec Ideal ⟨2, ![K, H]⟩ .f32) (b1 : FVec Ideal ⟨1, ![H]⟩ .f32)
    (w2 : FVec Ideal ⟨2, ![H, D]⟩ .f32) (b2 g b m v : FVec Ideal ⟨1, ![D]⟩ .f32)
    (B1 Z1 : FVec Ideal ⟨2, ![M, H]⟩ .f32) (B2 Mm Sc Bb Z2 : FVec Ideal ⟨2, ![M, D]⟩ .f32)
    (hB1 : ∀ j, B1 j = b1 (ix1 (j 1))) (hZ1 : ∀ j, Z1 j = Spec.zero)
    (hB2 : ∀ j, B2 j = b2 (ix1 (j 1))) (hM : ∀ j, Mm j = m (ix1 (j 1)))
    (hSc : ∀ j, Sc j = Spec.bnScale g v (j 1)) (hB : ∀ j, Bb j = b (ix1 (j 1))) (hZ2 : ∀ j, Z2 j = Spec.zero) :
    maximumf (addf (mulf (subf (addf (FloatOps.dotGeneral (DotDims.plain M H D) none .single
        (maximumf (addf (FloatOps.dotGeneral (DotDims.plain M K H) none .single a w1) B1) Z1) w2) B2) Mm) Sc) Bb) Z2
      = Spec.layer a w1 b1 w2 b2 g b m v := by
  rw [dense_of_parts a w1 b1 B1 Z1 hB1 hZ1, dotGeneral_eq_mm none .single (Spec.dense a w1 b1) w2]
  funext j
  show max (((mm (Spec.dense a w1 b1) w2 j + B2 j) - Mm j) * Sc j + Bb j) (Z2 j) = _
  rw [hB2, hM, hSc, hB, hZ2]; rfl

/-- The head, assembled from whole-array operations: three dense stages whose weight matrices `W0`, `W1`, `W2` are
    the pages of the stacked weights and whose broadcast biases `B0`, `B1`, `B2` are the rows of the stacked biases,
    then a product with the last weights plus the row broadcast `Fb` of the last bias. -/
theorem head_of_parts {G H : Nat}
    (p : FVec Ideal ⟨2, ![G, H]⟩ .f32) (lw : FVec Ideal ⟨3, ![3, H, H]⟩ .f32) (lb : FVec Ideal ⟨2, ![3, H]⟩ .f32)
    (fw : FVec Ideal ⟨2, ![H, 1]⟩ .f32) (fb : FVec Ideal ⟨1, ![1]⟩ .f32)
    (W0 W1 W2 : FVec Ideal ⟨2, ![H, H]⟩ .f32) (B0 Z0 B1 Z1 B2 Z2 : FVec Ideal ⟨2, ![G, H]⟩ .f32)
    (Fb : FVec Ideal ⟨2, ![G, 1]⟩ .f32)
    (hW0 : W0 = Spec.page 0 lw) (hW1 : W1 = Spec.page 1 lw) (hW2 : W2 = Spec.page 2 lw)
    (hB0 : ∀ j, B0 j = Spec.row 0 lb (ix1 (j 1))) (hZ0 : ∀ j, Z0 j = Spec.zero)
    (hB1 : ∀ j, B1 j = Spec.row 1 lb (ix1 (j 1))) (hZ1 : ∀ j, Z1 j = Spec.zero)
    (hB2 : ∀ j, B2 j = Spec.row 2 lb (ix1 (j 1))) (hZ2 : ∀ j, Z2 j = Spec.zero)
    (hFb : ∀ j, Fb j = fb (ix1 (j 1))) :
    addf (FloatOps.dotGeneral (DotDims.plain G H 1) none .single
        (maximumf (addf (FloatOps.dotGeneral (DotDims.plain G H H) none .single
          (maximumf (addf (FloatOps.dotGeneral (DotDims.plain G H H) none .single
            (maximumf (addf (FloatOps.dotGeneral (DotDims.plain G H H) none .single p W0) B0) Z0) W1) B1) Z1) W2) B2) Z2)
        fw) Fb
      = Spec.head p lw lb fw fb := by
  subst hW0 hW1 hW2
  rw [dense_of_parts p (Spec.page 0 lw) (Spec.row 0 lb) B0 Z0 hB0 hZ0,
    dense_of_parts _ (Spec.page 1 lw) (Spec.row 1 lb) B1 Z1 hB1 hZ1,
    dense_of_parts _ (Spec.page 2 lw) (Spec.row 2 lb) B2 Z2 hB2 hZ2, dotGeneral_eq_mm]
  funext j
  show mm _ fw j + Fb j = _
  rw [hFb]; rfl

/-! ## The five layers

Each proof has the same seven small facts: a bias, mean or shift array is the row broadcast of its vector (two
broadcasts, read at an index), the scale array is the row broadcast of gamma / sqrt(variance + epsilon) (two
broadcasts and three pointwise operations, read at an index), and a maximum's second operand is zero everywhere. -/

/-- The first layer, on the aggregated input features: the weights are arguments of the program. -/
theorem layer0 (x0 : (⟨S50000x128, .f32⟩ : BufTy).Contents (Elt Ideal)) (x1 : (⟨S2x150000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) :
    val_main_v50 (F := Ideal) x0 x1 x3 x4 x5 x6 x7 x8 x9 x10 x11 x12 x13 x14
      = Spec.layer (val_main_v27 (F := Ideal) x0 x1 x3 x4 x5 x6)
          x7 x8 x9 x10
          x11 x12 x13 x14 := by
  unfold val_main_v50 val_main_v49 val_main_v46 val_main_v39 val_main_v36 val_main_v33 val_main_v32 val_main_v31 val_main_v28
  generalize val_main_v27 (F := Ideal) x0 x1 x3 x4 x5 x6 = a
  refine layer_of_parts a x7 x8 x9 x10
    x11 x12 x13 x14
    (val_main_v30 (F := Ideal) x8) (val_main_call0_v0 (F := Ideal)) (val_main_v35 (F := Ideal) x10) (val_main_v38 (F := Ideal) x13)
    (val_main_v45 (F := Ideal) x11 x14) (val_main_v48 (F := Ideal) x12) (val_main_call1_v0 (F := Ideal)) ?_ ?_ ?_ ?_ ?_ ?_ ?_ <;> intro j
  · rw [val_main_v30_apply, val_main_v29_apply]; exact congrArg _ (funext fun c => match c with | ⟨0, _⟩ => rfl)
  · rw [val_main_call0_v0_apply]; rfl
  · rw [val_main_v35_apply, val_main_v34_apply]; exact congrArg _ (funext fun c => match c with | ⟨0, _⟩ => rfl)
  · rw [val_main_v38_apply, val_main_v37_apply]; exact congrArg _ (funext fun c => match c with | ⟨0, _⟩ => rfl)
  · rw [val_main_v45_apply, val_main_v44_apply, val_main_v43_apply, val_main_v42_apply, val_main_v41_apply, val_main_v40_apply,
      (show idx_main_v44 (idx_main_v45 j) = ix1 (j 1) from funext fun c => match c with | ⟨0, _⟩ => rfl)]
    rfl
  · rw [val_main_v48_apply, val_main_v47_apply]; exact congrArg _ (funext fun c => match c with | ⟨0, _⟩ => rfl)
  · rw [val_main_call1_v0_apply]; rfl

/-- The second layer: its weights are page 0 of the stacked layer weights, kept as the reference's own slice stages. -/
theorem layer1 (x0 : (⟨S50000x128, .f32⟩ : BufTy).Contents (Elt Ideal)) (x1 : (⟨S2x150000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) (x15 x16 x17 x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 x23 x24 x25 x26 : (⟨S4x512, .f32⟩ : BufTy).Contents (Elt Ideal)) :
    val_main_v121 (F := Ideal) x0 x1 x3 x4 x5 x6 x7 x8 x9 x10 x11 x12 x13 x14 x15 x16 x17 x18 x19 x20 x21 x22 x23 x24 x25 x26
      = Spec.layer (val_main_v98 (F := Ideal) x0 x1 x3 x4 x5 x6 x7 x8 x9 x10 x11 x12 x13 x14 x15 x16 x17 x18)
          (val_main_v60 (F := Ideal) x19) (val_main_v62 (F := Ideal) x20) (val_main_v64 (F := Ideal) x21) (val_main_v66 (F := Ideal) x22)
          (val_main_v68 (F := Ideal) x23) (val_main_v70 (F := Ideal) x24) (val_main_v72 (F := Ideal) x25) (val_main_v74 (F := Ideal) x26) := by
  unfold val_main_v121 val_main_v120 val_main_v117 val_main_v110 val_main_v107 val_main_v104 val_main_v103 val_main_v102 val_main_v99
  generalize val_main_v98 (F := Ideal) x0 x1 x3 x4 x5 x6 x7 x8 x9 x10 x11 x12 x13 x14 x15 x16 x17 x18 = a
  refine layer_of_parts a (val_main_v60 (F := Ideal) x19) (val_main_v62 (F := Ideal) x20) (val_main_v64 (F := Ideal) x21) (val_main_v66 (F := Ideal) x22)
    (val_main_v68 (F := Ideal) x23) (val_main_v70 (F := Ideal) x24) (val_main_v72 (F := Ideal) x25) (val_main_v74 (F := Ideal) x26)
    (val_main_v101 (F := Ideal) x20) (val_main_call2_v0 (F := Ideal)) (val_main_v106 (F := Ideal) x22) (val_main_v109 (F := Ideal) x25)
    (val_main_v116 (F := Ideal) x23 x26) (val_main_v119 (F := Ideal) x24) (val_main_call3_v0 (F := Ideal)) ?_ ?_ ?_ ?_ ?_ ?_ ?_ <;> intro j
  · rw [val_main_v101_apply, val_main_v100_apply]; exact congrArg _ (funext fun c => match c with | ⟨0, _⟩ => rfl)
  · rw [val_main_call2_v0_apply]; rfl
  · rw [val_main_v106_apply, val_main_v105_apply]; exact congrArg _ (funext fun c => match c with | ⟨0, _⟩ => rfl)
  · rw [val_main_v109_apply, val_main_v108_apply]; exact congrArg _ (funext fun c => match c with | ⟨0, _⟩ => rfl)
  · rw [val_main_v116_apply, val_main_v115_apply, val_main_v114_apply, val_main_v113_apply, val_main_v112_apply, val_main_v111_apply,
      (show idx_main_v115 (idx_main_v116 j) = ix1 (j 1) from funext fun c => match c with | ⟨0, _⟩ => rfl)]
    rfl
  · rw [val_main_v119_apply, val_main_v118_apply]; exact congrArg _ (funext fun c => match c with | ⟨0, _⟩ => rfl)
  · rw [val_main_call3_v0_apply]; rfl

/-- The third layer, with page 1 of the stacked layer weights. -/
theorem layer2 (x0 : (⟨S50000x128, .f32⟩ : BufTy).Contents (Elt Ideal)) (x1 : (⟨S2x150000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) (x15 x16 x17 x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 x23 x24 x25 x26 : (⟨S4x512, .f32⟩ : BufTy).Contents (Elt Ideal)) :
    val_main_v192 (F := Ideal) x0 x1 x3 x4 x5 x6 x7 x8 x9 x10 x11 x12 x13 x14 x15 x16 x17 x18 x19 x20 x21 x22 x23 x24 x25 x26
      = Spec.layer (val_main_v169 (F := Ideal) x0 x1 x3 x4 x5 x6 x7 x8 x9 x10 x11 x12 x13 x14 x15 x16 x17 x18 x19 x20 x21 x22 x23 x24 x25 x26)
          (val_main_v131 (F := Ideal) x19) (val_main_v133 (F := Ideal) x20) (val_main_v135 (F := Ideal) x21) (val_main_v137 (F := Ideal) x22)
          (val_main_v139 (F := Ideal) x23) (val_main_v141 (F := Ideal) x24) (val_main_v143 (F := Ideal) x25) (val_main_v145 (F := Ideal) x26) := by
  unfold val_main_v192 val_main_v191 val_main_v188 val_main_v181 val_main_v178 val_main_v175 val_main_v174 val_main_v173 val_main_v170
  generalize val_main_v169 (F := Ideal) x0 x1 x3 x4 x5 x6 x7 x8 x9 x10 x11 x12 x13 x14 x15 x16 x17 x18 x19 x20 x21 x22 x23 x24 x25 x26 = a
  refine layer_of_parts a (val_main_v131 (F := Ideal) x19) (val_main_v133 (F := Ideal) x20) (val_main_v135 (F := Ideal) x21) (val_main_v137 (F := Ideal) x22)
    (val_main_v139 (F := Ideal) x23) (val_main_v141 (F := Ideal) x24) (val_main_v143 (F := Ideal) x25) (val_main_v145 (F := Ideal) x26)
    (val_main_v172 (F := Ideal) x20) (val_main_call4_v0 (F := Ideal)) (val_main_v177 (F := Ideal) x22) (val_main_v180 (F := Ideal) x25)
    (val_main_v187 (F := Ideal) x23 x26) (val_main_v190 (F := Ideal) x24) (val_main_call5_v0 (F := Ideal)) ?_ ?_ ?_ ?_ ?_ ?_ ?_ <;> intro j
  · rw [val_main_v172_apply, val_main_v171_apply]; exact congrArg _ (funext fun c => match c with | ⟨0, _⟩ => rfl)
  · rw [val_main_call4_v0_apply]; rfl
  · rw [val_main_v177_apply, val_main_v176_apply]; exact congrArg _ (funext fun c => match c with | ⟨0, _⟩ => rfl)
  · rw [val_main_v180_apply, val_main_v179_apply]; exact congrArg _ (funext fun c => match c with | ⟨0, _⟩ => rfl)
  · rw [val_main_v187_apply, val_main_v186_apply, val_main_v185_apply, val_main_v184_apply, val_main_v183_apply, val_main_v182_apply,
      (show idx_main_v186 (idx_main_v187 j) = ix1 (j 1) from funext fun c => match c with | ⟨0, _⟩ => rfl)]
    rfl
  · rw [val_main_v190_apply, val_main_v189_apply]; exact congrArg _ (funext fun c => match c with | ⟨0, _⟩ => rfl)
  · rw [val_main_call5_v0_apply]; rfl

/-- The fourth layer, with page 2 of the stacked layer weights. -/
theorem layer3 (x0 : (⟨S50000x128, .f32⟩ : BufTy).Contents (Elt Ideal)) (x1 : (⟨S2x150000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) (x15 x16 x17 x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 x23 x24 x25 x26 : (⟨S4x512, .f32⟩ : BufTy).Contents (Elt Ideal)) :
    val_main_v263 (F := Ideal) x0 x1 x3 x4 x5 x6 x7 x8 x9 x10 x11 x12 x13 x14 x15 x16 x17 x18 x19 x20 x21 x22 x23 x24 x25 x26
      = Spec.layer (val_main_v240 (F := Ideal) x0 x1 x3 x4 x5 x6 x7 x8 x9 x10 x11 x12 x13 x14 x15 x16 x17 x18 x19 x20 x21 x22 x23 x24 x25 x26)
          (val_main_v202 (F := Ideal) x19) (val_main_v204 (F := Ideal) x20) (val_main_v206 (F := Ideal) x21) (val_main_v208 (F := Ideal) x22)
          (val_main_v210 (F := Ideal) x23) (val_main_v212 (F := Ideal) x24) (val_main_v214 (F := Ideal) x25) (val_main_v216 (F := Ideal) x26) := by
  unfold val_main_v263 val_main_v262 val_main_v259 val_main_v252 val_main_v249 val_main_v246 val_main_v245 val_main_v244 val_main_v241
  generalize val_main_v240 (F := Ideal) x0 x1 x3 x4 x5 x6 x7 x8 x9 x10 x11 x12 x13 x14 x15 x16 x17 x18 x19 x20 x21 x22 x23 x24 x25 x26 = a
  refine layer_of_parts a (val_main_v202 (F := Ideal) x19) (val_main_v204 (F := Ideal) x20) (val_main_v206 (F := Ideal) x21) (val_main_v208 (F := Ideal) x22)
    (val_main_v210 (F := Ideal) x23) (val_main_v212 (F := Ideal) x24) (val_main_v214 (F := Ideal) x25) (val_main_v216 (F := Ideal) x26)
    (val_main_v243 (F := Ideal) x20) (val_main_call6_v0 (F := Ideal)) (val_main_v248 (F := Ideal) x22) (val_main_v251 (F := Ideal) x25)
    (val_main_v258 (F := Ideal) x23 x26) (val_main_v261 (F := Ideal) x24) (val_main_call7_v0 (F := Ideal)) ?_ ?_ ?_ ?_ ?_ ?_ ?_ <;> intro j
  · rw [val_main_v243_apply, val_main_v242_apply]; exact congrArg _ (funext fun c => match c with | ⟨0, _⟩ => rfl)
  · rw [val_main_call6_v0_apply]; rfl
  · rw [val_main_v248_apply, val_main_v247_apply]; exact congrArg _ (funext fun c => match c with | ⟨0, _⟩ => rfl)
  · rw [val_main_v251_apply, val_main_v250_apply]; exact congrArg _ (funext fun c => match c with | ⟨0, _⟩ => rfl)
  · rw [val_main_v258_apply, val_main_v257_apply, val_main_v256_apply, val_main_v255_apply, val_main_v254_apply, val_main_v253_apply,
      (show idx_main_v257 (idx_main_v258 j) = ix1 (j 1) from funext fun c => match c with | ⟨0, _⟩ => rfl)]
    rfl
  · rw [val_main_v261_apply, val_main_v260_apply]; exact congrArg _ (funext fun c => match c with | ⟨0, _⟩ => rfl)
  · rw [val_main_call7_v0_apply]; rfl

/-- The fifth layer, with page 3 of the stacked layer weights. -/
theorem layer4 (x0 : (⟨S50000x128, .f32⟩ : BufTy).Contents (Elt Ideal)) (x1 : (⟨S2x150000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) (x15 x16 x17 x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 x23 x24 x25 x26 : (⟨S4x512, .f32⟩ : BufTy).Contents (Elt Ideal)) :
    val_main_v334 (F := Ideal) x0 x1 x3 x4 x5 x6 x7 x8 x9 x10 x11 x12 x13 x14 x15 x16 x17 x18 x19 x20 x21 x22 x23 x24 x25 x26
      = Spec.layer (val_main_v311 (F := Ideal) x0 x1 x3 x4 x5 x6 x7 x8 x9 x10 x11 x12 x13 x14 x15 x16 x17 x18 x19 x20 x21 x22 x23 x24 x25 x26)
          (val_main_v273 (F := Ideal) x19) (val_main_v275 (F := Ideal) x20) (val_main_v277 (F := Ideal) x21) (val_main_v279 (F := Ideal) x22)
          (val_main_v281 (F := Ideal) x23) (val_main_v283 (F := Ideal) x24) (val_main_v285 (F := Ideal) x25) (val_main_v287 (F := Ideal) x26) := by
  unfold val_main_v334 val_main_v333 val_main_v330 val_main_v323 val_main_v320 val_main_v317 val_main_v316 val_main_v315 val_main_v312
  generalize val_main_v311 (F := Ideal) x0 x1 x3 x4 x5 x6 x7 x8 x9 x10 x11 x12 x13 x14 x15 x16 x17 x18 x19 x20 x21 x22 x23 x24 x25 x26 = a
  refine layer_of_parts a (val_main_v273 (F := Ideal) x19) (val_main_v275 (F := Ideal) x20) (val_main_v277 (F := Ideal) x21) (val_main_v279 (F := Ideal) x22)
    (val_main_v281 (F := Ideal) x23) (val_main_v283 (F := Ideal) x24) (val_main_v285 (F := Ideal) x25) (val_main_v287 (F := Ideal) x26)
    (val_main_v314 (F := Ideal) x20) (val_main_call8_v0 (F := Ideal)) (val_main_v319 (F := Ideal) x22) (val_main_v322 (F := Ideal) x25)
    (val_main_v329 (F := Ideal) x23 x26) (val_main_v332 (F := Ideal) x24) (val_main_call9_v0 (F := Ideal)) ?_ ?_ ?_ ?_ ?_ ?_ ?_ <;> intro j
  · rw [val_main_v314_apply, val_main_v313_apply]; exact congrArg _ (funext fun c => match c with | ⟨0, _⟩ => rfl)
  · rw [val_main_call8_v0_apply]; rfl
  · rw [val_main_v319_apply, val_main_v318_apply]; exact congrArg _ (funext fun c => match c with | ⟨0, _⟩ => rfl)
  · rw [val_main_v322_apply, val_main_v321_apply]; exact congrArg _ (funext fun c => match c with | ⟨0, _⟩ => rfl)
  · rw [val_main_v329_apply, val_main_v328_apply, val_main_v327_apply, val_main_v326_apply, val_main_v325_apply, val_main_v324_apply,
      (show idx_main_v328 (idx_main_v329 j) = ix1 (j 1) from funext fun c => match c with | ⟨0, _⟩ => rfl)]
    rfl
  · rw [val_main_v332_apply, val_main_v331_apply]; exact congrArg _ (funext fun c => match c with | ⟨0, _⟩ => rfl)
  · rw [val_main_call9_v0_apply]; rfl

/-! ## The head -/

/-- Page `k` of the stacked head weights, as the reference reads it: a slice of one page and a reshape that drops
    the unit axis. The reshape's row-major index arithmetic returns the two coordinates it was given. -/
theorem page0 (x27 : (⟨S3x512x512, .f32⟩ : BufTy).Contents (Elt Ideal)) :
    val_main_v348 (F := Ideal) x27 = Spec.page 0 x27 := by
  funext i
  rw [val_main_v348_apply, val_main_v347_apply]
  show x27 _ = x27 (ix3 (0 : Fin 3) (i 0) (i 1))
  have h0 : (i 0).val < 512 := (i 0).isLt
  have h1 : (i 1).val < 512 := (i 1).isLt
  exact congrArg x27 (funext fun c => Fin.ext (by
    match c with
    | ⟨0, _⟩ => rfl
    | ⟨1, _⟩ => show ((i 0).val * 512 + (i 1).val) / 512 % 512 = (i 0).val; omega
    | ⟨2, _⟩ => show ((i 0).val * 512 + (i 1).val) % 512 = (i 1).val; omega))

theorem page1 (x27 : (⟨S3x512x512, .f32⟩ : BufTy).Contents (Elt Ideal)) :
    val_main_v357 (F := Ideal) x27 = Spec.page 1 x27 := by
  funext i
  rw [val_main_v357_apply, val_main_v356_apply]
  show x27 _ = x27 (ix3 (1 : Fin 3) (i 0) (i 1))
  have h0 : (i 0).val < 512 := (i 0).isLt
  have h1 : (i 1).val < 512 := (i 1).isLt
  exact congrArg x27 (funext fun c => Fin.ext (by
    match c with
    | ⟨0, _⟩ => rfl
    | ⟨1, _⟩ => show ((i 0).val * 512 + (i 1).val) / 512 % 512 = (i 0).val; omega
    | ⟨2, _⟩ => show ((i 0).val * 512 + (i 1).val) % 512 = (i 1).val; omega))

theorem page2 (x27 : (⟨S3x512x512, .f32⟩ : BufTy).Contents (Elt Ideal)) :
    val_main_v366 (F := Ideal) x27 = Spec.page 2 x27 := by
  funext i
  rw [val_main_v366_apply, val_main_v365_apply]
  show x27 _ = x27 (ix3 (2 : Fin 3) (i 0) (i 1))
  have h0 : (i 0).val < 512 := (i 0).isLt
  have h1 : (i 1).val < 512 := (i 1).isLt
  exact congrArg x27 (funext fun c => Fin.ext (by
    match c with
    | ⟨0, _⟩ => rfl
    | ⟨1, _⟩ => show ((i 0).val * 512 + (i 1).val) / 512 % 512 = (i 0).val; omega
    | ⟨2, _⟩ => show ((i 0).val * 512 + (i 1).val) % 512 = (i 1).val; omega))

/-- Row `k` of the stacked head biases, broadcast along the rows of the pooled features: a slice of one row, a
    reshape that drops the unit axis, and two broadcasts. -/
theorem row0 (x28 : (⟨S3x512, .f32⟩ : BufTy).Contents (Elt Ideal)) (j : S2048x512.Idx) :
    val_main_v353 (F := Ideal) x28 j = Spec.row 0 x28 (ix1 (j 1)) := by
  rw [val_main_v353_apply, val_main_v352_apply, val_main_v351_apply, val_main_v350_apply]
  show x28 _ = x28 (ix2 (0 : Fin 3) (j 1))
  have h1 : (j 1).val < 512 := (j 1).isLt
  exact congrArg x28 (funext fun c => Fin.ext (by
    match c with
    | ⟨0, _⟩ => rfl
    | ⟨1, _⟩ => show (j 1).val % 512 = (j 1).val; omega))

theorem row1 (x28 : (⟨S3x512, .f32⟩ : BufTy).Contents (Elt Ideal)) (j : S2048x512.Idx) :
    val_main_v362 (F := Ideal) x28 j = Spec.row 1 x28 (ix1 (j 1)) := by
  rw [val_main_v362_apply, val_main_v361_apply, val_main_v360_apply, val_main_v359_apply]
  show x28 _ = x28 (ix2 (1 : Fin 3) (j 1))
  have h1 : (j 1).val < 512 := (j 1).isLt
  exact congrArg x28 (funext fun c => Fin.ext (by
    match c with
    | ⟨0, _⟩ => rfl
    | ⟨1, _⟩ => show (j 1).val % 512 = (j 1).val; omega))

theorem row2 (x28 : (⟨S3x512, .f32⟩ : BufTy).Contents (Elt Ideal)) (j : S2048x512.Idx) :
    val_main_v371 (F := Ideal) x28 j = Spec.row 2 x28 (ix1 (j 1)) := by
  rw [val_main_v371_apply, val_main_v370_apply, val_main_v369_apply, val_main_v368_apply]
  show x28 _ = x28 (ix2 (2 : Fin 3) (j 1))
  have h1 : (j 1).val < 512 := (j 1).isLt
  exact congrArg x28 (funext fun c => Fin.ext (by
    match c with
    | ⟨0, _⟩ => rfl
    | ⟨1, _⟩ => show (j 1).val % 512 = (j 1).val; omega))

/-- The last bias, a vector of length one, broadcast to a column. -/
theorem lastBias (x30 : (⟨S1, .f32⟩ : BufTy).Contents (Elt Ideal)) (j : S2048x1.Idx) :
    val_main_v376 (F := Ideal) x30 j = x30 (ix1 (j 1)) := by
  rw [val_main_v376_apply, val_main_v375_apply]
  have h1 : (j 1).val < 1 := (j 1).isLt
  exact congrArg x30 (funext fun c => Fin.ext (by
    match c with
    | ⟨0, _⟩ => show 0 = (j 1).val; omega))

/-- The reference's head on the pooled features is the specification's head. -/
theorem head (x0 : (⟨S50000x128, .f32⟩ : BufTy).Contents (Elt Ideal)) (x1 : (⟨S2x150000, .i32⟩ : BufTy).Contents (Elt Ideal)) (x2 : (⟨S50000, .i32⟩ : BufTy).Contents (Elt Ideal)) (x3 x4 x5 x6 : (⟨S128, .f32⟩ : BufTy).Contents (Elt Ideal)) (x7 : (⟨S128x320, .f32⟩ : BufTy).Contents (Elt Ideal)) (x8 : (⟨S320, .f32⟩ : BufTy).Contents (Elt Ideal)) (x9 : (⟨S320x512, .f32⟩ : BufTy).Contents (Elt Ideal)) (x10 x11 x12 x13 x14 : (⟨S512, .f32⟩ : BufTy).Contents (Elt Ideal)) (x15 x16 x17 x18 : (⟨S4x512, .f32⟩ : BufTy).Contents (Elt Ideal)) (x19 : (⟨S4x512x512, .f32⟩ : BufTy).Contents (Elt Ideal)) (x20 : (⟨S4x512, .f32⟩ : BufTy).Contents (Elt Ideal)) (x21 : (⟨S4x512x512, .f32⟩ : BufTy).Contents (Elt Ideal)) (x22 x23 x24 x25 x26 : (⟨S4x512, .f32⟩ : BufTy).Contents (Elt Ideal)) (x27 : (⟨S3x512x512, .f32⟩ : BufTy).Contents (Elt Ideal)) (x28 : (⟨S3x512, .f32⟩ : BufTy).Contents (Elt Ideal)) (x29 : (⟨S512x1, .f32⟩ : BufTy).Contents (Elt Ideal)) (x30 : (⟨S1, .f32⟩ : BufTy).Contents (Elt Ideal)) :
    val_main_v377 (F := Ideal) x0 x1 x2 x3 x4 x5 x6 x7 x8 x9 x10 x11 x12 x13 x14 x15 x16 x17 x18 x19 x20 x21 x22 x23 x24 x25 x26 x27 x28 x29 x30
      = Spec.head (val_main_v346 (F := Ideal) x0 x1 x2 x3 x4 x5 x6 x7 x8 x9 x10 x11 x12 x13 x14 x15 x16 x17 x18 x19 x20 x21 x22 x23 x24 x25 x26) x27 x28 x29 x30 := by
  unfold val_main_v377 val_main_v374 val_main_v373 val_main_v372 val_main_v367 val_main_v364 val_main_v363 val_main_v358
    val_main_v355 val_main_v354 val_main_v349
  generalize val_main_v346 (F := Ideal) x0 x1 x2 x3 x4 x5 x6 x7 x8 x9 x10 x11 x12 x13 x14 x15 x16 x17 x18 x19 x20 x21 x22 x23 x24 x25 x26 = p
  exact head_of_parts p x27 x28 x29 x30
    (val_main_v348 (F := Ideal) x27) (val_main_v357 (F := Ideal) x27) (val_main_v366 (F := Ideal) x27)
    (val_main_v353 (F := Ideal) x28) (val_main_call10_v0 (F := Ideal))
    (val_main_v362 (F := Ideal) x28) (val_main_call11_v0 (F := Ideal))
    (val_main_v371 (F := Ideal) x28) (val_main_call12_v0 (F := Ideal))
    (val_main_v376 (F := Ideal) x30)
    (page0 x27) (page1 x27) (page2 x27)
    (row0 x28) (fun j => by rw [val_main_call10_v0_apply]; rfl)
    (row1 x28) (fun j => by rw [val_main_call11_v0_apply]; rfl)
    (row2 x28) (fun j => by rw [val_main_call12_v0_apply]; rfl)
    (lastBias x30)

end Cert.RefSide

end
-- ==== Proof.KBodyLib.lean ====
/-
  Reading the kernels' vector operations on the extended reals.

  On the extended reals rounding to a narrower format is the identity, so a body's arithmetic is read index by
  index: a bias vector laid out as one row and repeated down the rows is the vector at the column; a product into
  the zero accumulator plus such a row, clamped below at zero, is one dense stage of the network.
-/
import proofs.«174249_j54640573940143_1_alg».proof.Proof.Spec
import Idealize.ShloMosaic.Lib.ValueLayout
import Idealize.ShloMosaic.Lib.Pipeline.Value

noncomputable section

open scoped BigOperators

namespace Cert.KerSide.Body

open Idealize.ShloMosaic Idealize.ShloMosaic.ValueIdx Idealize.ShloMosaic.PlainDot

/-- The zero offsets of a whole rank-1 block. -/
theorem zero1 : (![0] : Fin 1 → Nat) = fun _ => 0 := funext fun a => by fin_cases a <;> rfl
/-- The zero offsets of a whole rank-2 block. -/
theorem zero2 : (![0, 0] : Fin 2 → Nat) = fun _ => 0 := funext fun a => by fin_cases a <;> rfl

/-- Rounding to a narrower format is the identity on the extended reals. -/
theorem truncf_eq {s : Shape} {φ ψ : FTy} (a : FVec Ideal s φ) (h : ψ.bits < φ.bits) :
    (truncf ψ a h : FVec Ideal s ψ) = a := rfl

/-- A square root of a vector, read at an index. -/
theorem sqrt_apply {s : Shape} {φ : FTy} (a : FVec Ideal s φ) (i : s.Idx) : sqrt a i = Ideal.sqrt (a i) := rfl

/-- A length-b vector laid out as one row and repeated down a rows reads, at (p, q), the vector at q. -/
theorem row_bcast {a b : Nat} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- A product plus a bias row, clamped below at zero, is the dense stage. -/
theorem dense_eq {M K H : Nat} (A : FVec Ideal ⟨2, ![M, K]⟩ .f32) (W : FVec Ideal ⟨2, ![K, H]⟩ .f32)
    (b : FVec Ideal ⟨1, ![H]⟩ .f32) (h1 : (⟨1, ![H]⟩ : Shape).ShapeCasts ⟨2, ![1, H]⟩)
    (h2 : (⟨2, ![1, H]⟩ : Shape).Broadcasts ⟨2, ![M, H]⟩) :
    maximumf (addf (mm A W) (broadcastTo ⟨2, ![M, H]⟩ (shapeCast ⟨2, ![1, H]⟩ b h1) h2))
      (broadcast ⟨2, ![M, H]⟩ (FloatOps.ofBits (F := Ideal) .f32 0x00000000#32)) = Spec.dense A W b := by
  funext j
  obtain ⟨p, q, rfl⟩ : ∃ (p : Fin M) (q : Fin H), j = ix2 p q := ⟨j 0, j 1, eq_ix2 j⟩
  rw [maximumf_apply, addf_apply, row_bcast, broadcast_apply]
  rfl

end Cert.KerSide.Body

end
-- ==== Proof.KBody0.lean ====
/-
  Region 0: the first layer's dense update on a block of 1000 rows (128 → 320 → 512 features).

  The body loads its whole blocks, computes relu(a·w1 + b1)·w2 + b2, subtracts the mean, multiplies by
  gamma / sqrt(var + eps), adds beta, clamps below at zero, and stores the whole block. Read index by index on the
  extended reals this is the layer's update of the specification, entry by entry.
-/
import proofs.«174249_j54640573940143_1_alg».proof.Proof.Gen.KernelIdeal.Frame
import proofs.«174249_j54640573940143_1_alg».proof.Proof.KBodyLib

noncomputable section

open scoped BigOperators

namespace Cert.KerSide.Body

open Idealize.ShloMosaic Idealize.ShloMosaic.ValueIdx Idealize.ShloMosaic.PlainDot Cert.KernelIdeal Cert.KernelIdeal.Gen

/-- The 1000×128 by 128×320 product into the zero accumulator is the textbook product. -/
theorem mm128 (A : FVec Ideal S1000x128 .bf16) (B : FVec Ideal S128x320 .bf16) :
    matmul dot_S1000x128_S128x320_S1000x320_1_0_0_1_n_n none A B (constant S1000x320 .f32 0x00000000#32) = mm A B :=
  matmul_zero_eq_mm (M := 1000) (K := 128) (N := 320) none A B

/-- The 1000×320 by 320×512 product into the zero accumulator is the textbook product. -/
theorem mm320 (A : FVec Ideal S1000x320 .bf16) (B : FVec Ideal S320x512 .bf16) :
    matmul dot_S1000x320_S320x512_S1000x512_1_0_0_1_n_n none A B (constant S1000x512 .f32 0x00000000#32) = mm A B :=
  matmul_zero_eq_mm (M := 1000) (K := 320) (N := 512) none A B

/-- The block's update at (p, q) is the layer's. -/
theorem pay0_apply (v0 : Vec Ideal S1000x128 .f32) (v3 : Vec Ideal S128x320 .f32) (v6 : Vec Ideal S320 .f32)
    (v12 : Vec Ideal S320x512 .f32) (v16 v20 v21 v22 v23 : Vec Ideal S512 .f32) (p : Fin 1000) (q : Fin 512) :
    k0_pay1 (F := Ideal) v0 v3 v6 v12 v16 v20 v21 v22 v23 (ix2 p q)
      = Spec.layer v0 v3 v6 v12 v16 v20 v21 v22 v23 (ix2 p q) := by
  unfold k0_pay1
  simp only [shapeCast_self, mm128, mm320, truncf_eq, dense_eq]
  rw [maximumf_apply, addf_apply, mulf_apply, subf_apply, addf_apply, row_bcast, row_bcast, row_bcast, row_bcast,
    divf_apply, sqrt_apply, addf_apply, broadcast_apply, broadcast_apply]
  rfl

/-- What region 0's body leaves in its output block is the layer's dense update of its input block. -/
theorem _root_.Cert.KerSide.body0 (x0 : Vec Ideal S1000x128 .f32) (x1 : Vec Ideal S128x320 .f32) (x2 : Vec Ideal S320 .f32)
    (x3 : Vec Ideal S320x512 .f32) (x4 x5 x6 x7 x8 : Vec Ideal S512 .f32) :
    Cert.KernelIdeal.Gen.out0_9 (F := Ideal) x0 x1 x2 x3 x4 x5 x6 x7 x8 = Spec.layer x0 x1 x2 x3 x4 x5 x6 x7 x8 := by
  funext j
  obtain ⟨p, q, rfl⟩ : ∃ (p : Fin 1000) (q : Fin 512), j = ix2 p q := ⟨j 0, j 1, eq_ix2 j⟩
  unfold out0_9
  rw [View.canon_unit_zero zero2]
  simp only [View.ld_unit_zero (S := S1000x128) zero2, View.ld_unit_zero (S := S128x320) zero2,
    View.ld_unit_zero (S := S320) zero1, View.ld_unit_zero (S := S320x512) zero2, View.ld_unit_zero (S := S512) zero1]
  exact pay0_apply x0 x1 x2 x3 x4 x5 x6 x7 x8 p q

end Cert.KerSide.Body

end
-- ==== Proof.KBody14.lean ====
/-
  Regions 1 to 4: one message-passing layer's dense update on a block of 1000 rows.

  Each body loads its whole blocks, computes relu(a·w1 + b1)·w2 + b2, subtracts the mean, multiplies by
  gamma / sqrt(var + eps), adds beta, clamps below at zero, and stores the whole block. Read index by index on the
  extended reals this is the layer's update of the specification, entry by entry.
-/
import proofs.«174249_j54640573940143_1_alg».proof.Proof.Gen.KernelIdeal.Frame
import proofs.«174249_j54640573940143_1_alg».proof.Proof.KBodyLib

noncomputable section

open scoped BigOperators

namespace Cert.KerSide.Body

open Idealize.ShloMosaic Idealize.ShloMosaic.ValueIdx Idealize.ShloMosaic.PlainDot Cert.KernelIdeal Cert.KernelIdeal.Gen

/-- The 1000×512 by 512×512 product into the zero accumulator is the textbook product. -/
theorem mm512 (A : FVec Ideal S1000x512 .bf16) (B : FVec Ideal S512x512 .bf16) :
    matmul dot_S1000x512_S512x512_S1000x512_1_0_0_1_n_n none A B (constant S1000x512 .f32 0x00000000#32) = mm A B :=
  matmul_zero_eq_mm (M := 1000) (K := 512) (N := 512) none A B

/-! ## Region 1 -/

/-- The block's update before the last bias and clamp, at (p, q): the two dense products, the second one's bias,
    the mean subtracted, times the normalisation's scale of column q. -/
theorem pay1_apply (v0 : Vec Ideal S1000x512 .f32) (v3 : Vec Ideal S512x512 .f32) (v7 : Vec Ideal S512 .f32)
    (v14 : Vec Ideal S512x512 .f32) (v19 v24 v28 v30 : Vec Ideal S512 .f32) (p : Fin 1000) (q : Fin 512) :
    k1_pay2 (F := Ideal) v0 v3 v7 v14 v19 v24 v28 v30 (ix2 p q)
      = ((mm (Spec.dense v0 v3 v7) v14 (ix2 p q) + v19 (ix1 q)) - v28 (ix1 q)) * Spec.bnScale v24 v30 q := by
  unfold k1_pay2
  simp only [shapeCast_self, mm512, truncf_eq, dense_eq]
  rw [mulf_apply, subf_apply, addf_apply, row_bcast, row_bcast, row_bcast, divf_apply, sqrt_apply, addf_apply,
    broadcast_apply]
  rfl

/-- What region 1's body leaves in its output block is the layer's dense update of its input block. -/
theorem _root_.Cert.KerSide.body1 (x0 : Vec Ideal S1000x512 .f32) (x1 : Vec Ideal S512x512 .f32) (x2 : Vec Ideal S512 .f32)
    (x3 : Vec Ideal S512x512 .f32) (x4 x5 x6 x7 x8 : Vec Ideal S512 .f32) :
    Cert.KernelIdeal.Gen.out1_9 (F := Ideal) x0 x1 x2 x3 x4 x5 x6 x7 x8 = Spec.layer x0 x1 x2 x3 x4 x5 x6 x7 x8 := by
  funext j
  obtain ⟨p, q, rfl⟩ : ∃ (p : Fin 1000) (q : Fin 512), j = ix2 p q := ⟨j 0, j 1, eq_ix2 j⟩
  unfold out1_9
  rw [View.canon_unit_zero zero2]
  simp only [View.ld_unit_zero (S := S1000x512) zero2, View.ld_unit_zero (S := S512x512) zero2,
    View.ld_unit_zero (S := S512) zero1]
  unfold k1_pay1 k1_pay3
  simp only [shapeCast_self]
  rw [maximumf_apply, addf_apply, row_bcast, pay1_apply, broadcast_apply]
  rfl

/-! ## Region 2 -/

/-- The block's update before the last bias and clamp, at (p, q): the two dense products, the second one's bias,
    the mean subtracted, times the normalisation's scale of column q. -/
theorem pay2_apply (v0 : Vec Ideal S1000x512 .f32) (v3 : Vec Ideal S512x512 .f32) (v7 : Vec Ideal S512 .f32)
    (v14 : Vec Ideal S512x512 .f32) (v19 v24 v28 v30 : Vec Ideal S512 .f32) (p : Fin 1000) (q : Fin 512) :
    k2_pay2 (F := Ideal) v0 v3 v7 v14 v19 v24 v28 v30 (ix2 p q)
      = ((mm (Spec.dense v0 v3 v7) v14 (ix2 p q) + v19 (ix1 q)) - v28 (ix1 q)) * Spec.bnScale v24 v30 q := by
  unfold k2_pay2
  simp only [shapeCast_self, mm512, truncf_eq, dense_eq]
  rw [mulf_apply, subf_apply, addf_apply, row_bcast, row_bcast, row_bcast, divf_apply, sqrt_apply, addf_apply,
    broadcast_apply]
  rfl

/-- What region 2's body leaves in its output block is the layer's dense update of its input block. -/
theorem _root_.Cert.KerSide.body2 (x0 : Vec Ideal S1000x512 .f32) (x1 : Vec Ideal S512x512 .f32) (x2 : Vec Ideal S512 .f32)
    (x3 : Vec Ideal S512x512 .f32) (x4 x5 x6 x7 x8 : Vec Ideal S512 .f32) :
    Cert.KernelIdeal.Gen.out2_9 (F := Ideal) x0 x1 x2 x3 x4 x5 x6 x7 x8 = Spec.layer x0 x1 x2 x3 x4 x5 x6 x7 x8 := by
  funext j
  obtain ⟨p, q, rfl⟩ : ∃ (p : Fin 1000) (q : Fin 512), j = ix2 p q := ⟨j 0, j 1, eq_ix2 j⟩
  unfold out2_9
  rw [View.canon_unit_zero zero2]
  simp only [View.ld_unit_zero (S := S1000x512) zero2, View.ld_unit_zero (S := S512x512) zero2,
    View.ld_unit_zero (S := S512) zero1]
  unfold k2_pay1 k2_pay3
  simp only [shapeCast_self]
  rw [maximumf_apply, addf_apply, row_bcast, pay2_apply, broadcast_apply]
  rfl

/-! ## Region 3 -/

/-- The block's update before the last bias and clamp, at (p, q): the two dense products, the second one's bias,
    the mean subtracted, times the normalisation's scale of column q. -/
theorem pay3_apply (v0 : Vec Ideal S1000x512 .f32) (v3 : Vec Ideal S512x512 .f32) (v7 : Vec Ideal S512 .f32)
    (v14 : Vec Ideal S512x512 .f32) (v19 v24 v28 v30 : Vec Ideal S512 .f32) (p : Fin 1000) (q : Fin 512) :
    k3_pay2 (F := Ideal) v0 v3 v7 v14 v19 v24 v28 v30 (ix2 p q)
      = ((mm (Spec.dense v0 v3 v7) v14 (ix2 p q) + v19 (ix1 q)) - v28 (ix1 q)) * Spec.bnScale v24 v30 q := by
  unfold k3_pay2
  simp only [shapeCast_self, mm512, truncf_eq, dense_eq]
  rw [mulf_apply, subf_apply, addf_apply, row_bcast, row_bcast, row_bcast, divf_apply, sqrt_apply, addf_apply,
    broadcast_apply]
  rfl

/-- What region 3's body leaves in its output block is the layer's dense update of its input block. -/
theorem _root_.Cert.KerSide.body3 (x0 : Vec Ideal S1000x512 .f32) (x1 : Vec Ideal S512x512 .f32) (x2 : Vec Ideal S512 .f32)
    (x3 : Vec Ideal S512x512 .f32) (x4 x5 x6 x7 x8 : Vec Ideal S512 .f32) :
    Cert.KernelIdeal.Gen.out3_9 (F := Ideal) x0 x1 x2 x3 x4 x5 x6 x7 x8 = Spec.layer x0 x1 x2 x3 x4 x5 x6 x7 x8 := by
  funext j
  obtain ⟨p, q, rfl⟩ : ∃ (p : Fin 1000) (q : Fin 512), j = ix2 p q := ⟨j 0, j 1, eq_ix2 j⟩
  unfold out3_9
  rw [View.canon_unit_zero zero2]
  simp only [View.ld_unit_zero (S := S1000x512) zero2, View.ld_unit_zero (S := S512x512) zero2,
    View.ld_unit_zero (S := S512) zero1]
  unfold k3_pay1 k3_pay3
  simp only [shapeCast_self]
  rw [maximumf_apply, addf_apply, row_bcast, pay3_apply, broadcast_apply]
  rfl

/-! ## Region 4 -/

/-- The block's update before the last bias and clamp, at (p, q): the two dense products, the second one's bias,
    the mean subtracted, times the normalisation's scale of column q. -/
theorem pay4_apply (v0 : Vec Ideal S1000x512 .f32) (v3 : Vec Ideal S512x512 .f32) (v7 : Vec Ideal S512 .f32)
    (v14 : Vec Ideal S512x512 .f32) (v19 v24 v28 v30 : Vec Ideal S512 .f32) (p : Fin 1000) (q : Fin 512) :
    k4_pay2 (F := Ideal) v0 v3 v7 v14 v19 v24 v28 v30 (ix2 p q)
      = ((mm (Spec.dense v0 v3 v7) v14 (ix2 p q) + v19 (ix1 q)) - v28 (ix1 q)) * Spec.bnScale v24 v30 q := by
  unfold k4_pay2
  simp only [shapeCast_self, mm512, truncf_eq, dense_eq]
  rw [mulf_apply, subf_apply, addf_apply, row_bcast, row_bcast, row_bcast, divf_apply, sqrt_apply, addf_apply,
    broadcast_apply]
  rfl

/-- What region 4's body leaves in its output block is the layer's dense update of its input block. -/
theorem _root_.Cert.KerSide.body4 (x0 : Vec Ideal S1000x512 .f32) (x1 : Vec Ideal S512x512 .f32) (x2 : Vec Ideal S512 .f32)
    (x3 : Vec Ideal S512x512 .f32) (x4 x5 x6 x7 x8 : Vec Ideal S512 .f32) :
    Cert.KernelIdeal.Gen.out4_9 (F := Ideal) x0 x1 x2 x3 x4 x5 x6 x7 x8 = Spec.layer x0 x1 x2 x3 x4 x5 x6 x7 x8 := by
  funext j
  obtain ⟨p, q, rfl⟩ : ∃ (p : Fin 1000) (q : Fin 512), j = ix2 p q := ⟨j 0, j 1, eq_ix2 j⟩
  unfold out4_9
  rw [View.canon_unit_zero zero2]
  simp only [View.ld_unit_zero (S := S1000x512) zero2, View.ld_unit_zero (S := S512x512) zero2,
    View.ld_unit_zero (S := S512) zero1]
  unfold k4_pay1 k4_pay3
  simp only [shapeCast_self]
  rw [maximumf_apply, addf_apply, row_bcast, pay4_apply, broadcast_apply]
  rfl

end Cert.KerSide.Body

end
-- ==== Proof.KBody5.lean ====
/-
  Region 5: the head on the pooled graph features (one block of 2048 rows).

  The body loads the pooled features, and for i = 0, 1, 2 page i of the stacked weights and row i of the stacked
  biases (unit-stride blocks at offsets [i, 0, 0] and [i, 0], cast to a matrix and a vector), computes three
  dense-plus-relu stages and the last product with the [512, 1] weights plus the one bias, and stores the whole
  block. Read index by index on the extended reals this is the head of the specification, entry by entry.
-/
import proofs.«174249_j54640573940143_1_alg».proof.Proof.Gen.KernelIdeal.Frame
import proofs.«174249_j54640573940143_1_alg».proof.Proof.KBodyLib

noncomputable section

open scoped BigOperators

namespace Cert.KerSide.Body

open Idealize.ShloMosaic Idealize.ShloMosaic.ValueIdx Idealize.ShloMosaic.PlainDot Cert.KernelIdeal Cert.KernelIdeal.Gen

/-- The 2048×512 by 512×512 product into the zero accumulator is the textbook product. -/
theorem mm2048 (A : FVec Ideal S2048x512 .bf16) (B : FVec Ideal S512x512 .bf16) :
    matmul dot_S2048x512_S512x512_S2048x512_1_0_0_1_n_n none A B (constant S2048x512 .f32 0x00000000#32) = mm A B :=
  matmul_zero_eq_mm (M := 2048) (K := 512) (N := 512) none A B

/-- The 2048×512 by 512×1 product into the zero accumulator is the textbook product. -/
theorem mm2048x1 (A : FVec Ideal S2048x512 .bf16) (B : FVec Ideal S512x1 .bf16) :
    matmul dot_S2048x512_S512x1_S2048x1_1_0_0_1_n_n none A B (constant S2048x1 .f32 0x00000000#32) = mm A B :=
  matmul_zero_eq_mm (M := 2048) (K := 512) (N := 1) none A B

/-- Page i of the stack of three matrices, loaded as the [1, 512, 512] block at offset [o, 0, 0] with o = i and
    cast to [512, 512]. -/
theorem page_eq (o : Nat) (i : Fin 3) (hi : i.val = o) (lw : Vec Ideal S3x512x512 .f32)
    (inb : ∀ a, (![o, 0, 0] : Fin 3 → Nat) a + S1x512x512.size a ≤ S3x512x512.size a)
    (h : S1x512x512.ShapeCasts S512x512) :
    shapeCast S512x512 (View.ld lw (Rect.unit (s := S3x512x512) ![o, 0, 0] S1x512x512.size inb)) h
      = Spec.page i lw := by
  funext j
  obtain ⟨a, b, rfl⟩ : ∃ (a : Fin 512) (b : Fin 512), j = ix2 a b := ⟨j 0, j 1, eq_ix2 j⟩
  refine (shapeCast_1ab_ab_apply _ h a b).trans ?_
  show lw _ = lw _
  refine congrArg lw (funext fun c => Fin.ext ?_)
  match c with
  | ⟨0, _⟩ => show o + 1 * 0 = i.val; omega
  | ⟨1, _⟩ => show 0 + 1 * a.val = a.val; omega
  | ⟨2, _⟩ => show 0 + 1 * b.val = b.val; omega

/-- Row i of the stack of three bias vectors, loaded as the [1, 512] block at offset [o, 0] with o = i and cast
    to [512]. -/
theorem row_eq (o : Nat) (i : Fin 3) (hi : i.val = o) (lb : Vec Ideal S3x512 .f32)
    (inb : ∀ a, (![o, 0] : Fin 2 → Nat) a + S1x512.size a ≤ S3x512.size a)
    (h : S1x512.ShapeCasts S512) :
    shapeCast S512 (View.ld lb (Rect.unit (s := S3x512) ![o, 0] S1x512.size inb)) h = Spec.row i lb := by
  funext j
  obtain ⟨a, rfl⟩ : ∃ (a : Fin 512), j = ix1 a := ⟨j 0, eq_ix1 j⟩
  refine (shapeCast_1a_a_apply _ h a).trans ?_
  show lb _ = lb _
  refine congrArg lb (funext fun c => Fin.ext ?_)
  match c with
  | ⟨0, _⟩ => show o + 1 * 0 = i.val; omega
  | ⟨1, _⟩ => show 0 + 1 * a.val = a.val; omega

/-- What region 5's body leaves in its output block is the head of its input blocks. -/
theorem _root_.Cert.KerSide.body5 (x0 : Vec Ideal S2048x512 .f32) (x1 : Vec Ideal S3x512x512 .f32) (x2 : Vec Ideal S3x512 .f32)
    (x3 : Vec Ideal S512x1 .f32) (x4 : Vec Ideal S1 .f32) :
    Cert.KernelIdeal.Gen.out5_5 (F := Ideal) x0 x1 x2 x3 x4 = Spec.head x0 x1 x2 x3 x4 := by
  funext j
  obtain ⟨p, c, rfl⟩ : ∃ (p : Fin 2048) (c : Fin 1), j = ix2 p c := ⟨j 0, j 1, eq_ix2 j⟩
  unfold out5_5
  rw [View.canon_unit_zero zero2]
  simp only [View.ld_unit_zero (S := S2048x512) zero2, View.ld_unit_zero (S := S512x1) zero2,
    View.ld_unit_zero (S := S1) zero1]
  unfold k5_pay1 k5_pay2
  simp only [shapeCast_self, mm2048, mm2048x1, truncf_eq, page_eq 0 0 rfl, page_eq 1 1 rfl, page_eq 2 2 rfl,
    row_eq 0 0 rfl, row_eq 1 1 rfl, row_eq 2 2 rfl, dense_eq]
  rw [addf_apply, row_bcast]
  rfl

end Cert.KerSide.Body

end
-- ==== Proof.KRegion0.lean ====
/-
  Region 0 of the idealized kernel program: what its output array holds when the region ends.

  The region cuts the 50000 rows of the aggregated features into 50 blocks of 1000 rows, one per grid point, keeps the
  weights whole at every point, and writes back the layer's update of each block. An entry of the update depends on
  one row of the aggregated features, so the blocks written back are the blocks of the update of the whole array, and
  they tile the output: the output array ends holding the update of the whole input array.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps over the grid: the first window and the output move one block of rows per point, every
    other window stays on its whole array. -/
theorem idx0 : ∀ t : Fin cfg0.N, win0_9.index t (0 : Fin 2) = t.val
    ∧ win0_9.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0 :=
  (by decide +kernel : ∀ t : Fin grid0.N, _)

/-- Window 1's block is its whole array at every point. -/
theorem iblk0_1 (c : Dev nD) (t : Fin cfg0.N) : iblk0 V c 1 t = V c main_arg7 := by
  funext y
  show V c main_arg7 (((cfg0.win 1).blk t).view.emb y) = V c main_arg7 y
  refine congrArg _ ?_
  obtain ⟨e0, e1, e2, e3, e4, e5, e6, e7, e8, e9, e10, e11, e12, e13⟩ := idx0 t
  funext a; apply Fin.ext
  match a with
    | ⟨0, _⟩ => show win0_1.index t (0 : Fin 2) * 128 + 1 * (y 0).val = (y 0).val; omega
    | ⟨1, _⟩ => show win0_1.index t (1 : Fin 2) * 320 + 1 * (y 1).val = (y 1).val; omega

/-- Window 2's block is its whole array at every point. -/
theorem iblk0_2 (c : Dev nD) (t : Fin cfg0.N) : iblk0 V c 2 t = V c main_arg8 := by
  funext y
  show V c main_arg8 (((cfg0.win 2).blk t).view.emb y) = V c main_arg8 y
  refine congrArg _ ?_
  obtain ⟨e0, e1, e2, e3, e4, e5, e6, e7, e8, e9, e10, e11, e12, e13⟩ := idx0 t
  funext a; apply Fin.ext
  match a with
    | ⟨0, _⟩ => show win0_2.index t (0 : Fin 1) * 320 + 1 * (y 0).val = (y 0).val; omega

/-- Window 3's block is its whole array at every point. -/
theorem iblk0_3 (c : Dev nD) (t : Fin cfg0.N) : iblk0 V c 3 t = V c main_arg9 := by
  funext y
  show V c main_arg9 (((cfg0.win 3).blk t).view.emb y) = V c main_arg9 y
  refine congrArg _ ?_
  obtain ⟨e0, e1, e2, e3, e4, e5, e6, e7, e8, e9, e10, e11, e12, e13⟩ := idx0 t
  funext a; apply Fin.ext
  match a with
    | ⟨0, _⟩ => show win0_3.index t (0 : Fin 2) * 320 + 1 * (y 0).val = (y 0).val; omega
    | ⟨1, _⟩ => show win0_3.index t (1 : Fin 2) * 512 + 1 * (y 1).val = (y 1).val; omega

/-- Window 4's block is its whole array at every point. -/
theorem iblk0_4 (c : Dev nD) (t : Fin cfg0.N) : iblk0 V c 4 t = V c main_arg10 := by
  funext y
  show V c main_arg10 (((cfg0.win 4).blk t).view.emb y) = V c main_arg10 y
  refine congrArg _ ?_
  obtain ⟨e0, e1, e2, e3, e4, e5, e6, e7, e8, e9, e10, e11, e12, e13⟩ := idx0 t
  funext a; apply Fin.ext
  match a with
    | ⟨0, _⟩ => show win0_4.index t (0 : Fin 1) * 512 + 1 * (y 0).val = (y 0).val; omega

/-- Window 5's block is its whole array at every point. -/
theorem iblk0_5 (c : Dev nD) (t : Fin cfg0.N) : iblk0 V c 5 t = V c main_arg11 := by
  funext y
  show V c main_arg11 (((cfg0.win 5).blk t).view.emb y) = V c main_arg11 y
  refine congrArg _ ?_
  obtain ⟨e0, e1, e2, e3, e4, e5, e6, e7, e8, e9, e10, e11, e12, e13⟩ := idx0 t
  funext a; apply Fin.ext
  match a with
    | ⟨0, _⟩ => show win0_5.index t (0 : Fin 1) * 512 + 1 * (y 0).val = (y 0).val; omega

/-- Window 6's block is its whole array at every point. -/
theorem iblk0_6 (c : Dev nD) (t : Fin cfg0.N) : iblk0 V c 6 t = V c main_arg12 := by
  funext y
  show V c main_arg12 (((cfg0.win 6).blk t).view.emb y) = V c main_arg12 y
  refine congrArg _ ?_
  obtain ⟨e0, e1, e2, e3, e4, e5, e6, e7, e8, e9, e10, e11, e12, e13⟩ := idx0 t
  funext a; apply Fin.ext
  match a with
    | ⟨0, _⟩ => show win0_6.index t (0 : Fin 1) * 512 + 1 * (y 0).val = (y 0).val; omega

/-- Window 7's block is its whole array at every point. -/
theorem iblk0_7 (c : Dev nD) (t : Fin cfg0.N) : iblk0 V c 7 t = V c main_arg13 := by
  funext y
  show V c main_arg13 (((cfg0.win 7).blk t).view.emb y) = V c main_arg13 y
  refine congrArg _ ?_
  obtain ⟨e0, e1, e2, e3, e4, e5, e6, e7, e8, e9, e10, e11, e12, e13⟩ := idx0 t
  funext a; apply Fin.ext
  match a with
    | ⟨0, _⟩ => show win0_7.index t (0 : Fin 1) * 512 + 1 * (y 0).val = (y 0).val; omega

/-- Window 8's block is its whole array at every point. -/
theorem iblk0_8 (c : Dev nD) (t : Fin cfg0.N) : iblk0 V c 8 t = V c main_arg14 := by
  funext y
  show V c main_arg14 (((cfg0.win 8).blk t).view.emb y) = V c main_arg14 y
  refine congrArg _ ?_
  obtain ⟨e0, e1, e2, e3, e4, e5, e6, e7, e8, e9, e10, e11, e12, e13⟩ := idx0 t
  funext a; apply Fin.ext
  match a with
    | ⟨0, _⟩ => show win0_8.index t (0 : Fin 1) * 512 + 1 * (y 0).val = (y 0).val; omega

/-- Row `r` of the first window's block at point `t` is row `1000 t + r` of its array. -/
theorem iblk0_0 (c : Dev nD) (t : Fin cfg0.N) (r : Fin 1000) (k : Fin 128) (hr : t.val * 1000 + r.val < 50000) :
    iblk0 V c 0 t (ix2 r k) = V c main_v27 (ix2 ⟨t.val * 1000 + r.val, hr⟩ k) := by
  show V c main_v27 (((cfg0.win 0).blk t).view.emb (ix2 r k)) = V c main_v27 (ix2 ⟨t.val * 1000 + r.val, hr⟩ k)
  refine congrArg _ ?_
  obtain ⟨e0, e1, e2, e3, e4, e5, e6, e7, e8, e9, e10, e11, e12, e13⟩ := idx0 t
  funext a; apply Fin.ext
  match a with
  | ⟨0, _⟩ => show win0_0.index t (0 : Fin 2) * 1000 + 1 * r.val = t.val * 1000 + r.val; omega
  | ⟨1, _⟩ => show win0_0.index t (1 : Fin 2) * 128 + 1 * k.val = k.val; omega

/-- What point `t` writes back is block `t` of the layer's update of the whole arrays, given that the body computes the
    update of its blocks. -/
theorem flushed0
    (hbody : ∀ (x0 : Vec Ideal S1000x128 .f32) (x1 : Vec Ideal S128x320 .f32) (x2 : Vec Ideal S320 .f32) (x3 : Vec Ideal S320x512 .f32) (x4 x5 x6 x7 x8 : Vec Ideal S512 .f32),
      out0_9 (F := Ideal) x0 x1 x2 x3 x4 x5 x6 x7 x8 = Spec.layer x0 x1 x2 x3 x4 x5 x6 x7 x8)
    (c : Dev nD) (t : Fin cfg0.N) :
    (dat0 (F := Ideal) V c).flushed 9 t
      = ((cfg0.win 9).blk t).view.read (Elt Ideal) (Spec.layer (M := 50000) (V c main_v27) (V c main_arg7) (V c main_arg8) (V c main_arg9) (V c main_arg10) (V c main_arg11) (V c main_arg12) (V c main_arg13) (V c main_arg14)) := by
  show (cfg0.win 9).cut (grid0.coords t) ((dat0 (F := Ideal) V c).after 9 t) = _
  rw [after0_9, hbody, iblk0_1, iblk0_2, iblk0_3, iblk0_4, iblk0_5, iblk0_6, iblk0_7, iblk0_8]
  funext y
  obtain ⟨r, q, rfl⟩ : ∃ (r : Fin 1000) (q : Fin 512), y = ix2 r q := ⟨y 0, y 1, eq_ix2 y⟩
  have ht : t.val < 50 := Nat.lt_of_lt_of_eq t.isLt N_0
  have hr : t.val * 1000 + r.val < 50000 := by have := r.isLt; omega
  obtain ⟨e0, e1, e2, e3, e4, e5, e6, e7, e8, e9, e10, e11, e12, e13⟩ := idx0 t
  have hemb : ((cfg0.win 9).blk t).view.emb (ix2 r q) = (ix2 ⟨t.val * 1000 + r.val, hr⟩ q : S50000x512.Idx) := by
    funext a; apply Fin.ext
    match a with
    | ⟨0, _⟩ => show win0_9.index t (0 : Fin 2) * 1000 + 1 * r.val = t.val * 1000 + r.val; omega
    | ⟨1, _⟩ => show win0_9.index t (1 : Fin 2) * 512 + 1 * q.val = q.val; omega
  show Spec.layer (iblk0 V c 0 t) (V c main_arg7) (V c main_arg8) (V c main_arg9) (V c main_arg10) (V c main_arg11) (V c main_arg12) (V c main_arg13) (V c main_arg14) (ix2 r q)
      = Spec.layer (M := 50000) (V c main_v27) (V c main_arg7) (V c main_arg8) (V c main_arg9) (V c main_arg10) (V c main_arg11) (V c main_arg12) (V c main_arg13) (V c main_arg14) (((cfg0.win 9).blk t).view.emb (ix2 r q))
  rw [hemb]
  exact Spec.layer_rows (M := 50000) (M' := 1000) (V c main_v27) (iblk0 V c 0 t) (V c main_arg7) (V c main_arg8) (V c main_arg9) (V c main_arg10) (V c main_arg11) (V c main_arg12) (V c main_arg13) (V c main_arg14)
    ⟨t.val * 1000 + r.val, hr⟩ r (fun k => iblk0_0 V c t r k hr) q

/-- An index of the output array is in point `t`'s block iff each coordinate is in the block's range on its axis. -/
theorem mem_blk0 (t : Fin cfg0.N) (i : S50000x512.Idx) :
    i ∈ ((cfg0.win 9).blk t).view.set ↔ ∀ a : Fin 2, win0_9.index t a * S1000x512.size a ≤ (i a).val ∧ (i a).val < win0_9.index t a * S1000x512.size a + S1000x512.size a := by
  show i ∈ ((View.whole main_v28).slice (win0_9.rect t)).set ↔ _
  rw [View.set_slice_whole, Rect.mem_set_unit]
  exact Iff.rfl

/-- Row `r` of the output lies in the block of point `r / 1000`. -/
theorem cover0 (i : S50000x512.Idx) : ∃ t : Fin cfg0.N, (cfg0.win 9).flush t = true ∧ i ∈ ((cfg0.win 9).blk t).view.set := by
  have hi0 : (i 0).val < 50000 := (i 0).isLt
  have hi1 : (i 1).val < 512 := (i 1).isLt
  have hN : cfg0.N = 50 := N_0
  refine ⟨⟨(i 0).val / 1000, by rw [hN]; omega⟩, flush0_9 _, ?_⟩
  rw [mem_blk0]
  obtain ⟨e0, e1, e2, e3, e4, e5, e6, e7, e8, e9, e10, e11, e12, e13⟩ := idx0 ⟨(i 0).val / 1000, by rw [hN]; omega⟩
  intro a
  match a with
  | ⟨0, _⟩ => show win0_9.index ⟨(i 0).val / 1000, _⟩ (0 : Fin 2) * 1000 ≤ (i 0).val ∧ (i 0).val < win0_9.index ⟨(i 0).val / 1000, _⟩ (0 : Fin 2) * 1000 + 1000; rw [e0]; show (i 0).val / 1000 * 1000 ≤ (i 0).val ∧ (i 0).val < (i 0).val / 1000 * 1000 + 1000; omega
  | ⟨1, _⟩ => show win0_9.index ⟨(i 0).val / 1000, _⟩ (1 : Fin 2) * 512 ≤ (i 1).val ∧ (i 1).val < win0_9.index ⟨(i 0).val / 1000, _⟩ (1 : Fin 2) * 512 + 512; rw [e1]; omega

/-- THE OUTPUT ARRAY when the region ends: the layer's update of the arrays the region found. -/
theorem region0
    (hbody : ∀ (x0 : Vec Ideal S1000x128 .f32) (x1 : Vec Ideal S128x320 .f32) (x2 : Vec Ideal S320 .f32) (x3 : Vec Ideal S320x512 .f32) (x4 x5 x6 x7 x8 : Vec Ideal S512 .f32),
      out0_9 (F := Ideal) x0 x1 x2 x3 x4 x5 x6 x7 x8 = Spec.layer x0 x1 x2 x3 x4 x5 x6 x7 x8)
    (c : Dev nD) :
    (dat0 (F := Ideal) V c).arrAt 9 cfg0.N = Spec.layer (M := 50000) (V c main_v27) (V c main_arg7) (V c main_arg8) (V c main_arg9) (V c main_arg10) (V c main_arg11) (V c main_arg12) (V c main_arg13) (V c main_arg14) :=
  (dat0 (F := Ideal) V c).arrAt_eq_of_cover 9 _ (fun t _ => flushed0 V hbody c t) (cover0)

end Cert.KerSide

end
-- ==== Proof.KRegion1.lean ====
/-
  Region 1 of the idealized kernel program: what its output array holds when the region ends.

  The region cuts the 50000 rows of the aggregated features into 50 blocks of 1000 rows, one per grid point, keeps the
  weights whole at every point, and writes back the layer's update of each block. An entry of the update depends on
  one row of the aggregated features, so the blocks written back are the blocks of the update of the whole array, and
  they tile the output: the output array ends holding the update of the whole input array.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps over the grid: the first window and the output move one block of rows per point, every
    other window stays on its whole array. -/
theorem idx1 : ∀ t : Fin cfg1.N, win1_9.index t (0 : Fin 2) = t.val
    ∧ win1_9.index t (1 : Fin 2) = 0
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 1) = 0 :=
  (by decide +kernel : ∀ t : Fin grid1.N, _)

/-- Window 1's block is its whole array at every point. -/
theorem iblk1_1 (c : Dev nD) (t : Fin cfg1.N) : iblk1 V c 1 t = V c main_v62 := by
  funext y
  show V c main_v62 (((cfg1.win 1).blk t).view.emb y) = V c main_v62 y
  refine congrArg _ ?_
  obtain ⟨e0, e1, e2, e3, e4, e5, e6, e7, e8, e9, e10, e11, e12, e13⟩ := idx1 t
  funext a; apply Fin.ext
  match a with
    | ⟨0, _⟩ => show win1_1.index t (0 : Fin 2) * 512 + 1 * (y 0).val = (y 0).val; omega
    | ⟨1, _⟩ => show win1_1.index t (1 : Fin 2) * 512 + 1 * (y 1).val = (y 1).val; omega

/-- Window 2's block is its whole array at every point. -/
theorem iblk1_2 (c : Dev nD) (t : Fin cfg1.N) : iblk1 V c 2 t = V c main_v64 := by
  funext y
  show V c main_v64 (((cfg1.win 2).blk t).view.emb y) = V c main_v64 y
  refine congrArg _ ?_
  obtain ⟨e0, e1, e2, e3, e4, e5, e6, e7, e8, e9, e10, e11, e12, e13⟩ := idx1 t
  funext a; apply Fin.ext
  match a with
    | ⟨0, _⟩ => show win1_2.index t (0 : Fin 1) * 512 + 1 * (y 0).val = (y 0).val; omega

/-- Window 3's block is its whole array at every point. -/
theorem iblk1_3 (c : Dev nD) (t : Fin cfg1.N) : iblk1 V c 3 t = V c main_v66 := by
  funext y
  show V c main_v66 (((cfg1.win 3).blk t).view.emb y) = V c main_v66 y
  refine congrArg _ ?_
  obtain ⟨e0, e1, e2, e3, e4, e5, e6, e7, e8, e9, e10, e11, e12, e13⟩ := idx1 t
  funext a; apply Fin.ext
  match a with
    | ⟨0, _⟩ => show win1_3.index t (0 : Fin 2) * 512 + 1 * (y 0).val = (y 0).val; omega
    | ⟨1, _⟩ => show win1_3.index t (1 : Fin 2) * 512 + 1 * (y 1).val = (y 1).val; omega

/-- Window 4's block is its whole array at every point. -/
theorem iblk1_4 (c : Dev nD) (t : Fin cfg1.N) : iblk1 V c 4 t = V c main_v68 := by
  funext y
  show V c main_v68 (((cfg1.win 4).blk t).view.emb y) = V c main_v68 y
  refine congrArg _ ?_
  obtain ⟨e0, e1, e2, e3, e4, e5, e6, e7, e8, e9, e10, e11, e12, e13⟩ := idx1 t
  funext a; apply Fin.ext
  match a with
    | ⟨0, _⟩ => show win1_4.index t (0 : Fin 1) * 512 + 1 * (y 0).val = (y 0).val; omega

/-- Window 5's block is its whole array at every point. -/
theorem iblk1_5 (c : Dev nD) (t : Fin cfg1.N) : iblk1 V c 5 t = V c main_v70 := by
  funext y
  show V c main_v70 (((cfg1.win 5).blk t).view.emb y) = V c main_v70 y
  refine congrArg _ ?_
  obtain ⟨e0, e1, e2, e3, e4, e5, e6, e7, e8, e9, e10, e11, e12, e13⟩ := idx1 t
  funext a; apply Fin.ext
  match a with
    | ⟨0, _⟩ => show win1_5.index t (0 : Fin 1) * 512 + 1 * (y 0).val = (y 0).val; omega

/-- Window 6's block is its whole array at every point. -/
theorem iblk1_6 (c : Dev nD) (t : Fin cfg1.N) : iblk1 V c 6 t = V c main_v72 := by
  funext y
  show V c main_v72 (((cfg1.win 6).blk t).view.emb y) = V c main_v72 y
  refine congrArg _ ?_
  obtain ⟨e0, e1, e2, e3, e4, e5, e6, e7, e8, e9, e10, e11, e12, e13⟩ := idx1 t
  funext a; apply Fin.ext
  match a with
    | ⟨0, _⟩ => show win1_6.index t (0 : Fin 1) * 512 + 1 * (y 0).val = (y 0).val; omega

/-- Window 7's block is its whole array at every point. -/
theorem iblk1_7 (c : Dev nD) (t : Fin cfg1.N) : iblk1 V c 7 t = V c main_v74 := by
  funext y
  show V c main_v74 (((cfg1.win 7).blk t).view.emb y) = V c main_v74 y
  refine congrArg _ ?_
  obtain ⟨e0, e1, e2, e3, e4, e5, e6, e7, e8, e9, e10, e11, e12, e13⟩ := idx1 t
  funext a; apply Fin.ext
  match a with
    | ⟨0, _⟩ => show win1_7.index t (0 : Fin 1) * 512 + 1 * (y 0).val = (y 0).val; omega

/-- Window 8's block is its whole array at every point. -/
theorem iblk1_8 (c : Dev nD) (t : Fin cfg1.N) : iblk1 V c 8 t = V c main_v76 := by
  funext y
  show V c main_v76 (((cfg1.win 8).blk t).view.emb y) = V c main_v76 y
  refine congrArg _ ?_
  obtain ⟨e0, e1, e2, e3, e4, e5, e6, e7, e8, e9, e10, e11, e12, e13⟩ := idx1 t
  funext a; apply Fin.ext
  match a with
    | ⟨0, _⟩ => show win1_8.index t (0 : Fin 1) * 512 + 1 * (y 0).val = (y 0).val; omega

/-- Row `r` of the first window's block at point `t` is row `1000 t + r` of its array. -/
theorem iblk1_0 (c : Dev nD) (t : Fin cfg1.N) (r : Fin 1000) (k : Fin 512) (hr : t.val * 1000 + r.val < 50000) :
    iblk1 V c 0 t (ix2 r k) = V c main_v60 (ix2 ⟨t.val * 1000 + r.val, hr⟩ k) := by
  show V c main_v60 (((cfg1.win 0).blk t).view.emb (ix2 r k)) = V c main_v60 (ix2 ⟨t.val * 1000 + r.val, hr⟩ k)
  refine congrArg _ ?_
  obtain ⟨e0, e1, e2, e3, e4, e5, e6, e7, e8, e9, e10, e11, e12, e13⟩ := idx1 t
  funext a; apply Fin.ext
  match a with
  | ⟨0, _⟩ => show win1_0.index t (0 : Fin 2) * 1000 + 1 * r.val = t.val * 1000 + r.val; omega
  | ⟨1, _⟩ => show win1_0.index t (1 : Fin 2) * 512 + 1 * k.val = k.val; omega

/-- What point `t` writes back is block `t` of the layer's update of the whole arrays, given that the body computes the
    update of its blocks. -/
theorem flushed1
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out1_9 (F := Ideal) x0 x1 x2 x3 x4 x5 x6 x7 x8 = Spec.layer x0 x1 x2 x3 x4 x5 x6 x7 x8)
    (c : Dev nD) (t : Fin cfg1.N) :
    (dat1 (F := Ideal) V c).flushed 9 t
      = ((cfg1.win 9).blk t).view.read (Elt Ideal) (Spec.layer (M := 50000) (V c main_v60) (V c main_v62) (V c main_v64) (V c main_v66) (V c main_v68) (V c main_v70) (V c main_v72) (V c main_v74) (V c main_v76)) := by
  show (cfg1.win 9).cut (grid1.coords t) ((dat1 (F := Ideal) V c).after 9 t) = _
  rw [after1_9, hbody, iblk1_1, iblk1_2, iblk1_3, iblk1_4, iblk1_5, iblk1_6, iblk1_7, iblk1_8]
  funext y
  obtain ⟨r, q, rfl⟩ : ∃ (r : Fin 1000) (q : Fin 512), y = ix2 r q := ⟨y 0, y 1, eq_ix2 y⟩
  have ht : t.val < 50 := Nat.lt_of_lt_of_eq t.isLt N_1
  have hr : t.val * 1000 + r.val < 50000 := by have := r.isLt; omega
  obtain ⟨e0, e1, e2, e3, e4, e5, e6, e7, e8, e9, e10, e11, e12, e13⟩ := idx1 t
  have hemb : ((cfg1.win 9).blk t).view.emb (ix2 r q) = (ix2 ⟨t.val * 1000 + r.val, hr⟩ q : S50000x512.Idx) := by
    funext a; apply Fin.ext
    match a with
    | ⟨0, _⟩ => show win1_9.index t (0 : Fin 2) * 1000 + 1 * r.val = t.val * 1000 + r.val; omega
    | ⟨1, _⟩ => show win1_9.index t (1 : Fin 2) * 512 + 1 * q.val = q.val; omega
  show Spec.layer (iblk1 V c 0 t) (V c main_v62) (V c main_v64) (V c main_v66) (V c main_v68) (V c main_v70) (V c main_v72) (V c main_v74) (V c main_v76) (ix2 r q)
      = Spec.layer (M := 50000) (V c main_v60) (V c main_v62) (V c main_v64) (V c main_v66) (V c main_v68) (V c main_v70) (V c main_v72) (V c main_v74) (V c main_v76) (((cfg1.win 9).blk t).view.emb (ix2 r q))
  rw [hemb]
  exact Spec.layer_rows (M := 50000) (M' := 1000) (V c main_v60) (iblk1 V c 0 t) (V c main_v62) (V c main_v64) (V c main_v66) (V c main_v68) (V c main_v70) (V c main_v72) (V c main_v74) (V c main_v76)
    ⟨t.val * 1000 + r.val, hr⟩ r (fun k => iblk1_0 V c t r k hr) q

/-- An index of the output array is in point `t`'s block iff each coordinate is in the block's range on its axis. -/
theorem mem_blk1 (t : Fin cfg1.N) (i : S50000x512.Idx) :
    i ∈ ((cfg1.win 9).blk t).view.set ↔ ∀ a : Fin 2, win1_9.index t a * S1000x512.size a ≤ (i a).val ∧ (i a).val < win1_9.index t a * S1000x512.size a + S1000x512.size a := by
  show i ∈ ((View.whole main_v77).slice (win1_9.rect t)).set ↔ _
  rw [View.set_slice_whole, Rect.mem_set_unit]
  exact Iff.rfl

/-- Row `r` of the output lies in the block of point `r / 1000`. -/
theorem cover1 (i : S50000x512.Idx) : ∃ t : Fin cfg1.N, (cfg1.win 9).flush t = true ∧ i ∈ ((cfg1.win 9).blk t).view.set := by
  have hi0 : (i 0).val < 50000 := (i 0).isLt
  have hi1 : (i 1).val < 512 := (i 1).isLt
  have hN : cfg1.N = 50 := N_1
  refine ⟨⟨(i 0).val / 1000, by rw [hN]; omega⟩, flush1_9 _, ?_⟩
  rw [mem_blk1]
  obtain ⟨e0, e1, e2, e3, e4, e5, e6, e7, e8, e9, e10, e11, e12, e13⟩ := idx1 ⟨(i 0).val / 1000, by rw [hN]; omega⟩
  intro a
  match a with
  | ⟨0, _⟩ => show win1_9.index ⟨(i 0).val / 1000, _⟩ (0 : Fin 2) * 1000 ≤ (i 0).val ∧ (i 0).val < win1_9.index ⟨(i 0).val / 1000, _⟩ (0 : Fin 2) * 1000 + 1000; rw [e0]; show (i 0).val / 1000 * 1000 ≤ (i 0).val ∧ (i 0).val < (i 0).val / 1000 * 1000 + 1000; omega
  | ⟨1, _⟩ => show win1_9.index ⟨(i 0).val / 1000, _⟩ (1 : Fin 2) * 512 ≤ (i 1).val ∧ (i 1).val < win1_9.index ⟨(i 0).val / 1000, _⟩ (1 : Fin 2) * 512 + 512; rw [e1]; omega

/-- THE OUTPUT ARRAY when the region ends: the layer's update of the arrays the region found. -/
theorem region1
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out1_9 (F := Ideal) x0 x1 x2 x3 x4 x5 x6 x7 x8 = Spec.layer x0 x1 x2 x3 x4 x5 x6 x7 x8)
    (c : Dev nD) :
    (dat1 (F := Ideal) V c).arrAt 9 cfg1.N = Spec.layer (M := 50000) (V c main_v60) (V c main_v62) (V c main_v64) (V c main_v66) (V c main_v68) (V c main_v70) (V c main_v72) (V c main_v74) (V c main_v76) :=
  (dat1 (F := Ideal) V c).arrAt_eq_of_cover 9 _ (fun t _ => flushed1 V hbody c t) (cover1)

end Cert.KerSide

end
-- ==== Proof.KRegion2.lean ====
/-
  Region 2 of the idealized kernel program: what its output array holds when the region ends.

  The region cuts the 50000 rows of the aggregated features into 50 blocks of 1000 rows, one per grid point, keeps the
  weights whole at every point, and writes back the layer's update of each block. An entry of the update depends on
  one row of the aggregated features, so the blocks written back are the blocks of the update of the whole array, and
  they tile the output: the output array ends holding the update of the whole input array.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps over the grid: the first window and the output move one block of rows per point, every
    other window stays on its whole array. -/
theorem idx2 : ∀ t : Fin cfg2.N, win2_9.index t (0 : Fin 2) = t.val
    ∧ win2_9.index t (1 : Fin 2) = 0
    ∧ win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 1) = 0
    ∧ win2_6.index t (0 : Fin 1) = 0
    ∧ win2_7.index t (0 : Fin 1) = 0
    ∧ win2_8.index t (0 : Fin 1) = 0 :=
  (by decide +kernel : ∀ t : Fin grid2.N, _)

/-- Window 1's block is its whole array at every point. -/
theorem iblk2_1 (c : Dev nD) (t : Fin cfg2.N) : iblk2 V c 1 t = V c main_v111 := by
  funext y
  show V c main_v111 (((cfg2.win 1).blk t).view.emb y) = V c main_v111 y
  refine congrArg _ ?_
  obtain ⟨e0, e1, e2, e3, e4, e5, e6, e7, e8, e9, e10, e11, e12, e13⟩ := idx2 t
  funext a; apply Fin.ext
  match a with
    | ⟨0, _⟩ => show win2_1.index t (0 : Fin 2) * 512 + 1 * (y 0).val = (y 0).val; omega
    | ⟨1, _⟩ => show win2_1.index t (1 : Fin 2) * 512 + 1 * (y 1).val = (y 1).val; omega

/-- Window 2's block is its whole array at every point. -/
theorem iblk2_2 (c : Dev nD) (t : Fin cfg2.N) : iblk2 V c 2 t = V c main_v113 := by
  funext y
  show V c main_v113 (((cfg2.win 2).blk t).view.emb y) = V c main_v113 y
  refine congrArg _ ?_
  obtain ⟨e0, e1, e2, e3, e4, e5, e6, e7, e8, e9, e10, e11, e12, e13⟩ := idx2 t
  funext a; apply Fin.ext
  match a with
    | ⟨0, _⟩ => show win2_2.index t (0 : Fin 1) * 512 + 1 * (y 0).val = (y 0).val; omega

/-- Window 3's block is its whole array at every point. -/
theorem iblk2_3 (c : Dev nD) (t : Fin cfg2.N) : iblk2 V c 3 t = V c main_v115 := by
  funext y
  show V c main_v115 (((cfg2.win 3).blk t).view.emb y) = V c main_v115 y
  refine congrArg _ ?_
  obtain ⟨e0, e1, e2, e3, e4, e5, e6, e7, e8, e9, e10, e11, e12, e13⟩ := idx2 t
  funext a; apply Fin.ext
  match a with
    | ⟨0, _⟩ => show win2_3.index t (0 : Fin 2) * 512 + 1 * (y 0).val = (y 0).val; omega
    | ⟨1, _⟩ => show win2_3.index t (1 : Fin 2) * 512 + 1 * (y 1).val = (y 1).val; omega

/-- Window 4's block is its whole array at every point. -/
theorem iblk2_4 (c : Dev nD) (t : Fin cfg2.N) : iblk2 V c 4 t = V c main_v117 := by
  funext y
  show V c main_v117 (((cfg2.win 4).blk t).view.emb y) = V c main_v117 y
  refine congrArg _ ?_
  obtain ⟨e0, e1, e2, e3, e4, e5, e6, e7, e8, e9, e10, e11, e12, e13⟩ := idx2 t
  funext a; apply Fin.ext
  match a with
    | ⟨0, _⟩ => show win2_4.index t (0 : Fin 1) * 512 + 1 * (y 0).val = (y 0).val; omega

/-- Window 5's block is its whole array at every point. -/
theorem iblk2_5 (c : Dev nD) (t : Fin cfg2.N) : iblk2 V c 5 t = V c main_v119 := by
  funext y
  show V c main_v119 (((cfg2.win 5).blk t).view.emb y) = V c main_v119 y
  refine congrArg _ ?_
  obtain ⟨e0, e1, e2, e3, e4, e5, e6, e7, e8, e9, e10, e11, e12, e13⟩ := idx2 t
  funext a; apply Fin.ext
  match a with
    | ⟨0, _⟩ => show win2_5.index t (0 : Fin 1) * 512 + 1 * (y 0).val = (y 0).val; omega

/-- Window 6's block is its whole array at every point. -/
theorem iblk2_6 (c : Dev nD) (t : Fin cfg2.N) : iblk2 V c 6 t = V c main_v121 := by
  funext y
  show V c main_v121 (((cfg2.win 6).blk t).view.emb y) = V c main_v121 y
  refine congrArg _ ?_
  obtain ⟨e0, e1, e2, e3, e4, e5, e6, e7, e8, e9, e10, e11, e12, e13⟩ := idx2 t
  funext a; apply Fin.ext
  match a with
    | ⟨0, _⟩ => show win2_6.index t (0 : Fin 1) * 512 + 1 * (y 0).val = (y 0).val; omega

/-- Window 7's block is its whole array at every point. -/
theorem iblk2_7 (c : Dev nD) (t : Fin cfg2.N) : iblk2 V c 7 t = V c main_v123 := by
  funext y
  show V c main_v123 (((cfg2.win 7).blk t).view.emb y) = V c main_v123 y
  refine congrArg _ ?_
  obtain ⟨e0, e1, e2, e3, e4, e5, e6, e7, e8, e9, e10, e11, e12, e13⟩ := idx2 t
  funext a; apply Fin.ext
  match a with
    | ⟨0, _⟩ => show win2_7.index t (0 : Fin 1) * 512 + 1 * (y 0).val = (y 0).val; omega

/-- Window 8's block is its whole array at every point. -/
theorem iblk2_8 (c : Dev nD) (t : Fin cfg2.N) : iblk2 V c 8 t = V c main_v125 := by
  funext y
  show V c main_v125 (((cfg2.win 8).blk t).view.emb y) = V c main_v125 y
  refine congrArg _ ?_
  obtain ⟨e0, e1, e2, e3, e4, e5, e6, e7, e8, e9, e10, e11, e12, e13⟩ := idx2 t
  funext a; apply Fin.ext
  match a with
    | ⟨0, _⟩ => show win2_8.index t (0 : Fin 1) * 512 + 1 * (y 0).val = (y 0).val; omega

/-- Row `r` of the first window's block at point `t` is row `1000 t + r` of its array. -/
theorem iblk2_0 (c : Dev nD) (t : Fin cfg2.N) (r : Fin 1000) (k : Fin 512) (hr : t.val * 1000 + r.val < 50000) :
    iblk2 V c 0 t (ix2 r k) = V c main_v109 (ix2 ⟨t.val * 1000 + r.val, hr⟩ k) := by
  show V c main_v109 (((cfg2.win 0).blk t).view.emb (ix2 r k)) = V c main_v109 (ix2 ⟨t.val * 1000 + r.val, hr⟩ k)
  refine congrArg _ ?_
  obtain ⟨e0, e1, e2, e3, e4, e5, e6, e7, e8, e9, e10, e11, e12, e13⟩ := idx2 t
  funext a; apply Fin.ext
  match a with
  | ⟨0, _⟩ => show win2_0.index t (0 : Fin 2) * 1000 + 1 * r.val = t.val * 1000 + r.val; omega
  | ⟨1, _⟩ => show win2_0.index t (1 : Fin 2) * 512 + 1 * k.val = k.val; omega

/-- What point `t` writes back is block `t` of the layer's update of the whole arrays, given that the body computes the
    update of its blocks. -/
theorem flushed2
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out2_9 (F := Ideal) x0 x1 x2 x3 x4 x5 x6 x7 x8 = Spec.layer x0 x1 x2 x3 x4 x5 x6 x7 x8)
    (c : Dev nD) (t : Fin cfg2.N) :
    (dat2 (F := Ideal) V c).flushed 9 t
      = ((cfg2.win 9).blk t).view.read (Elt Ideal) (Spec.layer (M := 50000) (V c main_v109) (V c main_v111) (V c main_v113) (V c main_v115) (V c main_v117) (V c main_v119) (V c main_v121) (V c main_v123) (V c main_v125)) := by
  show (cfg2.win 9).cut (grid2.coords t) ((dat2 (F := Ideal) V c).after 9 t) = _
  rw [after2_9, hbody, iblk2_1, iblk2_2, iblk2_3, iblk2_4, iblk2_5, iblk2_6, iblk2_7, iblk2_8]
  funext y
  obtain ⟨r, q, rfl⟩ : ∃ (r : Fin 1000) (q : Fin 512), y = ix2 r q := ⟨y 0, y 1, eq_ix2 y⟩
  have ht : t.val < 50 := Nat.lt_of_lt_of_eq t.isLt N_2
  have hr : t.val * 1000 + r.val < 50000 := by have := r.isLt; omega
  obtain ⟨e0, e1, e2, e3, e4, e5, e6, e7, e8, e9, e10, e11, e12, e13⟩ := idx2 t
  have hemb : ((cfg2.win 9).blk t).view.emb (ix2 r q) = (ix2 ⟨t.val * 1000 + r.val, hr⟩ q : S50000x512.Idx) := by
    funext a; apply Fin.ext
    match a with
    | ⟨0, _⟩ => show win2_9.index t (0 : Fin 2) * 1000 + 1 * r.val = t.val * 1000 + r.val; omega
    | ⟨1, _⟩ => show win2_9.index t (1 : Fin 2) * 512 + 1 * q.val = q.val; omega
  show Spec.layer (iblk2 V c 0 t) (V c main_v111) (V c main_v113) (V c main_v115) (V c main_v117) (V c main_v119) (V c main_v121) (V c main_v123) (V c main_v125) (ix2 r q)
      = Spec.layer (M := 50000) (V c main_v109) (V c main_v111) (V c main_v113) (V c main_v115) (V c main_v117) (V c main_v119) (V c main_v121) (V c main_v123) (V c main_v125) (((cfg2.win 9).blk t).view.emb (ix2 r q))
  rw [hemb]
  exact Spec.layer_rows (M := 50000) (M' := 1000) (V c main_v109) (iblk2 V c 0 t) (V c main_v111) (V c main_v113) (V c main_v115) (V c main_v117) (V c main_v119) (V c main_v121) (V c main_v123) (V c main_v125)
    ⟨t.val * 1000 + r.val, hr⟩ r (fun k => iblk2_0 V c t r k hr) q

/-- An index of the output array is in point `t`'s block iff each coordinate is in the block's range on its axis. -/
theorem mem_blk2 (t : Fin cfg2.N) (i : S50000x512.Idx) :
    i ∈ ((cfg2.win 9).blk t).view.set ↔ ∀ a : Fin 2, win2_9.index t a * S1000x512.size a ≤ (i a).val ∧ (i a).val < win2_9.index t a * S1000x512.size a + S1000x512.size a := by
  show i ∈ ((View.whole main_v126).slice (win2_9.rect t)).set ↔ _
  rw [View.set_slice_whole, Rect.mem_set_unit]
  exact Iff.rfl

/-- Row `r` of the output lies in the block of point `r / 1000`. -/
theorem cover2 (i : S50000x512.Idx) : ∃ t : Fin cfg2.N, (cfg2.win 9).flush t = true ∧ i ∈ ((cfg2.win 9).blk t).view.set := by
  have hi0 : (i 0).val < 50000 := (i 0).isLt
  have hi1 : (i 1).val < 512 := (i 1).isLt
  have hN : cfg2.N = 50 := N_2
  refine ⟨⟨(i 0).val / 1000, by rw [hN]; omega⟩, flush2_9 _, ?_⟩
  rw [mem_blk2]
  obtain ⟨e0, e1, e2, e3, e4, e5, e6, e7, e8, e9, e10, e11, e12, e13⟩ := idx2 ⟨(i 0).val / 1000, by rw [hN]; omega⟩
  intro a
  match a with
  | ⟨0, _⟩ => show win2_9.index ⟨(i 0).val / 1000, _⟩ (0 : Fin 2) * 1000 ≤ (i 0).val ∧ (i 0).val < win2_9.index ⟨(i 0).val / 1000, _⟩ (0 : Fin 2) * 1000 + 1000; rw [e0]; show (i 0).val / 1000 * 1000 ≤ (i 0).val ∧ (i 0).val < (i 0).val / 1000 * 1000 + 1000; omega
  | ⟨1, _⟩ => show win2_9.index ⟨(i 0).val / 1000, _⟩ (1 : Fin 2) * 512 ≤ (i 1).val ∧ (i 1).val < win2_9.index ⟨(i 0).val / 1000, _⟩ (1 : Fin 2) * 512 + 512; rw [e1]; omega

/-- THE OUTPUT ARRAY when the region ends: the layer's update of the arrays the region found. -/
theorem region2
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out2_9 (F := Ideal) x0 x1 x2 x3 x4 x5 x6 x7 x8 = Spec.layer x0 x1 x2 x3 x4 x5 x6 x7 x8)
    (c : Dev nD) :
    (dat2 (F := Ideal) V c).arrAt 9 cfg2.N = Spec.layer (M := 50000) (V c main_v109) (V c main_v111) (V c main_v113) (V c main_v115) (V c main_v117) (V c main_v119) (V c main_v121) (V c main_v123) (V c main_v125) :=
  (dat2 (F := Ideal) V c).arrAt_eq_of_cover 9 _ (fun t _ => flushed2 V hbody c t) (cover2)

end Cert.KerSide

end
-- ==== Proof.KRegion3.lean ====
/-
  Region 3 of the idealized kernel program: what its output array holds when the region ends.

  The region cuts the 50000 rows of the aggregated features into 50 blocks of 1000 rows, one per grid point, keeps the
  weights whole at every point, and writes back the layer's update of each block. An entry of the update depends on
  one row of the aggregated features, so the blocks written back are the blocks of the update of the whole array, and
  they tile the output: the output array ends holding the update of the whole input array.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps over the grid: the first window and the output move one block of rows per point, every
    other window stays on its whole array. -/
theorem idx3 : ∀ t : Fin cfg3.N, win3_9.index t (0 : Fin 2) = t.val
    ∧ win3_9.index t (1 : Fin 2) = 0
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = 0
    ∧ win3_3.index t (1 : Fin 2) = 0
    ∧ win3_4.index t (0 : Fin 1) = 0
    ∧ win3_5.index t (0 : Fin 1) = 0
    ∧ win3_6.index t (0 : Fin 1) = 0
    ∧ win3_7.index t (0 : Fin 1) = 0
    ∧ win3_8.index t (0 : Fin 1) = 0 :=
  (by decide +kernel : ∀ t : Fin grid3.N, _)

/-- Window 1's block is its whole array at every point. -/
theorem iblk3_1 (c : Dev nD) (t : Fin cfg3.N) : iblk3 V c 1 t = V c main_v160 := by
  funext y
  show V c main_v160 (((cfg3.win 1).blk t).view.emb y) = V c main_v160 y
  refine congrArg _ ?_
  obtain ⟨e0, e1, e2, e3, e4, e5, e6, e7, e8, e9, e10, e11, e12, e13⟩ := idx3 t
  funext a; apply Fin.ext
  match a with
    | ⟨0, _⟩ => show win3_1.index t (0 : Fin 2) * 512 + 1 * (y 0).val = (y 0).val; omega
    | ⟨1, _⟩ => show win3_1.index t (1 : Fin 2) * 512 + 1 * (y 1).val = (y 1).val; omega

/-- Window 2's block is its whole array at every point. -/
theorem iblk3_2 (c : Dev nD) (t : Fin cfg3.N) : iblk3 V c 2 t = V c main_v162 := by
  funext y
  show V c main_v162 (((cfg3.win 2).blk t).view.emb y) = V c main_v162 y
  refine congrArg _ ?_
  obtain ⟨e0, e1, e2, e3, e4, e5, e6, e7, e8, e9, e10, e11, e12, e13⟩ := idx3 t
  funext a; apply Fin.ext
  match a with
    | ⟨0, _⟩ => show win3_2.index t (0 : Fin 1) * 512 + 1 * (y 0).val = (y 0).val; omega

/-- Window 3's block is its whole array at every point. -/
theorem iblk3_3 (c : Dev nD) (t : Fin cfg3.N) : iblk3 V c 3 t = V c main_v164 := by
  funext y
  show V c main_v164 (((cfg3.win 3).blk t).view.emb y) = V c main_v164 y
  refine congrArg _ ?_
  obtain ⟨e0, e1, e2, e3, e4, e5, e6, e7, e8, e9, e10, e11, e12, e13⟩ := idx3 t
  funext a; apply Fin.ext
  match a with
    | ⟨0, _⟩ => show win3_3.index t (0 : Fin 2) * 512 + 1 * (y 0).val = (y 0).val; omega
    | ⟨1, _⟩ => show win3_3.index t (1 : Fin 2) * 512 + 1 * (y 1).val = (y 1).val; omega

/-- Window 4's block is its whole array at every point. -/
theorem iblk3_4 (c : Dev nD) (t : Fin cfg3.N) : iblk3 V c 4 t = V c main_v166 := by
  funext y
  show V c main_v166 (((cfg3.win 4).blk t).view.emb y) = V c main_v166 y
  refine congrArg _ ?_
  obtain ⟨e0, e1, e2, e3, e4, e5, e6, e7, e8, e9, e10, e11, e12, e13⟩ := idx3 t
  funext a; apply Fin.ext
  match a with
    | ⟨0, _⟩ => show win3_4.index t (0 : Fin 1) * 512 + 1 * (y 0).val = (y 0).val; omega

/-- Window 5's block is its whole array at every point. -/
theorem iblk3_5 (c : Dev nD) (t : Fin cfg3.N) : iblk3 V c 5 t = V c main_v168 := by
  funext y
  show V c main_v168 (((cfg3.win 5).blk t).view.emb y) = V c main_v168 y
  refine congrArg _ ?_
  obtain ⟨e0, e1, e2, e3, e4, e5, e6, e7, e8, e9, e10, e11, e12, e13⟩ := idx3 t
  funext a; apply Fin.ext
  match a with
    | ⟨0, _⟩ => show win3_5.index t (0 : Fin 1) * 512 + 1 * (y 0).val = (y 0).val; omega

/-- Window 6's block is its whole array at every point. -/
theorem iblk3_6 (c : Dev nD) (t : Fin cfg3.N) : iblk3 V c 6 t = V c main_v170 := by
  funext y
  show V c main_v170 (((cfg3.win 6).blk t).view.emb y) = V c main_v170 y
  refine congrArg _ ?_
  obtain ⟨e0, e1, e2, e3, e4, e5, e6, e7, e8, e9, e10, e11, e12, e13⟩ := idx3 t
  funext a; apply Fin.ext
  match a with
    | ⟨0, _⟩ => show win3_6.index t (0 : Fin 1) * 512 + 1 * (y 0).val = (y 0).val; omega

/-- Window 7's block is its whole array at every point. -/
theorem iblk3_7 (c : Dev nD) (t : Fin cfg3.N) : iblk3 V c 7 t = V c main_v172 := by
  funext y
  show V c main_v172 (((cfg3.win 7).blk t).view.emb y) = V c main_v172 y
  refine congrArg _ ?_
  obtain ⟨e0, e1, e2, e3, e4, e5, e6, e7, e8, e9, e10, e11, e12, e13⟩ := idx3 t
  funext a; apply Fin.ext
  match a with
    | ⟨0, _⟩ => show win3_7.index t (0 : Fin 1) * 512 + 1 * (y 0).val = (y 0).val; omega

/-- Window 8's block is its whole array at every point. -/
theorem iblk3_8 (c : Dev nD) (t : Fin cfg3.N) : iblk3 V c 8 t = V c main_v174 := by
  funext y
  show V c main_v174 (((cfg3.win 8).blk t).view.emb y) = V c main_v174 y
  refine congrArg _ ?_
  obtain ⟨e0, e1, e2, e3, e4, e5, e6, e7, e8, e9, e10, e11, e12, e13⟩ := idx3 t
  funext a; apply Fin.ext
  match a with
    | ⟨0, _⟩ => show win3_8.index t (0 : Fin 1) * 512 + 1 * (y 0).val = (y 0).val; omega

/-- Row `r` of the first window's block at point `t` is row `1000 t + r` of its array. -/
theorem iblk3_0 (c : Dev nD) (t : Fin cfg3.N) (r : Fin 1000) (k : Fin 512) (hr : t.val * 1000 + r.val < 50000) :
    iblk3 V c 0 t (ix2 r k) = V c main_v158 (ix2 ⟨t.val * 1000 + r.val, hr⟩ k) := by
  show V c main_v158 (((cfg3.win 0).blk t).view.emb (ix2 r k)) = V c main_v158 (ix2 ⟨t.val * 1000 + r.val, hr⟩ k)
  refine congrArg _ ?_
  obtain ⟨e0, e1, e2, e3, e4, e5, e6, e7, e8, e9, e10, e11, e12, e13⟩ := idx3 t
  funext a; apply Fin.ext
  match a with
  | ⟨0, _⟩ => show win3_0.index t (0 : Fin 2) * 1000 + 1 * r.val = t.val * 1000 + r.val; omega
  | ⟨1, _⟩ => show win3_0.index t (1 : Fin 2) * 512 + 1 * k.val = k.val; omega

/-- What point `t` writes back is block `t` of the layer's update of the whole arrays, given that the body computes the
    update of its blocks. -/
theorem flushed3
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out3_9 (F := Ideal) x0 x1 x2 x3 x4 x5 x6 x7 x8 = Spec.layer x0 x1 x2 x3 x4 x5 x6 x7 x8)
    (c : Dev nD) (t : Fin cfg3.N) :
    (dat3 (F := Ideal) V c).flushed 9 t
      = ((cfg3.win 9).blk t).view.read (Elt Ideal) (Spec.layer (M := 50000) (V c main_v158) (V c main_v160) (V c main_v162) (V c main_v164) (V c main_v166) (V c main_v168) (V c main_v170) (V c main_v172) (V c main_v174)) := by
  show (cfg3.win 9).cut (grid3.coords t) ((dat3 (F := Ideal) V c).after 9 t) = _
  rw [after3_9, hbody, iblk3_1, iblk3_2, iblk3_3, iblk3_4, iblk3_5, iblk3_6, iblk3_7, iblk3_8]
  funext y
  obtain ⟨r, q, rfl⟩ : ∃ (r : Fin 1000) (q : Fin 512), y = ix2 r q := ⟨y 0, y 1, eq_ix2 y⟩
  have ht : t.val < 50 := Nat.lt_of_lt_of_eq t.isLt N_3
  have hr : t.val * 1000 + r.val < 50000 := by have := r.isLt; omega
  obtain ⟨e0, e1, e2, e3, e4, e5, e6, e7, e8, e9, e10, e11, e12, e13⟩ := idx3 t
  have hemb : ((cfg3.win 9).blk t).view.emb (ix2 r q) = (ix2 ⟨t.val * 1000 + r.val, hr⟩ q : S50000x512.Idx) := by
    funext a; apply Fin.ext
    match a with
    | ⟨0, _⟩ => show win3_9.index t (0 : Fin 2) * 1000 + 1 * r.val = t.val * 1000 + r.val; omega
    | ⟨1, _⟩ => show win3_9.index t (1 : Fin 2) * 512 + 1 * q.val = q.val; omega
  show Spec.layer (iblk3 V c 0 t) (V c main_v160) (V c main_v162) (V c main_v164) (V c main_v166) (V c main_v168) (V c main_v170) (V c main_v172) (V c main_v174) (ix2 r q)
      = Spec.layer (M := 50000) (V c main_v158) (V c main_v160) (V c main_v162) (V c main_v164) (V c main_v166) (V c main_v168) (V c main_v170) (V c main_v172) (V c main_v174) (((cfg3.win 9).blk t).view.emb (ix2 r q))
  rw [hemb]
  exact Spec.layer_rows (M := 50000) (M' := 1000) (V c main_v158) (iblk3 V c 0 t) (V c main_v160) (V c main_v162) (V c main_v164) (V c main_v166) (V c main_v168) (V c main_v170) (V c main_v172) (V c main_v174)
    ⟨t.val * 1000 + r.val, hr⟩ r (fun k => iblk3_0 V c t r k hr) q

/-- An index of the output array is in point `t`'s block iff each coordinate is in the block's range on its axis. -/
theorem mem_blk3 (t : Fin cfg3.N) (i : S50000x512.Idx) :
    i ∈ ((cfg3.win 9).blk t).view.set ↔ ∀ a : Fin 2, win3_9.index t a * S1000x512.size a ≤ (i a).val ∧ (i a).val < win3_9.index t a * S1000x512.size a + S1000x512.size a := by
  show i ∈ ((View.whole main_v175).slice (win3_9.rect t)).set ↔ _
  rw [View.set_slice_whole, Rect.mem_set_unit]
  exact Iff.rfl

/-- Row `r` of the output lies in the block of point `r / 1000`. -/
theorem cover3 (i : S50000x512.Idx) : ∃ t : Fin cfg3.N, (cfg3.win 9).flush t = true ∧ i ∈ ((cfg3.win 9).blk t).view.set := by
  have hi0 : (i 0).val < 50000 := (i 0).isLt
  have hi1 : (i 1).val < 512 := (i 1).isLt
  have hN : cfg3.N = 50 := N_3
  refine ⟨⟨(i 0).val / 1000, by rw [hN]; omega⟩, flush3_9 _, ?_⟩
  rw [mem_blk3]
  obtain ⟨e0, e1, e2, e3, e4, e5, e6, e7, e8, e9, e10, e11, e12, e13⟩ := idx3 ⟨(i 0).val / 1000, by rw [hN]; omega⟩
  intro a
  match a with
  | ⟨0, _⟩ => show win3_9.index ⟨(i 0).val / 1000, _⟩ (0 : Fin 2) * 1000 ≤ (i 0).val ∧ (i 0).val < win3_9.index ⟨(i 0).val / 1000, _⟩ (0 : Fin 2) * 1000 + 1000; rw [e0]; show (i 0).val / 1000 * 1000 ≤ (i 0).val ∧ (i 0).val < (i 0).val / 1000 * 1000 + 1000; omega
  | ⟨1, _⟩ => show win3_9.index ⟨(i 0).val / 1000, _⟩ (1 : Fin 2) * 512 ≤ (i 1).val ∧ (i 1).val < win3_9.index ⟨(i 0).val / 1000, _⟩ (1 : Fin 2) * 512 + 512; rw [e1]; omega

/-- THE OUTPUT ARRAY when the region ends: the layer's update of the arrays the region found. -/
theorem region3
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out3_9 (F := Ideal) x0 x1 x2 x3 x4 x5 x6 x7 x8 = Spec.layer x0 x1 x2 x3 x4 x5 x6 x7 x8)
    (c : Dev nD) :
    (dat3 (F := Ideal) V c).arrAt 9 cfg3.N = Spec.layer (M := 50000) (V c main_v158) (V c main_v160) (V c main_v162) (V c main_v164) (V c main_v166) (V c main_v168) (V c main_v170) (V c main_v172) (V c main_v174) :=
  (dat3 (F := Ideal) V c).arrAt_eq_of_cover 9 _ (fun t _ => flushed3 V hbody c t) (cover3)

end Cert.KerSide

end
-- ==== Proof.KRegion4.lean ====
/-
  Region 4 of the idealized kernel program: what its output array holds when the region ends.

  The region cuts the 50000 rows of the aggregated features into 50 blocks of 1000 rows, one per grid point, keeps the
  weights whole at every point, and writes back the layer's update of each block. An entry of the update depends on
  one row of the aggregated features, so the blocks written back are the blocks of the update of the whole array, and
  they tile the output: the output array ends holding the update of the whole input array.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps over the grid: the first window and the output move one block of rows per point, every
    other window stays on its whole array. -/
theorem idx4 : ∀ t : Fin cfg4.N, win4_9.index t (0 : Fin 2) = t.val
    ∧ win4_9.index t (1 : Fin 2) = 0
    ∧ win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 1) = 0
    ∧ win4_6.index t (0 : Fin 1) = 0
    ∧ win4_7.index t (0 : Fin 1) = 0
    ∧ win4_8.index t (0 : Fin 1) = 0 :=
  (by decide +kernel : ∀ t : Fin grid4.N, _)

/-- Window 1's block is its whole array at every point. -/
theorem iblk4_1 (c : Dev nD) (t : Fin cfg4.N) : iblk4 V c 1 t = V c main_v209 := by
  funext y
  show V c main_v209 (((cfg4.win 1).blk t).view.emb y) = V c main_v209 y
  refine congrArg _ ?_
  obtain ⟨e0, e1, e2, e3, e4, e5, e6, e7, e8, e9, e10, e11, e12, e13⟩ := idx4 t
  funext a; apply Fin.ext
  match a with
    | ⟨0, _⟩ => show win4_1.index t (0 : Fin 2) * 512 + 1 * (y 0).val = (y 0).val; omega
    | ⟨1, _⟩ => show win4_1.index t (1 : Fin 2) * 512 + 1 * (y 1).val = (y 1).val; omega

/-- Window 2's block is its whole array at every point. -/
theorem iblk4_2 (c : Dev nD) (t : Fin cfg4.N) : iblk4 V c 2 t = V c main_v211 := by
  funext y
  show V c main_v211 (((cfg4.win 2).blk t).view.emb y) = V c main_v211 y
  refine congrArg _ ?_
  obtain ⟨e0, e1, e2, e3, e4, e5, e6, e7, e8, e9, e10, e11, e12, e13⟩ := idx4 t
  funext a; apply Fin.ext
  match a with
    | ⟨0, _⟩ => show win4_2.index t (0 : Fin 1) * 512 + 1 * (y 0).val = (y 0).val; omega

/-- Window 3's block is its whole array at every point. -/
theorem iblk4_3 (c : Dev nD) (t : Fin cfg4.N) : iblk4 V c 3 t = V c main_v213 := by
  funext y
  show V c main_v213 (((cfg4.win 3).blk t).view.emb y) = V c main_v213 y
  refine congrArg _ ?_
  obtain ⟨e0, e1, e2, e3, e4, e5, e6, e7, e8, e9, e10, e11, e12, e13⟩ := idx4 t
  funext a; apply Fin.ext
  match a with
    | ⟨0, _⟩ => show win4_3.index t (0 : Fin 2) * 512 + 1 * (y 0).val = (y 0).val; omega
    | ⟨1, _⟩ => show win4_3.index t (1 : Fin 2) * 512 + 1 * (y 1).val = (y 1).val; omega

/-- Window 4's block is its whole array at every point. -/
theorem iblk4_4 (c : Dev nD) (t : Fin cfg4.N) : iblk4 V c 4 t = V c main_v215 := by
  funext y
  show V c main_v215 (((cfg4.win 4).blk t).view.emb y) = V c main_v215 y
  refine congrArg _ ?_
  obtain ⟨e0, e1, e2, e3, e4, e5, e6, e7, e8, e9, e10, e11, e12, e13⟩ := idx4 t
  funext a; apply Fin.ext
  match a with
    | ⟨0, _⟩ => show win4_4.index t (0 : Fin 1) * 512 + 1 * (y 0).val = (y 0).val; omega

/-- Window 5's block is its whole array at every point. -/
theorem iblk4_5 (c : Dev nD) (t : Fin cfg4.N) : iblk4 V c 5 t = V c main_v217 := by
  funext y
  show V c main_v217 (((cfg4.win 5).blk t).view.emb y) = V c main_v217 y
  refine congrArg _ ?_
  obtain ⟨e0, e1, e2, e3, e4, e5, e6, e7, e8, e9, e10, e11, e12, e13⟩ := idx4 t
  funext a; apply Fin.ext
  match a with
    | ⟨0, _⟩ => show win4_5.index t (0 : Fin 1) * 512 + 1 * (y 0).val = (y 0).val; omega

/-- Window 6's block is its whole array at every point. -/
theorem iblk4_6 (c : Dev nD) (t : Fin cfg4.N) : iblk4 V c 6 t = V c main_v219 := by
  funext y
  show V c main_v219 (((cfg4.win 6).blk t).view.emb y) = V c main_v219 y
  refine congrArg _ ?_
  obtain ⟨e0, e1, e2, e3, e4, e5, e6, e7, e8, e9, e10, e11, e12, e13⟩ := idx4 t
  funext a; apply Fin.ext
  match a with
    | ⟨0, _⟩ => show win4_6.index t (0 : Fin 1) * 512 + 1 * (y 0).val = (y 0).val; omega

/-- Window 7's block is its whole array at every point. -/
theorem iblk4_7 (c : Dev nD) (t : Fin cfg4.N) : iblk4 V c 7 t = V c main_v221 := by
  funext y
  show V c main_v221 (((cfg4.win 7).blk t).view.emb y) = V c main_v221 y
  refine congrArg _ ?_
  obtain ⟨e0, e1, e2, e3, e4, e5, e6, e7, e8, e9, e10, e11, e12, e13⟩ := idx4 t
  funext a; apply Fin.ext
  match a with
    | ⟨0, _⟩ => show win4_7.index t (0 : Fin 1) * 512 + 1 * (y 0).val = (y 0).val; omega

/-- Window 8's block is its whole array at every point. -/
theorem iblk4_8 (c : Dev nD) (t : Fin cfg4.N) : iblk4 V c 8 t = V c main_v223 := by
  funext y
  show V c main_v223 (((cfg4.win 8).blk t).view.emb y) = V c main_v223 y
  refine congrArg _ ?_
  obtain ⟨e0, e1, e2, e3, e4, e5, e6, e7, e8, e9, e10, e11, e12, e13⟩ := idx4 t
  funext a; apply Fin.ext
  match a with
    | ⟨0, _⟩ => show win4_8.index t (0 : Fin 1) * 512 + 1 * (y 0).val = (y 0).val; omega

/-- Row `r` of the first window's block at point `t` is row `1000 t + r` of its array. -/
theorem iblk4_0 (c : Dev nD) (t : Fin cfg4.N) (r : Fin 1000) (k : Fin 512) (hr : t.val * 1000 + r.val < 50000) :
    iblk4 V c 0 t (ix2 r k) = V c main_v207 (ix2 ⟨t.val * 1000 + r.val, hr⟩ k) := by
  show V c main_v207 (((cfg4.win 0).blk t).view.emb (ix2 r k)) = V c main_v207 (ix2 ⟨t.val * 1000 + r.val, hr⟩ k)
  refine congrArg _ ?_
  obtain ⟨e0, e1, e2, e3, e4, e5, e6, e7, e8, e9, e10, e11, e12, e13⟩ := idx4 t
  funext a; apply Fin.ext
  match a with
  | ⟨0, _⟩ => show win4_0.index t (0 : Fin 2) * 1000 + 1 * r.val = t.val * 1000 + r.val; omega
  | ⟨1, _⟩ => show win4_0.index t (1 : Fin 2) * 512 + 1 * k.val = k.val; omega

/-- What point `t` writes back is block `t` of the layer's update of the whole arrays, given that the body computes the
    update of its blocks. -/
theorem flushed4
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out4_9 (F := Ideal) x0 x1 x2 x3 x4 x5 x6 x7 x8 = Spec.layer x0 x1 x2 x3 x4 x5 x6 x7 x8)
    (c : Dev nD) (t : Fin cfg4.N) :
    (dat4 (F := Ideal) V c).flushed 9 t
      = ((cfg4.win 9).blk t).view.read (Elt Ideal) (Spec.layer (M := 50000) (V c main_v207) (V c main_v209) (V c main_v211) (V c main_v213) (V c main_v215) (V c main_v217) (V c main_v219) (V c main_v221) (V c main_v223)) := by
  show (cfg4.win 9).cut (grid4.coords t) ((dat4 (F := Ideal) V c).after 9 t) = _
  rw [after4_9, hbody, iblk4_1, iblk4_2, iblk4_3, iblk4_4, iblk4_5, iblk4_6, iblk4_7, iblk4_8]
  funext y
  obtain ⟨r, q, rfl⟩ : ∃ (r : Fin 1000) (q : Fin 512), y = ix2 r q := ⟨y 0, y 1, eq_ix2 y⟩
  have ht : t.val < 50 := Nat.lt_of_lt_of_eq t.isLt N_4
  have hr : t.val * 1000 + r.val < 50000 := by have := r.isLt; omega
  obtain ⟨e0, e1, e2, e3, e4, e5, e6, e7, e8, e9, e10, e11, e12, e13⟩ := idx4 t
  have hemb : ((cfg4.win 9).blk t).view.emb (ix2 r q) = (ix2 ⟨t.val * 1000 + r.val, hr⟩ q : S50000x512.Idx) := by
    funext a; apply Fin.ext
    match a with
    | ⟨0, _⟩ => show win4_9.index t (0 : Fin 2) * 1000 + 1 * r.val = t.val * 1000 + r.val; omega
    | ⟨1, _⟩ => show win4_9.index t (1 : Fin 2) * 512 + 1 * q.val = q.val; omega
  show Spec.layer (iblk4 V c 0 t) (V c main_v209) (V c main_v211) (V c main_v213) (V c main_v215) (V c main_v217) (V c main_v219) (V c main_v221) (V c main_v223) (ix2 r q)
      = Spec.layer (M := 50000) (V c main_v207) (V c main_v209) (V c main_v211) (V c main_v213) (V c main_v215) (V c main_v217) (V c main_v219) (V c main_v221) (V c main_v223) (((cfg4.win 9).blk t).view.emb (ix2 r q))
  rw [hemb]
  exact Spec.layer_rows (M := 50000) (M' := 1000) (V c main_v207) (iblk4 V c 0 t) (V c main_v209) (V c main_v211) (V c main_v213) (V c main_v215) (V c main_v217) (V c main_v219) (V c main_v221) (V c main_v223)
    ⟨t.val * 1000 + r.val, hr⟩ r (fun k => iblk4_0 V c t r k hr) q

/-- An index of the output array is in point `t`'s block iff each coordinate is in the block's range on its axis. -/
theorem mem_blk4 (t : Fin cfg4.N) (i : S50000x512.Idx) :
    i ∈ ((cfg4.win 9).blk t).view.set ↔ ∀ a : Fin 2, win4_9.index t a * S1000x512.size a ≤ (i a).val ∧ (i a).val < win4_9.index t a * S1000x512.size a + S1000x512.size a := by
  show i ∈ ((View.whole main_v224).slice (win4_9.rect t)).set ↔ _
  rw [View.set_slice_whole, Rect.mem_set_unit]
  exact Iff.rfl

/-- Row `r` of the output lies in the block of point `r / 1000`. -/
theorem cover4 (i : S50000x512.Idx) : ∃ t : Fin cfg4.N, (cfg4.win 9).flush t = true ∧ i ∈ ((cfg4.win 9).blk t).view.set := by
  have hi0 : (i 0).val < 50000 := (i 0).isLt
  have hi1 : (i 1).val < 512 := (i 1).isLt
  have hN : cfg4.N = 50 := N_4
  refine ⟨⟨(i 0).val / 1000, by rw [hN]; omega⟩, flush4_9 _, ?_⟩
  rw [mem_blk4]
  obtain ⟨e0, e1, e2, e3, e4, e5, e6, e7, e8, e9, e10, e11, e12, e13⟩ := idx4 ⟨(i 0).val / 1000, by rw [hN]; omega⟩
  intro a
  match a with
  | ⟨0, _⟩ => show win4_9.index ⟨(i 0).val / 1000, _⟩ (0 : Fin 2) * 1000 ≤ (i 0).val ∧ (i 0).val < win4_9.index ⟨(i 0).val / 1000, _⟩ (0 : Fin 2) * 1000 + 1000; rw [e0]; show (i 0).val / 1000 * 1000 ≤ (i 0).val ∧ (i 0).val < (i 0).val / 1000 * 1000 + 1000; omega
  | ⟨1, _⟩ => show win4_9.index ⟨(i 0).val / 1000, _⟩ (1 : Fin 2) * 512 ≤ (i 1).val ∧ (i 1).val < win4_9.index ⟨(i 0).val / 1000, _⟩ (1 : Fin 2) * 512 + 512; rw [e1]; omega

/-- THE OUTPUT ARRAY when the region ends: the layer's update of the arrays the region found. -/
theorem region4
    (hbody : ∀ (x0 : Vec Ideal S1000x512 .f32) (x1 : Vec Ideal S512x512 .f32) (x2 : Vec Ideal S512 .f32) (x3 : Vec Ideal S512x512 .f32) (x4 x5 x6 x7 x8 : Vec Ideal S512 .f32),
      out4_9 (F := Ideal) x0 x1 x2 x3 x4 x5 x6 x7 x8 = Spec.layer x0 x1 x2 x3 x4 x5 x6 x7 x8)
    (c : Dev nD) :
    (dat4 (F := Ideal) V c).arrAt 9 cfg4.N = Spec.layer (M := 50000) (V c main_v207) (V c main_v209) (V c main_v211) (V c main_v213) (V c main_v215) (V c main_v217) (V c main_v219) (V c main_v221) (V c main_v223) :=
  (dat4 (F := Ideal) V c).arrAt_eq_of_cover 9 _ (fun t _ => flushed4 V hbody c t) (cover4)

end Cert.KerSide

end
-- ==== Proof.KRegion5.lean ====
/-
  The last region of the idealized kernel program: what its output array holds when the region ends.

  The region has one grid point, and every window's block is its whole array: the pooled graph features, the head's
  stacked weights and biases, the last weights and bias. The body computes the head of its blocks, so the one block
  written back, which is the whole output array, is the head of the arrays the region found.
-/
import proofs.«174249_j54640573940143_1_alg».proof.Proof.Gen.KernelIdeal.Frame
import proofs.«174249_j54640573940143_1_alg».proof.Proof.Spec
import Idealize.ShloMosaic.Lib.Pipeline.Value
import Idealize.ShloMosaic.Lib.ValueIdx
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The printed block index maps at the grid's one point: every window stays on its whole array. -/
theorem idx5 : ∀ t : Fin cfg5.N, win5_0.index t (0 : Fin 2) = 0
    ∧ win5_0.index t (1 : Fin 2) = 0
    ∧ win5_1.index t (0 : Fin 3) = 0
    ∧ win5_1.index t (1 : Fin 3) = 0
    ∧ win5_1.index t (2 : Fin 3) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 1) = 0
    ∧ win5_5.index t (0 : Fin 2) = 0
    ∧ win5_5.index t (1 : Fin 2) = 0 :=
  (by decide +kernel : ∀ t : Fin grid5.N, _)

/-- Window 0's block is its whole array. -/
theorem iblk5_0 (c : Dev nD) (t : Fin cfg5.N) : iblk5 V c 0 t = V c main_v236 := by
  funext y
  show V c main_v236 (((cfg5.win 0).blk t).view.emb y) = V c main_v236 y
  refine congrArg _ ?_
  obtain ⟨e0, e1, e2, e3, e4, e5, e6, e7, e8, e9, e10, e11⟩ := idx5 t
  funext a; apply Fin.ext
  match a with
    | ⟨0, _⟩ => show win5_0.index t (0 : Fin 2) * 2048 + 1 * (y 0).val = (y 0).val; omega
    | ⟨1, _⟩ => show win5_0.index t (1 : Fin 2) * 512 + 1 * (y 1).val = (y 1).val; omega

/-- Window 1's block is its whole array. -/
theorem iblk5_1 (c : Dev nD) (t : Fin cfg5.N) : iblk5 V c 1 t = V c main_arg27 := by
  funext y
  show V c main_arg27 (((cfg5.win 1).blk t).view.emb y) = V c main_arg27 y
  refine congrArg _ ?_
  obtain ⟨e0, e1, e2, e3, e4, e5, e6, e7, e8, e9, e10, e11⟩ := idx5 t
  funext a; apply Fin.ext
  match a with
    | ⟨0, _⟩ => show win5_1.index t (0 : Fin 3) * 3 + 1 * (y 0).val = (y 0).val; omega
    | ⟨1, _⟩ => show win5_1.index t (1 : Fin 3) * 512 + 1 * (y 1).val = (y 1).val; omega
    | ⟨2, _⟩ => show win5_1.index t (2 : Fin 3) * 512 + 1 * (y 2).val = (y 2).val; omega

/-- Window 2's block is its whole array. -/
theorem iblk5_2 (c : Dev nD) (t : Fin cfg5.N) : iblk5 V c 2 t = V c main_arg28 := by
  funext y
  show V c main_arg28 (((cfg5.win 2).blk t).view.emb y) = V c main_arg28 y
  refine congrArg _ ?_
  obtain ⟨e0, e1, e2, e3, e4, e5, e6, e7, e8, e9, e10, e11⟩ := idx5 t
  funext a; apply Fin.ext
  match a with
    | ⟨0, _⟩ => show win5_2.index t (0 : Fin 2) * 3 + 1 * (y 0).val = (y 0).val; omega
    | ⟨1, _⟩ => show win5_2.index t (1 : Fin 2) * 512 + 1 * (y 1).val = (y 1).val; omega

/-- Window 3's block is its whole array. -/
theorem iblk5_3 (c : Dev nD) (t : Fin cfg5.N) : iblk5 V c 3 t = V c main_arg29 := by
  funext y
  show V c main_arg29 (((cfg5.win 3).blk t).view.emb y) = V c main_arg29 y
  refine congrArg _ ?_
  obtain ⟨e0, e1, e2, e3, e4, e5, e6, e7, e8, e9, e10, e11⟩ := idx5 t
  funext a; apply Fin.ext
  match a with
    | ⟨0, _⟩ => show win5_3.index t (0 : Fin 2) * 512 + 1 * (y 0).val = (y 0).val; omega
    | ⟨1, _⟩ => show win5_3.index t (1 : Fin 2) * 1 + 1 * (y 1).val = (y 1).val; omega

/-- Window 4's block is its whole array. -/
theorem iblk5_4 (c : Dev nD) (t : Fin cfg5.N) : iblk5 V c 4 t = V c main_arg30 := by
  funext y
  show V c main_arg30 (((cfg5.win 4).blk t).view.emb y) = V c main_arg30 y
  refine congrArg _ ?_
  obtain ⟨e0, e1, e2, e3, e4, e5, e6, e7, e8, e9, e10, e11⟩ := idx5 t
  funext a; apply Fin.ext
  match a with
    | ⟨0, _⟩ => show win5_4.index t (0 : Fin 1) * 1 + 1 * (y 0).val = (y 0).val; omega

/-- What the one point writes back is the head of the whole arrays, given that the body computes the head of its blocks. -/
theorem flushed5
    (hbody : ∀ (x0 : Vec Ideal S2048x512 .f32) (x1 : Vec Ideal S3x512x512 .f32) (x2 : Vec Ideal S3x512 .f32) (x3 : Vec Ideal S512x1 .f32) (x4 : Vec Ideal S1 .f32),
      out5_5 (F := Ideal) x0 x1 x2 x3 x4 = Spec.head x0 x1 x2 x3 x4)
    (c : Dev nD) (t : Fin cfg5.N) :
    (dat5 (F := Ideal) V c).flushed 5 t
      = ((cfg5.win 5).blk t).view.read (Elt Ideal) (Spec.head (G := 2048) (V c main_v236) (V c main_arg27) (V c main_arg28) (V c main_arg29) (V c main_arg30)) := by
  show (cfg5.win 5).cut (grid5.coords t) ((dat5 (F := Ideal) V c).after 5 t) = _
  rw [after5_5, hbody, iblk5_0, iblk5_1, iblk5_2, iblk5_3, iblk5_4]
  funext y
  show Spec.head (G := 2048) (V c main_v236) (V c main_arg27) (V c main_arg28) (V c main_arg29) (V c main_arg30) y = Spec.head (G := 2048) (V c main_v236) (V c main_arg27) (V c main_arg28) (V c main_arg29) (V c main_arg30) (((cfg5.win 5).blk t).view.emb y)
  refine congrArg _ ?_
  obtain ⟨e0, e1, e2, e3, e4, e5, e6, e7, e8, e9, e10, e11⟩ := idx5 t
  funext a; apply Fin.ext
  match a with
  | ⟨0, _⟩ => show (y 0).val = win5_5.index t (0 : Fin 2) * 2048 + 1 * (y 0).val; omega
  | ⟨1, _⟩ => show (y 1).val = win5_5.index t (1 : Fin 2) * 1 + 1 * (y 1).val; omega

/-- An index of the output array is in the point's block iff each coordinate is in the block's range on its axis. -/
theorem mem_blk5 (t : Fin cfg5.N) (i : S2048x1.Idx) :
    i ∈ ((cfg5.win 5).blk t).view.set ↔ ∀ a : Fin 2, win5_5.index t a * S2048x1.size a ≤ (i a).val ∧ (i a).val < win5_5.index t a * S2048x1.size a + S2048x1.size a := by
  show i ∈ ((View.whole main_v237).slice (win5_5.rect t)).set ↔ _
  rw [View.set_slice_whole, Rect.mem_set_unit]
  exact Iff.rfl

/-- The one block is the whole output array. -/
theorem cover5 (i : S2048x1.Idx) : ∃ t : Fin cfg5.N, (cfg5.win 5).flush t = true ∧ i ∈ ((cfg5.win 5).blk t).view.set := by
  have hi0 : (i 0).val < 2048 := (i 0).isLt
  have hi1 : (i 1).val < 1 := (i 1).isLt
  refine ⟨t5_0, flush5_5 _, ?_⟩
  rw [mem_blk5]
  obtain ⟨e0, e1, e2, e3, e4, e5, e6, e7, e8, e9, e10, e11⟩ := idx5 t5_0
  intro a
  match a with
  | ⟨0, _⟩ => show win5_5.index t5_0 (0 : Fin 2) * 2048 ≤ (i 0).val ∧ (i 0).val < win5_5.index t5_0 (0 : Fin 2) * 2048 + 2048; omega
  | ⟨1, _⟩ => show win5_5.index t5_0 (1 : Fin 2) * 1 ≤ (i 1).val ∧ (i 1).val < win5_5.index t5_0 (1 : Fin 2) * 1 + 1; omega

/-- THE OUTPUT ARRAY when the region ends: the head of the arrays the region found. -/
theorem region5
    (hbody : ∀ (x0 : Vec Ideal S2048x512 .f32) (x1 : Vec Ideal S3x512x512 .f32) (x2 : Vec Ideal S3x512 .f32) (x3 : Vec Ideal S512x1 .f32) (x4 : Vec Ideal S1 .f32),
      out5_5 (F := Ideal) x0 x1 x2 x3 x4 = Spec.head x0 x1 x2 x3 x4)
    (c : Dev nD) :
    (dat5 (F := Ideal) V c).arrAt 5 cfg5.N = Spec.head (G := 2048) (V c main_v236) (V c main_arg27) (V c main_arg28) (V c main_arg29) (V c main_arg30) :=
  (dat5 (F := Ideal) V c).arrAt_eq_of_cover 5 _ (fun t _ => flushed5 V hbody c t) (cover5)

end Cert.KerSide

end
-- ==== Proof.KPassive.lean ====
/-
  Buffers the program never writes, read at every boundary of its run.

  The run's buffer contents are a fold: a host stretch applies its operations to the contents before it, a region
  replaces its own arrays and keeps every other buffer. A buffer that no operation of a stretch writes and that is no
  array of a region therefore holds at every boundary what it held at the first one. The graph's source and target
  node lists are computed once, in the first stretch, and never again: from the first region's entry on they are such
  buffers too.
-/
import proofs.«174249_j54640573940143_1_alg».proof.Proof.Gen.KernelIdeal.Frame

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The reference `b` is no result of the line `ops`. -/
abbrev Unwritten (ops : List (HloOp τ sig (Elt F))) (b : Ref sig .tc) : Prop :=
  ∀ op ∈ ops, (Proc.devRef .tc b : DevRef τ sig) ∉ op.writes

/-- A buffer's contents at each of the eleven later boundaries equal its contents at the launch. -/
structure Kept (b : Ref sig .tc) (c : Dev nD) : Prop where
  w1 : W1 m ρ c (Proc.devRef .tc b) = W0 m ρ c (Proc.devRef .tc b)
  w2 : W2 m ρ c (Proc.devRef .tc b) = W0 m ρ c (Proc.devRef .tc b)
  w3 : W3 m ρ c (Proc.devRef .tc b) = W0 m ρ c (Proc.devRef .tc b)
  w4 : W4 m ρ c (Proc.devRef .tc b) = W0 m ρ c (Proc.devRef .tc b)
  w5 : W5 m ρ c (Proc.devRef .tc b) = W0 m ρ c (Proc.devRef .tc b)
  w6 : W6 m ρ c (Proc.devRef .tc b) = W0 m ρ c (Proc.devRef .tc b)
  w7 : W7 m ρ c (Proc.devRef .tc b) = W0 m ρ c (Proc.devRef .tc b)
  w8 : W8 m ρ c (Proc.devRef .tc b) = W0 m ρ c (Proc.devRef .tc b)
  w9 : W9 m ρ c (Proc.devRef .tc b) = W0 m ρ c (Proc.devRef .tc b)
  w10 : W10 m ρ c (Proc.devRef .tc b) = W0 m ρ c (Proc.devRef .tc b)
  w11 : W11 m ρ c (Proc.devRef .tc b) = W0 m ρ c (Proc.devRef .tc b)

/-- A buffer that no stretch writes and no region owns keeps its launch contents throughout. -/
theorem kept (b : Ref sig .tc) (c : Dev nD)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b)
    (h0 : Unwritten (F := F) hostOps0 b) (h1 : Unwritten (F := F) hostOps1 b) (h2 : Unwritten (F := F) hostOps2 b)
    (h3 : Unwritten (F := F) hostOps3 b) (h4 : Unwritten (F := F) hostOps4 b) (h5 : Unwritten (F := F) hostOps5 b) :
    Kept m ρ b c := by
  have e1 : W1 m ρ c (Proc.devRef .tc b) = W0 m ρ c (Proc.devRef .tc b) := StableHlo.after_of_forall_not_mem _ _ h0
  have e2 : W2 m ρ c (Proc.devRef .tc b) = W0 m ρ c (Proc.devRef .tc b) := (W2_of_ne m ρ c b r0).trans e1
  have e3 : W3 m ρ c (Proc.devRef .tc b) = W0 m ρ c (Proc.devRef .tc b) := (StableHlo.after_of_forall_not_mem _ _ h1).trans e2
  have e4 : W4 m ρ c (Proc.devRef .tc b) = W0 m ρ c (Proc.devRef .tc b) := (W4_of_ne m ρ c b r1).trans e3
  have e5 : W5 m ρ c (Proc.devRef .tc b) = W0 m ρ c (Proc.devRef .tc b) := (StableHlo.after_of_forall_not_mem _ _ h2).trans e4
  have e6 : W6 m ρ c (Proc.devRef .tc b) = W0 m ρ c (Proc.devRef .tc b) := (W6_of_ne m ρ c b r2).trans e5
  have e7 : W7 m ρ c (Proc.devRef .tc b) = W0 m ρ c (Proc.devRef .tc b) := (StableHlo.after_of_forall_not_mem _ _ h3).trans e6
  have e8 : W8 m ρ c (Proc.devRef .tc b) = W0 m ρ c (Proc.devRef .tc b) := (W8_of_ne m ρ c b r3).trans e7
  have e9 : W9 m ρ c (Proc.devRef .tc b) = W0 m ρ c (Proc.devRef .tc b) := (StableHlo.after_of_forall_not_mem _ _ h4).trans e8
  have e10 : W10 m ρ c (Proc.devRef .tc b) = W0 m ρ c (Proc.devRef .tc b) := (W10_of_ne m ρ c b r4).trans e9
  have e11 : W11 m ρ c (Proc.devRef .tc b) = W0 m ρ c (Proc.devRef .tc b) := (StableHlo.after_of_forall_not_mem _ _ h5).trans e10
  exact ⟨e1, e2, e3, e4, e5, e6, e7, e8, e9, e10, e11⟩

/-- A buffer's contents at the boundaries from the first region's exit to the fifth region's entry equal its contents at
    the first region's entry. -/
structure KeptFrom1 (b : Ref sig .tc) (c : Dev nD) : Prop where
  w2 : W2 m ρ c (Proc.devRef .tc b) = W1 m ρ c (Proc.devRef .tc b)
  w4 : W4 m ρ c (Proc.devRef .tc b) = W1 m ρ c (Proc.devRef .tc b)
  w6 : W6 m ρ c (Proc.devRef .tc b) = W1 m ρ c (Proc.devRef .tc b)
  w8 : W8 m ρ c (Proc.devRef .tc b) = W1 m ρ c (Proc.devRef .tc b)

/-- A buffer written in the first stretch only, and owned by no region, keeps those contents up to the fifth region. -/
theorem keptFrom1 (b : Ref sig .tc) (c : Dev nD)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b)
    (h1 : Unwritten (F := F) hostOps1 b) (h2 : Unwritten (F := F) hostOps2 b) (h3 : Unwritten (F := F) hostOps3 b) :
    KeptFrom1 m ρ b c := by
  have e2 : W2 m ρ c (Proc.devRef .tc b) = W1 m ρ c (Proc.devRef .tc b) := W2_of_ne m ρ c b r0
  have e3 : W3 m ρ c (Proc.devRef .tc b) = W1 m ρ c (Proc.devRef .tc b) := (StableHlo.after_of_forall_not_mem _ _ h1).trans e2
  have e4 : W4 m ρ c (Proc.devRef .tc b) = W1 m ρ c (Proc.devRef .tc b) := (W4_of_ne m ρ c b r1).trans e3
  have e5 : W5 m ρ c (Proc.devRef .tc b) = W1 m ρ c (Proc.devRef .tc b) := (StableHlo.after_of_forall_not_mem _ _ h2).trans e4
  have e6 : W6 m ρ c (Proc.devRef .tc b) = W1 m ρ c (Proc.devRef .tc b) := (W6_of_ne m ρ c b r2).trans e5
  have e7 : W7 m ρ c (Proc.devRef .tc b) = W1 m ρ c (Proc.devRef .tc b) := (StableHlo.after_of_forall_not_mem _ _ h3).trans e6
  have e8 : W8 m ρ c (Proc.devRef .tc b) = W1 m ρ c (Proc.devRef .tc b) := (W8_of_ne m ρ c b r3).trans e7
  exact ⟨e2, e4, e6, e8⟩

/-- The line `ops` does not write the reference: each operation's one result is another reference. -/
macro "unwritten" ops:ident : term => `(List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

end Cert.KerSide

end
-- ==== Proof.KStretch0.lean ====
/-
  The first host stretch of the idealized kernel program, read against the reference program's stages.

  Before its first region the program normalises the node features column by column, gathers the normalised rows at
  the edges' source nodes, sums them into the edges' target nodes and adds the normalised features themselves: the
  same operations, on the same arguments, as the reference program's first twenty-eight. So the aggregated features
  the first region finds are the reference's aggregated features, and the source and target node lists are the
  reference's lists. The first region's weights are arguments, which the stretch does not touch.
-/
import proofs.«174249_j54640573940143_1_alg».proof.Proof.Gen.KernelIdeal.Frame
import proofs.«174249_j54640573940143_1_alg».proof.Proof.RefRead
import proofs.«174249_j54640573940143_1_alg».proof.Proof.KPassive

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The aggregated features the first region finds are the reference's. -/
theorem V1_agg : V1 m ρ c main_v27 = Cert.ReferenceIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps0 (W0 m ρ c) (Proc.devRef .tc main_v27) = _
  after_results_simp
  try rfl

/-- The edges' source nodes, as computed once. -/
theorem W1_src : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  try rfl

/-- The edges' target nodes, as computed once. -/
theorem W1_dst : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  try rfl

/-- The first region finds argument 7 as launched. -/
theorem V1_arg7 : V1 m ρ c main_arg7 = (m ((c : Thread nD τ).loc main_arg7)) := by
  show StableHlo.after hostOps0 (W0 m ρ c) (Proc.devRef .tc main_arg7) = _
  after_results_simp
  try rfl

/-- The first region finds argument 8 as launched. -/
theorem V1_arg8 : V1 m ρ c main_arg8 = (m ((c : Thread nD τ).loc main_arg8)) := by
  show StableHlo.after hostOps0 (W0 m ρ c) (Proc.devRef .tc main_arg8) = _
  after_results_simp
  try rfl

/-- The first region finds argument 9 as launched. -/
theorem V1_arg9 : V1 m ρ c main_arg9 = (m ((c : Thread nD τ).loc main_arg9)) := by
  show StableHlo.after hostOps0 (W0 m ρ c) (Proc.devRef .tc main_arg9) = _
  after_results_simp
  try rfl

/-- The first region finds argument 10 as launched. -/
theorem V1_arg10 : V1 m ρ c main_arg10 = (m ((c : Thread nD τ).loc main_arg10)) := by
  show StableHlo.after hostOps0 (W0 m ρ c) (Proc.devRef .tc main_arg10) = _
  after_results_simp
  try rfl

/-- The first region finds argument 11 as launched. -/
theorem V1_arg11 : V1 m ρ c main_arg11 = (m ((c : Thread nD τ).loc main_arg11)) := by
  show StableHlo.after hostOps0 (W0 m ρ c) (Proc.devRef .tc main_arg11) = _
  after_results_simp
  try rfl

/-- The first region finds argument 12 as launched. -/
theorem V1_arg12 : V1 m ρ c main_arg12 = (m ((c : Thread nD τ).loc main_arg12)) := by
  show StableHlo.after hostOps0 (W0 m ρ c) (Proc.devRef .tc main_arg12) = _
  after_results_simp
  try rfl

/-- The first region finds argument 13 as launched. -/
theorem V1_arg13 : V1 m ρ c main_arg13 = (m ((c : Thread nD τ).loc main_arg13)) := by
  show StableHlo.after hostOps0 (W0 m ρ c) (Proc.devRef .tc main_arg13) = _
  after_results_simp
  try rfl

/-- The first region finds argument 14 as launched. -/
theorem V1_arg14 : V1 m ρ c main_arg14 = (m ((c : Thread nD τ).loc main_arg14)) := by
  show StableHlo.after hostOps0 (W0 m ρ c) (Proc.devRef .tc main_arg14) = _
  after_results_simp
  try rfl

end Cert.KerSide

end
-- ==== Proof.KKeptA.lean ====
/-
  Arguments the idealized kernel program reads late in its run hold their launch contents when it reads them: no host
  operation writes an argument, and these are arrays of no region before the one that reads them.
-/
import proofs.«174249_j54640573940143_1_alg».proof.Proof.Gen.KernelIdeal.Frame
import proofs.«174249_j54640573940143_1_alg».proof.Proof.KPassive
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem kept_arg2 (c : Dev nD) : Kept m ρ main_arg2 c :=
  kept m ρ main_arg2 c (by decide) (by decide) (by decide) (by decide) (by decide)
    (unwritten hostOps0) (unwritten hostOps1) (unwritten hostOps2) (unwritten hostOps3) (unwritten hostOps4) (unwritten hostOps5)

theorem kept_arg15 (c : Dev nD) : Kept m ρ main_arg15 c :=
  kept m ρ main_arg15 c (by decide) (by decide) (by decide) (by decide) (by decide)
    (unwritten hostOps0) (unwritten hostOps1) (unwritten hostOps2) (unwritten hostOps3) (unwritten hostOps4) (unwritten hostOps5)

theorem kept_arg16 (c : Dev nD) : Kept m ρ main_arg16 c :=
  kept m ρ main_arg16 c (by decide) (by decide) (by decide) (by decide) (by decide)
    (unwritten hostOps0) (unwritten hostOps1) (unwritten hostOps2) (unwritten hostOps3) (unwritten hostOps4) (unwritten hostOps5)

theorem kept_arg17 (c : Dev nD) : Kept m ρ main_arg17 c :=
  kept m ρ main_arg17 c (by decide) (by decide) (by decide) (by decide) (by decide)
    (unwritten hostOps0) (unwritten hostOps1) (unwritten hostOps2) (unwritten hostOps3) (unwritten hostOps4) (unwritten hostOps5)

theorem kept_arg18 (c : Dev nD) : Kept m ρ main_arg18 c :=
  kept m ρ main_arg18 c (by decide) (by decide) (by decide) (by decide) (by decide)
    (unwritten hostOps0) (unwritten hostOps1) (unwritten hostOps2) (unwritten hostOps3) (unwritten hostOps4) (unwritten hostOps5)

theorem kept_arg19 (c : Dev nD) : Kept m ρ main_arg19 c :=
  kept m ρ main_arg19 c (by decide) (by decide) (by decide) (by decide) (by decide)
    (unwritten hostOps0) (unwritten hostOps1) (unwritten hostOps2) (unwritten hostOps3) (unwritten hostOps4) (unwritten hostOps5)

theorem kept_arg20 (c : Dev nD) : Kept m ρ main_arg20 c :=
  kept m ρ main_arg20 c (by decide) (by decide) (by decide) (by decide) (by decide)
    (unwritten hostOps0) (unwritten hostOps1) (unwritten hostOps2) (unwritten hostOps3) (unwritten hostOps4) (unwritten hostOps5)

end Cert.KerSide

end
-- ==== Proof.KKeptB.lean ====
/-
  Arguments the idealized kernel program reads late in its run hold their launch contents when it reads them: no host
  operation writes an argument, and these are arrays of no region before the one that reads them.
-/
import proofs.«174249_j54640573940143_1_alg».proof.Proof.Gen.KernelIdeal.Frame
import proofs.«174249_j54640573940143_1_alg».proof.Proof.KPassive
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem kept_arg21 (c : Dev nD) : Kept m ρ main_arg21 c :=
  kept m ρ main_arg21 c (by decide) (by decide) (by decide) (by decide) (by decide)
    (unwritten hostOps0) (unwritten hostOps1) (unwritten hostOps2) (unwritten hostOps3) (unwritten hostOps4) (unwritten hostOps5)

theorem kept_arg22 (c : Dev nD) : Kept m ρ main_arg22 c :=
  kept m ρ main_arg22 c (by decide) (by decide) (by decide) (by decide) (by decide)
    (unwritten hostOps0) (unwritten hostOps1) (unwritten hostOps2) (unwritten hostOps3) (unwritten hostOps4) (unwritten hostOps5)

theorem kept_arg23 (c : Dev nD) : Kept m ρ main_arg23 c :=
  kept m ρ main_arg23 c (by decide) (by decide) (by decide) (by decide) (by decide)
    (unwritten hostOps0) (unwritten hostOps1) (unwritten hostOps2) (unwritten hostOps3) (unwritten hostOps4) (unwritten hostOps5)

theorem kept_arg24 (c : Dev nD) : Kept m ρ main_arg24 c :=
  kept m ρ main_arg24 c (by decide) (by decide) (by decide) (by decide) (by decide)
    (unwritten hostOps0) (unwritten hostOps1) (unwritten hostOps2) (unwritten hostOps3) (unwritten hostOps4) (unwritten hostOps5)

theorem kept_arg25 (c : Dev nD) : Kept m ρ main_arg25 c :=
  kept m ρ main_arg25 c (by decide) (by decide) (by decide) (by decide) (by decide)
    (unwritten hostOps0) (unwritten hostOps1) (unwritten hostOps2) (unwritten hostOps3) (unwritten hostOps4) (unwritten hostOps5)

theorem kept_arg26 (c : Dev nD) : Kept m ρ main_arg26 c :=
  kept m ρ main_arg26 c (by decide) (by decide) (by decide) (by decide) (by decide)
    (unwritten hostOps0) (unwritten hostOps1) (unwritten hostOps2) (unwritten hostOps3) (unwritten hostOps4) (unwritten hostOps5)

end Cert.KerSide

end
-- ==== Proof.KKeptC.lean ====
/-
  Arguments the idealized kernel program reads late in its run hold their launch contents when it reads them: no host
  operation writes an argument, and these are arrays of no region before the one that reads them.
-/
import proofs.«174249_j54640573940143_1_alg».proof.Proof.Gen.KernelIdeal.Frame
import proofs.«174249_j54640573940143_1_alg».proof.Proof.KPassive
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem kept_arg27 (c : Dev nD) : Kept m ρ main_arg27 c :=
  kept m ρ main_arg27 c (by decide) (by decide) (by decide) (by decide) (by decide)
    (unwritten hostOps0) (unwritten hostOps1) (unwritten hostOps2) (unwritten hostOps3) (unwritten hostOps4) (unwritten hostOps5)

theorem kept_arg28 (c : Dev nD) : Kept m ρ main_arg28 c :=
  kept m ρ main_arg28 c (by decide) (by decide) (by decide) (by decide) (by decide)
    (unwritten hostOps0) (unwritten hostOps1) (unwritten hostOps2) (unwritten hostOps3) (unwritten hostOps4) (unwritten hostOps5)

theorem kept_arg29 (c : Dev nD) : Kept m ρ main_arg29 c :=
  kept m ρ main_arg29 c (by decide) (by decide) (by decide) (by decide) (by decide)
    (unwritten hostOps0) (unwritten hostOps1) (unwritten hostOps2) (unwritten hostOps3) (unwritten hostOps4) (unwritten hostOps5)

theorem kept_arg30 (c : Dev nD) : Kept m ρ main_arg30 c :=
  kept m ρ main_arg30 c (by decide) (by decide) (by decide) (by decide) (by decide)
    (unwritten hostOps0) (unwritten hostOps1) (unwritten hostOps2) (unwritten hostOps3) (unwritten hostOps4) (unwritten hostOps5)

/-- The edges' source nodes are computed in the first stretch and never written again. -/
theorem kept_src (c : Dev nD) : KeptFrom1 m ρ main_v1 c :=
  keptFrom1 m ρ main_v1 c (by decide) (by decide) (by decide) (by decide) (unwritten hostOps1) (unwritten hostOps2) (unwritten hostOps3)

/-- The edges' target nodes likewise. -/
theorem kept_dst (c : Dev nD) : KeptFrom1 m ρ main_v3 c :=
  keptFrom1 m ρ main_v3 c (by decide) (by decide) (by decide) (by decide) (unwritten hostOps1) (unwritten hostOps2) (unwritten hostOps3)

end Cert.KerSide

end
-- ==== Proof.KStretch1.lean ====
/-
  Host stretch 1 of the idealized kernel program, read against the reference program's stages.

  Between regions 0 and 1 the program takes row 0 of each stacked parameter, normalises the previous layer's features
  column by column, gathers the normalised rows at the edges' source nodes, sums them into the target nodes and adds
  the normalised features themselves: the reference program's operations of the same layer, on the same arguments and,
  once the previous layer's features are the reference's (the hypothesis), on the same features. So what region 1 finds
  in each of its arrays is the reference's stage of the same name.
-/
import proofs.«174249_j54640573940143_1_alg».proof.Proof.Gen.KernelIdeal.Frame
import proofs.«174249_j54640573940143_1_alg».proof.Proof.RefRead
import proofs.«174249_j54640573940143_1_alg».proof.Proof.KPassive
import proofs.«174249_j54640573940143_1_alg».proof.Proof.KKeptA
import proofs.«174249_j54640573940143_1_alg».proof.Proof.KKeptB
import proofs.«174249_j54640573940143_1_alg».proof.Proof.KKeptC
import proofs.«174249_j54640573940143_1_alg».proof.Proof.KStretch0
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The aggregated features region 1 finds are the reference's, when the previous layer's features are. -/
theorem V3_agg
    (hprev : W2 m ρ c (Proc.devRef .tc main_v28) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    V3 m ρ c main_v60 = Cert.ReferenceIdeal.Read.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps1 (W2 m ρ c) (Proc.devRef .tc main_v60) = _
  after_results_simp
  rw [hprev, (kept_src m ρ c).w2, W1_src, (kept_dst m ρ c).w2, W1_dst,
    (kept_arg15 m ρ c).w2, (kept_arg16 m ρ c).w2, (kept_arg17 m ρ c).w2, (kept_arg18 m ρ c).w2]
  try rfl

/-- Region 1 finds the first dense stage's weights: row 0 of the stack. -/
theorem V3_p1 : V3 m ρ c main_v62 = Cert.ReferenceIdeal.Read.val_main_v60 (F := Ideal) (m ((c : Thread nD τ).loc main_arg19)) := by
  show StableHlo.after hostOps1 (W2 m ρ c) (Proc.devRef .tc main_v62) = _
  after_results_simp
  rw [(kept_arg19 m ρ c).w2]
  try rfl

/-- Region 1 finds the first dense stage's bias: row 0 of the stack. -/
theorem V3_p2 : V3 m ρ c main_v64 = Cert.ReferenceIdeal.Read.val_main_v62 (F := Ideal) (m ((c : Thread nD τ).loc main_arg20)) := by
  show StableHlo.after hostOps1 (W2 m ρ c) (Proc.devRef .tc main_v64) = _
  after_results_simp
  rw [(kept_arg20 m ρ c).w2]
  try rfl

/-- Region 1 finds the second dense stage's weights: row 0 of the stack. -/
theorem V3_p3 : V3 m ρ c main_v66 = Cert.ReferenceIdeal.Read.val_main_v64 (F := Ideal) (m ((c : Thread nD τ).loc main_arg21)) := by
  show StableHlo.after hostOps1 (W2 m ρ c) (Proc.devRef .tc main_v66) = _
  after_results_simp
  rw [(kept_arg21 m ρ c).w2]
  try rfl

/-- Region 1 finds the second dense stage's bias: row 0 of the stack. -/
theorem V3_p4 : V3 m ρ c main_v68 = Cert.ReferenceIdeal.Read.val_main_v66 (F := Ideal) (m ((c : Thread nD τ).loc main_arg22)) := by
  show StableHlo.after hostOps1 (W2 m ρ c) (Proc.devRef .tc main_v68) = _
  after_results_simp
  rw [(kept_arg22 m ρ c).w2]
  try rfl

/-- Region 1 finds the output normalisation's scale: row 0 of the stack. -/
theorem V3_p5 : V3 m ρ c main_v70 = Cert.ReferenceIdeal.Read.val_main_v68 (F := Ideal) (m ((c : Thread nD τ).loc main_arg23)) := by
  show StableHlo.after hostOps1 (W2 m ρ c) (Proc.devRef .tc main_v70) = _
  after_results_simp
  rw [(kept_arg23 m ρ c).w2]
  try rfl

/-- Region 1 finds the output normalisation's shift: row 0 of the stack. -/
theorem V3_p6 : V3 m ρ c main_v72 = Cert.ReferenceIdeal.Read.val_main_v70 (F := Ideal) (m ((c : Thread nD τ).loc main_arg24)) := by
  show StableHlo.after hostOps1 (W2 m ρ c) (Proc.devRef .tc main_v72) = _
  after_results_simp
  rw [(kept_arg24 m ρ c).w2]
  try rfl

/-- Region 1 finds the output normalisation's mean: row 0 of the stack. -/
theorem V3_p7 : V3 m ρ c main_v74 = Cert.ReferenceIdeal.Read.val_main_v72 (F := Ideal) (m ((c : Thread nD τ).loc main_arg25)) := by
  show StableHlo.after hostOps1 (W2 m ρ c) (Proc.devRef .tc main_v74) = _
  after_results_simp
  rw [(kept_arg25 m ρ c).w2]
  try rfl

/-- Region 1 finds the output normalisation's variance: row 0 of the stack. -/
theorem V3_p8 : V3 m ρ c main_v76 = Cert.ReferenceIdeal.Read.val_main_v74 (F := Ideal) (m ((c : Thread nD τ).loc main_arg26)) := by
  show StableHlo.after hostOps1 (W2 m ρ c) (Proc.devRef .tc main_v76) = _
  after_results_simp
  rw [(kept_arg26 m ρ c).w2]
  try rfl

end Cert.KerSide

end
-- ==== Proof.KStretch2.lean ====
/-
  Host stretch 2 of the idealized kernel program, read against the reference program's stages.

  Between regions 1 and 2 the program takes row 1 of each stacked parameter, normalises the previous layer's features
  column by column, gathers the normalised rows at the edges' source nodes, sums them into the target nodes and adds
  the normalised features themselves: the reference program's operations of the same layer, on the same arguments and,
  once the previous layer's features are the reference's (the hypothesis), on the same features. So what region 2 finds
  in each of its arrays is the reference's stage of the same name.
-/
import proofs.«174249_j54640573940143_1_alg».proof.Proof.Gen.KernelIdeal.Frame
import proofs.«174249_j54640573940143_1_alg».proof.Proof.RefRead
import proofs.«174249_j54640573940143_1_alg».proof.Proof.KPassive
import proofs.«174249_j54640573940143_1_alg».proof.Proof.KKeptA
import proofs.«174249_j54640573940143_1_alg».proof.Proof.KKeptB
import proofs.«174249_j54640573940143_1_alg».proof.Proof.KKeptC
import proofs.«174249_j54640573940143_1_alg».proof.Proof.KStretch0
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The aggregated features region 2 finds are the reference's, when the previous layer's features are. -/
theorem V5_agg
    (hprev : W4 m ρ c (Proc.devRef .tc main_v77) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) :
    V5 m ρ c main_v109 = Cert.ReferenceIdeal.Read.val_main_v169 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after hostOps2 (W4 m ρ c) (Proc.devRef .tc main_v109) = _
  after_results_simp
  rw [hprev, (kept_src m ρ c).w4, W1_src, (kept_dst m ρ c).w4, W1_dst,
    (kept_arg15 m ρ c).w4, (kept_arg16 m ρ c).w4, (kept_arg17 m ρ c).w4, (kept_arg18 m ρ c).w4]
  try rfl

/-- Region 2 finds the first dense stage's weights: row 1 of the stack. -/
theorem V5_p1 : V5 m ρ c main_v111 = Cert.ReferenceIdeal.Read.val_main_v131 (F := Ideal) (m ((c : Thread nD τ).loc main_arg19)) := by
  show StableHlo.after hostOps2 (W4 m ρ c) (Proc.devRef .tc main_v111) = _
  after_results_simp
  rw [(kept_arg19 m ρ c).w4]
  try rfl

/-- Region 2 finds the first dense stage's bias: row 1 of the stack. -/
theorem V5_p2 : V5 m ρ c main_v113 = Cert.ReferenceIdeal.Read.val_main_v133 (F := Ideal) (m ((c : Thread nD τ).loc main_arg20)) := by
  show StableHlo.after hostOps2 (W4 m ρ c) (Proc.devRef .tc main_v113) = _
  after_results_simp
  rw [(kept_arg20 m ρ c).w4]
  try rfl

/-- Region 2 finds the second dense stage's weights: row 1 of the stack. -/
theorem V5_p3 : V5 m ρ c main_v115 = Cert.ReferenceIdeal.Read.val_main_v135 (F := Ideal) (m ((c : Thread nD τ).loc main_arg21)) := by
  show StableHlo.after hostOps2 (W4 m ρ c) (Proc.devRef .tc main_v115) = _
  after_results_simp
  rw [(kept_arg21 m ρ c).w4]
  try rfl

/-- Region 2 finds the second dense stage's bias: row 1 of the stack. -/
theorem V5_p4 : V5 m ρ c main_v117 = Cert.ReferenceIdeal.Read.val_main_v137 (F := Ideal) (m ((c : Thread nD τ).loc main_arg22)) := by
  show StableHlo.after hostOps2 (W4 m ρ c) (Proc.devRef .tc main_v117) = _
  after_results_simp
  rw [(kept_arg22 m ρ c).w4]
  try rfl

/-- Region 2 finds the output normalisation's scale: row 1 of the stack. -/
theorem V5_p5 : V5 m ρ c main_v119 = Cert.ReferenceIdeal.Read.val_main_v139 (F := Ideal) (m ((c : Thread nD τ).loc main_arg23)) := by
  show StableHlo.after hostOps2 (W4 m ρ c) (Proc.devRef .tc main_v119) = _
  after_results_simp
  rw [(kept_arg23 m ρ c).w4]
  try rfl

/-- Region 2 finds the output normalisation's shift: row 1 of the stack. -/
theorem V5_p6 : V5 m ρ c main_v121 = Cert.ReferenceIdeal.Read.val_main_v141 (F := Ideal) (m ((c : Thread nD τ).loc main_arg24)) := by
  show StableHlo.after hostOps2 (W4 m ρ c) (Proc.devRef .tc main_v121) = _
  after_results_simp
  rw [(kept_arg24 m ρ c).w4]
  try rfl

/-- Region 2 finds the output normalisation's mean: row 1 of the stack. -/
theorem V5_p7 : V5 m ρ c main_v123 = Cert.ReferenceIdeal.Read.val_main_v143 (F := Ideal) (m ((c : Thread nD τ).loc main_arg25)) := by
  show StableHlo.after hostOps2 (W4 m ρ c) (Proc.devRef .tc main_v123) = _
  after_results_simp
  rw [(kept_arg25 m ρ c).w4]
  try rfl

/-- Region 2 finds the output normalisation's variance: row 1 of the stack. -/
theorem V5_p8 : V5 m ρ c main_v125 = Cert.ReferenceIdeal.Read.val_main_v145 (F := Ideal) (m ((c : Thread nD τ).loc main_arg26)) := by
  show StableHlo.after hostOps2 (W4 m ρ c) (Proc.devRef .tc main_v125) = _
  after_results_simp
  rw [(kept_arg26 m ρ c).w4]
  try rfl

end Cert.KerSide

end
-- ==== Proof.KStretch3.lean ====
/-
  Host stretch 3 of the idealized kernel program, read against the reference program's stages.

  Between regions 2 and 3 the program takes row 2 of each stacked parameter, normalises the previous layer's features
  column by column, gathers the normalised rows at the edges' source nodes, sums them into the target nodes and adds
  the normalised features themselves: the reference program's operations of the same layer, on the same arguments and,
  once the previous layer's features are the reference's (the hypothesis), on the same features. So what region 3 finds
  in each of its arrays is the reference's stage of the same name.
-/
import proofs.«174249_j54640573940143_1_alg».proof.Proof.Gen.KernelIdeal.Frame
import proofs.«174249_j54640573940143_1_alg».proof.Proof.RefRead
import proofs.«174249_j54640573940143_1_alg».proof.Proof.KPassive
import proofs.«174249_j54640573940143_1_alg».proof.Proof.KKeptA
import proofs.«174249_j54640573940143_1_alg».proof.Proof.KKeptB
import proofs.«174249_j54640573940143_1_alg».proof.Proof.KKeptC
import proofs.«174249_j54640573940143_1_alg».proof.Proof.KStretch0
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The aggregated features region 3 finds are the reference's, when the previous layer's features are. -/
theorem V7_agg
    (hprev : W6 m ρ c (Proc.devRef .tc main_v126) = Cert.ReferenceIdeal.Read.val_main_v192 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) :
    V7 m ρ c main_v158 = Cert.ReferenceIdeal.Read.val_main_v240 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after hostOps3 (W6 m ρ c) (Proc.devRef .tc main_v158) = _
  after_results_simp
  rw [hprev, (kept_src m ρ c).w6, W1_src, (kept_dst m ρ c).w6, W1_dst,
    (kept_arg15 m ρ c).w6, (kept_arg16 m ρ c).w6, (kept_arg17 m ρ c).w6, (kept_arg18 m ρ c).w6]
  try rfl

/-- Region 3 finds the first dense stage's weights: row 2 of the stack. -/
theorem V7_p1 : V7 m ρ c main_v160 = Cert.ReferenceIdeal.Read.val_main_v202 (F := Ideal) (m ((c : Thread nD τ).loc main_arg19)) := by
  show StableHlo.after hostOps3 (W6 m ρ c) (Proc.devRef .tc main_v160) = _
  after_results_simp
  rw [(kept_arg19 m ρ c).w6]
  try rfl

/-- Region 3 finds the first dense stage's bias: row 2 of the stack. -/
theorem V7_p2 : V7 m ρ c main_v162 = Cert.ReferenceIdeal.Read.val_main_v204 (F := Ideal) (m ((c : Thread nD τ).loc main_arg20)) := by
  show StableHlo.after hostOps3 (W6 m ρ c) (Proc.devRef .tc main_v162) = _
  after_results_simp
  rw [(kept_arg20 m ρ c).w6]
  try rfl

/-- Region 3 finds the second dense stage's weights: row 2 of the stack. -/
theorem V7_p3 : V7 m ρ c main_v164 = Cert.ReferenceIdeal.Read.val_main_v206 (F := Ideal) (m ((c : Thread nD τ).loc main_arg21)) := by
  show StableHlo.after hostOps3 (W6 m ρ c) (Proc.devRef .tc main_v164) = _
  after_results_simp
  rw [(kept_arg21 m ρ c).w6]
  try rfl

/-- Region 3 finds the second dense stage's bias: row 2 of the stack. -/
theorem V7_p4 : V7 m ρ c main_v166 = Cert.ReferenceIdeal.Read.val_main_v208 (F := Ideal) (m ((c : Thread nD τ).loc main_arg22)) := by
  show StableHlo.after hostOps3 (W6 m ρ c) (Proc.devRef .tc main_v166) = _
  after_results_simp
  rw [(kept_arg22 m ρ c).w6]
  try rfl

/-- Region 3 finds the output normalisation's scale: row 2 of the stack. -/
theorem V7_p5 : V7 m ρ c main_v168 = Cert.ReferenceIdeal.Read.val_main_v210 (F := Ideal) (m ((c : Thread nD τ).loc main_arg23)) := by
  show StableHlo.after hostOps3 (W6 m ρ c) (Proc.devRef .tc main_v168) = _
  after_results_simp
  rw [(kept_arg23 m ρ c).w6]
  try rfl

/-- Region 3 finds the output normalisation's shift: row 2 of the stack. -/
theorem V7_p6 : V7 m ρ c main_v170 = Cert.ReferenceIdeal.Read.val_main_v212 (F := Ideal) (m ((c : Thread nD τ).loc main_arg24)) := by
  show StableHlo.after hostOps3 (W6 m ρ c) (Proc.devRef .tc main_v170) = _
  after_results_simp
  rw [(kept_arg24 m ρ c).w6]
  try rfl

/-- Region 3 finds the output normalisation's mean: row 2 of the stack. -/
theorem V7_p7 : V7 m ρ c main_v172 = Cert.ReferenceIdeal.Read.val_main_v214 (F := Ideal) (m ((c : Thread nD τ).loc main_arg25)) := by
  show StableHlo.after hostOps3 (W6 m ρ c) (Proc.devRef .tc main_v172) = _
  after_results_simp
  rw [(kept_arg25 m ρ c).w6]
  try rfl

/-- Region 3 finds the output normalisation's variance: row 2 of the stack. -/
theorem V7_p8 : V7 m ρ c main_v174 = Cert.ReferenceIdeal.Read.val_main_v216 (F := Ideal) (m ((c : Thread nD τ).loc main_arg26)) := by
  show StableHlo.after hostOps3 (W6 m ρ c) (Proc.devRef .tc main_v174) = _
  after_results_simp
  rw [(kept_arg26 m ρ c).w6]
  try rfl

end Cert.KerSide

end
-- ==== Proof.KStretch4.lean ====
/-
  Host stretch 4 of the idealized kernel program, read against the reference program's stages.

  Between regions 3 and 4 the program takes row 3 of each stacked parameter, normalises the previous layer's features
  column by column, gathers the normalised rows at the edges' source nodes, sums them into the target nodes and adds
  the normalised features themselves: the reference program's operations of the same layer, on the same arguments and,
  once the previous layer's features are the reference's (the hypothesis), on the same features. So what region 4 finds
  in each of its arrays is the reference's stage of the same name.
-/
import proofs.«174249_j54640573940143_1_alg».proof.Proof.Gen.KernelIdeal.Frame
import proofs.«174249_j54640573940143_1_alg».proof.Proof.RefRead
import proofs.«174249_j54640573940143_1_alg».proof.Proof.KPassive
import proofs.«174249_j54640573940143_1_alg».proof.Proof.KKeptA
import proofs.«174249_j54640573940143_1_alg».proof.Proof.KKeptB
import proofs.«174249_j54640573940143_1_alg».proof.Proof.KKeptC
import proofs.«174249_j54640573940143_1_alg».proof.Proof.KStretch0
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The aggregated features region 4 finds are the reference's, when the previous layer's features are. -/
theorem V9_agg
    (hprev : W8 m ρ c (Proc.devRef .tc main_v175) = Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) :
    V9 m ρ c main_v207 = Cert.ReferenceIdeal.Read.val_main_v311 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after hostOps4 (W8 m ρ c) (Proc.devRef .tc main_v207) = _
  after_results_simp
  rw [hprev, (kept_src m ρ c).w8, W1_src, (kept_dst m ρ c).w8, W1_dst,
    (kept_arg15 m ρ c).w8, (kept_arg16 m ρ c).w8, (kept_arg17 m ρ c).w8, (kept_arg18 m ρ c).w8]
  try rfl

/-- Region 4 finds the first dense stage's weights: row 3 of the stack. -/
theorem V9_p1 : V9 m ρ c main_v209 = Cert.ReferenceIdeal.Read.val_main_v273 (F := Ideal) (m ((c : Thread nD τ).loc main_arg19)) := by
  show StableHlo.after hostOps4 (W8 m ρ c) (Proc.devRef .tc main_v209) = _
  after_results_simp
  rw [(kept_arg19 m ρ c).w8]
  try rfl

/-- Region 4 finds the first dense stage's bias: row 3 of the stack. -/
theorem V9_p2 : V9 m ρ c main_v211 = Cert.ReferenceIdeal.Read.val_main_v275 (F := Ideal) (m ((c : Thread nD τ).loc main_arg20)) := by
  show StableHlo.after hostOps4 (W8 m ρ c) (Proc.devRef .tc main_v211) = _
  after_results_simp
  rw [(kept_arg20 m ρ c).w8]
  try rfl

/-- Region 4 finds the second dense stage's weights: row 3 of the stack. -/
theorem V9_p3 : V9 m ρ c main_v213 = Cert.ReferenceIdeal.Read.val_main_v277 (F := Ideal) (m ((c : Thread nD τ).loc main_arg21)) := by
  show StableHlo.after hostOps4 (W8 m ρ c) (Proc.devRef .tc main_v213) = _
  after_results_simp
  rw [(kept_arg21 m ρ c).w8]
  try rfl

/-- Region 4 finds the second dense stage's bias: row 3 of the stack. -/
theorem V9_p4 : V9 m ρ c main_v215 = Cert.ReferenceIdeal.Read.val_main_v279 (F := Ideal) (m ((c : Thread nD τ).loc main_arg22)) := by
  show StableHlo.after hostOps4 (W8 m ρ c) (Proc.devRef .tc main_v215) = _
  after_results_simp
  rw [(kept_arg22 m ρ c).w8]
  try rfl

/-- Region 4 finds the output normalisation's scale: row 3 of the stack. -/
theorem V9_p5 : V9 m ρ c main_v217 = Cert.ReferenceIdeal.Read.val_main_v281 (F := Ideal) (m ((c : Thread nD τ).loc main_arg23)) := by
  show StableHlo.after hostOps4 (W8 m ρ c) (Proc.devRef .tc main_v217) = _
  after_results_simp
  rw [(kept_arg23 m ρ c).w8]
  try rfl

/-- Region 4 finds the output normalisation's shift: row 3 of the stack. -/
theorem V9_p6 : V9 m ρ c main_v219 = Cert.ReferenceIdeal.Read.val_main_v283 (F := Ideal) (m ((c : Thread nD τ).loc main_arg24)) := by
  show StableHlo.after hostOps4 (W8 m ρ c) (Proc.devRef .tc main_v219) = _
  after_results_simp
  rw [(kept_arg24 m ρ c).w8]
  try rfl

/-- Region 4 finds the output normalisation's mean: row 3 of the stack. -/
theorem V9_p7 : V9 m ρ c main_v221 = Cert.ReferenceIdeal.Read.val_main_v285 (F := Ideal) (m ((c : Thread nD τ).loc main_arg25)) := by
  show StableHlo.after hostOps4 (W8 m ρ c) (Proc.devRef .tc main_v221) = _
  after_results_simp
  rw [(kept_arg25 m ρ c).w8]
  try rfl

/-- Region 4 finds the output normalisation's variance: row 3 of the stack. -/
theorem V9_p8 : V9 m ρ c main_v223 = Cert.ReferenceIdeal.Read.val_main_v287 (F := Ideal) (m ((c : Thread nD τ).loc main_arg26)) := by
  show StableHlo.after hostOps4 (W8 m ρ c) (Proc.devRef .tc main_v223) = _
  after_results_simp
  rw [(kept_arg26 m ρ c).w8]
  try rfl

end Cert.KerSide

end
-- ==== Proof.KStretch5.lean ====
/-
  The last host stretch of the idealized kernel program, read against the reference program's stages.

  After the last layer the program sums the nodes' features into their graphs, counts each graph's nodes, and divides
  each sum by its count or by one, whichever is larger: the reference program's mean pooling, on the same graph
  assignment and, once the last layer's features are the reference's (the hypothesis), on the same features. The head's
  parameters are arguments, which no stretch touches.
-/
import proofs.«174249_j54640573940143_1_alg».proof.Proof.Gen.KernelIdeal.Frame
import proofs.«174249_j54640573940143_1_alg».proof.Proof.RefRead
import proofs.«174249_j54640573940143_1_alg».proof.Proof.KPassive
import proofs.«174249_j54640573940143_1_alg».proof.Proof.KKeptA
import proofs.«174249_j54640573940143_1_alg».proof.Proof.KKeptC
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

/-- The pooled features the last region finds are the reference's, when the last layer's features are. -/
theorem V11_pool
    (hprev : W10 m ρ c (Proc.devRef .tc main_v224) = Cert.ReferenceIdeal.Read.val_main_v334 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) :
    V11 m ρ c main_v236 = Cert.ReferenceIdeal.Read.val_main_v346 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after hostOps5 (W10 m ρ c) (Proc.devRef .tc main_v236) = _
  after_results_simp
  rw [hprev, (kept_arg2 m ρ c).w10]
  try rfl

/-- The last region finds argument 27 as launched. -/
theorem V11_arg27 : V11 m ρ c main_arg27 = (m ((c : Thread nD τ).loc main_arg27)) := by
  show StableHlo.after hostOps5 (W10 m ρ c) (Proc.devRef .tc main_arg27) = _
  after_results_simp
  rw [(kept_arg27 m ρ c).w10]
  try rfl

/-- The last region finds argument 28 as launched. -/
theorem V11_arg28 : V11 m ρ c main_arg28 = (m ((c : Thread nD τ).loc main_arg28)) := by
  show StableHlo.after hostOps5 (W10 m ρ c) (Proc.devRef .tc main_arg28) = _
  after_results_simp
  rw [(kept_arg28 m ρ c).w10]
  try rfl

/-- The last region finds argument 29 as launched. -/
theorem V11_arg29 : V11 m ρ c main_arg29 = (m ((c : Thread nD τ).loc main_arg29)) := by
  show StableHlo.after hostOps5 (W10 m ρ c) (Proc.devRef .tc main_arg29) = _
  after_results_simp
  rw [(kept_arg29 m ρ c).w10]
  try rfl

/-- The last region finds argument 30 as launched. -/
theorem V11_arg30 : V11 m ρ c main_arg30 = (m ((c : Thread nD τ).loc main_arg30)) := by
  show StableHlo.after hostOps5 (W10 m ρ c) (Proc.devRef .tc main_arg30) = _
  after_results_simp
  rw [(kept_arg30 m ρ c).w10]
  try rfl

end Cert.KerSide

end
-- ==== Proof.KValue.lean ====
/-
  The idealized kernel program's result, as the reference program's last stage.

  Layer by layer: a region ends with the layer's update of the aggregated features it found (the region's own lemma and
  the body's arithmetic); what it found are the reference's aggregated features and parameters (the host stretch before
  it, given the previous layer); and the reference's stage of that layer is the same update of the same arrays. So each
  layer's features are the reference's, then the pooled features are, then the head's result is.
-/
import proofs.«174249_j54640573940143_1_alg».proof.Proof.Gen.KernelIdeal.Frame
import proofs.«174249_j54640573940143_1_alg».proof.Proof.RefRead
import proofs.«174249_j54640573940143_1_alg».proof.Proof.RefSide
import proofs.«174249_j54640573940143_1_alg».proof.Proof.KBody0
import proofs.«174249_j54640573940143_1_alg».proof.Proof.KBody14
import proofs.«174249_j54640573940143_1_alg».proof.Proof.KBody5
import proofs.«174249_j54640573940143_1_alg».proof.Proof.KRegion0
import proofs.«174249_j54640573940143_1_alg».proof.Proof.KRegion1
import proofs.«174249_j54640573940143_1_alg».proof.Proof.KRegion2
import proofs.«174249_j54640573940143_1_alg».proof.Proof.KRegion3
import proofs.«174249_j54640573940143_1_alg».proof.Proof.KRegion4
import proofs.«174249_j54640573940143_1_alg».proof.Proof.KRegion5
import proofs.«174249_j54640573940143_1_alg».proof.Proof.KStretch0
import proofs.«174249_j54640573940143_1_alg».proof.Proof.KStretch1
import proofs.«174249_j54640573940143_1_alg».proof.Proof.KStretch2
import proofs.«174249_j54640573940143_1_alg».proof.Proof.KStretch3
import proofs.«174249_j54640573940143_1_alg».proof.Proof.KStretch4
import proofs.«174249_j54640573940143_1_alg».proof.Proof.KStretch5
set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- The first layer's features are the reference's. -/
theorem feat0 : W2 m ρ c (Proc.devRef .tc main_v28) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : W2 m ρ c (Proc.devRef .tc main_v28) = (dat0 (F := Ideal) (V1 m ρ) c).arrAt 9 cfg0.N := W2_arr m ρ c 9
  rw [e, region0 (V1 m ρ) body0 c, V1_agg, V1_arg7, V1_arg8, V1_arg9, V1_arg10, V1_arg11, V1_arg12, V1_arg13, V1_arg14]
  exact (Cert.RefSide.layer0 ..).symm

/-- Layer 1's features are the reference's. -/
theorem feat1 : W4 m ρ c (Proc.devRef .tc main_v77) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  have e : W4 m ρ c (Proc.devRef .tc main_v77) = (dat1 (F := Ideal) (V3 m ρ) c).arrAt 9 cfg1.N := W4_arr m ρ c 9
  rw [e, region1 (V3 m ρ) body1 c, V3_agg m ρ c (feat0 m ρ c), V3_p1, V3_p2, V3_p3, V3_p4, V3_p5, V3_p6, V3_p7, V3_p8]
  exact (Cert.RefSide.layer1 ..).symm

/-- Layer 2's features are the reference's. -/
theorem feat2 : W6 m ρ c (Proc.devRef .tc main_v126) = Cert.ReferenceIdeal.Read.val_main_v192 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  have e : W6 m ρ c (Proc.devRef .tc main_v126) = (dat2 (F := Ideal) (V5 m ρ) c).arrAt 9 cfg2.N := W6_arr m ρ c 9
  rw [e, region2 (V5 m ρ) body2 c, V5_agg m ρ c (feat1 m ρ c), V5_p1, V5_p2, V5_p3, V5_p4, V5_p5, V5_p6, V5_p7, V5_p8]
  exact (Cert.RefSide.layer2 ..).symm

/-- Layer 3's features are the reference's. -/
theorem feat3 : W8 m ρ c (Proc.devRef .tc main_v175) = Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  have e : W8 m ρ c (Proc.devRef .tc main_v175) = (dat3 (F := Ideal) (V7 m ρ) c).arrAt 9 cfg3.N := W8_arr m ρ c 9
  rw [e, region3 (V7 m ρ) body3 c, V7_agg m ρ c (feat2 m ρ c), V7_p1, V7_p2, V7_p3, V7_p4, V7_p5, V7_p6, V7_p7, V7_p8]
  exact (Cert.RefSide.layer3 ..).symm

/-- Layer 4's features are the reference's. -/
theorem feat4 : W10 m ρ c (Proc.devRef .tc main_v224) = Cert.ReferenceIdeal.Read.val_main_v334 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  have e : W10 m ρ c (Proc.devRef .tc main_v224) = (dat4 (F := Ideal) (V9 m ρ) c).arrAt 9 cfg4.N := W10_arr m ρ c 9
  rw [e, region4 (V9 m ρ) body4 c, V9_agg m ρ c (feat3 m ρ c), V9_p1, V9_p2, V9_p3, V9_p4, V9_p5, V9_p6, V9_p7, V9_p8]
  exact (Cert.RefSide.layer4 ..).symm

/-- THE RESULT: the program's result buffer at the last boundary is the reference's last stage of the same arguments. -/
theorem result_eq : W12 m ρ c (Proc.devRef .tc main_v237) = Cert.ReferenceIdeal.Read.val_main_v377 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  have e : W12 m ρ c (Proc.devRef .tc main_v237) = (dat5 (F := Ideal) (V11 m ρ) c).arrAt 5 cfg5.N := W12_arr m ρ c 5
  rw [e, region5 (V11 m ρ) body5 c, V11_pool m ρ c (feat4 m ρ c), V11_arg27, V11_arg28, V11_arg29, V11_arg30]
  exact (Cert.RefSide.head ..).symm

end Cert.KerSide

end
-- ==== Proof.lean ====
/-
  The certificate of a graph network's forward pass: five message-passing layers, mean pooling over graphs, and a dense
  head, as a program of six grid regions among host operations (the kernel) against plain array operations (the
  reference), compared at the ideal instance where a float is an extended real and every operation is exact.

  The two programs apply the same host operations — batch normalisation of the features, the gather at the edges'
  source nodes, the sum into the target nodes, the self term, the pooling — to the same arguments, and differ only in
  how a layer's dense update `relu(bn(relu(a·w1 + b1)·w2 + b2))` and the head are computed: the kernel in blocks of
  1000 rows, each product a matrix unit's product into a zero accumulator of operands rounded to a narrower format (the
  identity at the ideal instance); the reference as whole-array products. An entry of such an update depends on one row
  of its input, so the blocks are the blocks of the whole update; a product into a zero accumulator and the host's
  product are the same sum. Every equation is term by term: no law that needs finite entries is used, and the
  precondition is never opened.

  Proof/Spec.lean states the update and the head; Proof/RefSide.lean shows the reference's stages are them;
  Proof/KBody*.lean that the regions' bodies compute them of their blocks, Proof/KRegion*.lean that a region's output array
  then holds them of the whole arrays; Proof/KStretch*.lean read the host stretches against the reference's stages;
  Proof/KValue.lean chains the layers; Proof/KRun.lean is the kernel program's run with every buffer named at the end; Proof/RefSeq.lean, RefLive.lean,
  RefPart*.lean and RefRunVal.lean are the reference program's run, part by part, with its result at the last stage.
  The frames of the two kernel programs are the generated ones; the reference's frame is its run with the result dropped.
-/
import proofs.«174249_j54640573940143_1_alg».proof.Defs
import proofs.«174249_j54640573940143_1_alg».proof.Proof.Gen.Kernel
import proofs.«174249_j54640573940143_1_alg».proof.Proof.Gen.Kernel.Skeleton
import proofs.«174249_j54640573940143_1_alg».proof.Proof.Gen.Kernel.Launch
import proofs.«174249_j54640573940143_1_alg».proof.Proof.Gen.Kernel.Points
import proofs.«174249_j54640573940143_1_alg».proof.Proof.Gen.Kernel.Frame
import proofs.«174249_j54640573940143_1_alg».proof.Proof.Gen.KernelIdeal
import proofs.«174249_j54640573940143_1_alg».proof.Proof.Gen.KernelIdeal.Skeleton
import proofs.«174249_j54640573940143_1_alg».proof.Proof.Gen.KernelIdeal.Launch
import proofs.«174249_j54640573940143_1_alg».proof.Proof.Gen.KernelIdeal.Points
import proofs.«174249_j54640573940143_1_alg».proof.Proof.Gen.KernelIdeal.Frame
import proofs.«174249_j54640573940143_1_alg».proof.Proof.Gen.ReferenceIdeal
import proofs.«174249_j54640573940143_1_alg».proof.Proof.Gen.Pre_finite_inputs
import proofs.«174249_j54640573940143_1_alg».proof.Proof.RefRead
import proofs.«174249_j54640573940143_1_alg».proof.Proof.RefRunVal
import proofs.«174249_j54640573940143_1_alg».proof.Proof.KRun
import proofs.«174249_j54640573940143_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference program runs and keeps its arguments: its run, the result dropped. -/
theorem frame_ri : Cert.frame_ReferenceIdeal := fun m ρ _ =>
  (θ_run Cert.ReferenceIdeal.defs _ _).mono (fun _ h c => (h c).2) (Cert.RefSide.ref_run m ρ)

/-- The idealization rewrote nothing. -/
theorem preserves : Cert.preserves_Kernel_KernelIdeal := trivial

section
open Cert.KernelIdeal Cert.KernelIdeal.Gen

set_option maxHeartbeats 4000000 in
/-- From memories agreeing on the arguments both programs end with the reference's last stage of the arguments in their
    result buffers. -/
theorem algebraic : Cert.algebraic_KernelIdeal_ReferenceIdeal := by
  intro m ρ m' ρ' _ hagree
  refine ⟨fun c => Cert.ReferenceIdeal.Read.val_main_v377 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)), ?_, ?_⟩
  · exact (θ_run Cert.KernelIdeal.defs _ _).mono (fun r h c =>
      ⟨(h c _ Cert.KerSide.result_mem_uc).trans (Cert.KerSide.result_eq m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c),
       (h c _ (mem_uc main_arg30 (by decide))).trans (W12_main_arg30 m ρ c)⟩)
      (Cert.KerSide.run_all m ρ)
  · refine (θ_run Cert.ReferenceIdeal.defs _ _).mono (fun r h c => ⟨(h c).1.trans ?_, (h c).2⟩)
      (Cert.RefSide.ref_run m' ρ')
    obtain ⟨h0, h1, h2, h3, h4, h5, h6, h7, h8, h9, h10, h11, h12, h13, h14, h15, h16, h17, h18, h19, h20, h21, h22, h23, h24, h25, h26, h27, h28, h29, h30⟩ := hagree c
    rw [h0, h1, h2, h3, h4, h5, h6, h7, h8, h9, h10, h11, h12, h13, h14, h15, h16, h17, h18, h19, h20, h21, h22, h23, h24, h25, h26, h27, h28, h29, h30]

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
